-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x5 : Shape := ⟨2, ![2000000, 5]⟩
abbrev S6x4x5 : Shape := ⟨3, ![6, 4, 5]⟩
abbrev S6x4 : Shape := ⟨2, ![6, 4]⟩
abbrev S6x4x4 : Shape := ⟨3, ![6, 4, 4]⟩
abbrev S4x2x4 : Shape := ⟨3, ![4, 2, 4]⟩
abbrev S4x2 : Shape := ⟨2, ![4, 2]⟩
abbrev S2x1x4 : Shape := ⟨3, ![2, 1, 4]⟩
abbrev S2x1 : Shape := ⟨2, ![2, 1]⟩
abbrev S_ : Shape := ⟨0, ![]⟩

class Facts : Prop where
  bcast_S_S2000000x5 : S_.BroadcastsInDim S2000000x5 (![] : Fin 0 → Fin S2000000x5.rank)
  reducesTo_S2000000x5_S_d0_1 : S2000000x5.ReducesTo [0, 1] S_
  h_S_ : 0 < S_.numel
  bcast_S_S6x4x5 : S_.BroadcastsInDim S6x4x5 (![] : Fin 0 → Fin S6x4x5.rank)
  reducesTo_S6x4x5_S_d0_1_2 : S6x4x5.ReducesTo [0, 1, 2] S_
  bcast_S_S6x4 : S_.BroadcastsInDim S6x4 (![] : Fin 0 → Fin S6x4.rank)
  reducesTo_S6x4_S_d0_1 : S6x4.ReducesTo [0, 1] S_
  bcast_S_S6x4x4 : S_.BroadcastsInDim S6x4x4 (![] : Fin 0 → Fin S6x4x4.rank)
  reducesTo_S6x4x4_S_d0_1_2 : S6x4x4.ReducesTo [0, 1, 2] S_
  bcast_S_S4x2x4 : S_.BroadcastsInDim S4x2x4 (![] : Fin 0 → Fin S4x2x4.rank)
  reducesTo_S4x2x4_S_d0_1_2 : S4x2x4.ReducesTo [0, 1, 2] S_
  bcast_S_S4x2 : S_.BroadcastsInDim S4x2 (![] : Fin 0 → Fin S4x2.rank)
  reducesTo_S4x2_S_d0_1 : S4x2.ReducesTo [0, 1] S_
  bcast_S_S2x1x4 : S_.BroadcastsInDim S2x1x4 (![] : Fin 0 → Fin S2x1x4.rank)
  reducesTo_S2x1x4_S_d0_1_2 : S2x1x4.ReducesTo [0, 1, 2] S_
  bcast_S_S2x1 : S_.BroadcastsInDim S2x1 (![] : Fin 0 → Fin S2x1.rank)
  reducesTo_S2x1_S_d0_1 : S2x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2x1 .f32) (main_arg12 : FVec F S2x1x4 .f32) (main_arg13 : FVec F S2x1 .f32) (main_v48 : IVec S_ 1) (main_v49 : FVec F S2x1x4 .f32) (main_v50 : FVec F S2x1x4 .f32) : IVec S_ 1 :=
  let main_v51 : IVec S2x1x4 1 := cmpf .olt main_v49 main_v50
  let main_c_19 : IVec S_ 1 := constantI S_ 1 1#1
  let main_v52 : IVec S_ 1 := (fun x v => Host.reduce IntOp.andi x v reducesTo_S2x1x4_S_d0_1_2 h_S_) main_v51 main_c_19
  let main_v53 : IVec S_ 1 := andi main_v48 main_v52
  let main_v54 : FVec F S2x1 .f32 := Host.absf main_arg11
  let main_cst_20 : FVec F S_ .f32 := constant S_ .f32 0x7F800000#32
  let main_v55 : FVec F S2x1 .f32 := broadcastInDim S2x1 ![] bcast_S_S2x1 main_cst_20
  let main_v56 : IVec S2x1 1 := cmpf .olt main_v54 main_v55
  let main_c_21 : IVec S_ 1 := constantI S_ 1 1#1
  let main_v57 : IVec S_ 1 := (fun x v => Host.reduce IntOp.andi x v reducesTo_S2x1_S_d0_1 h_S_) main_v56 main_c_21
  let main_v58 : IVec S_ 1 := andi main_v53 main_v57
  let main_v59 : FVec F S2x1x4 .f32 := Host.absf main_arg12
  let main_cst_22 : FVec F S_ .f32 := constant S_ .f32 0x7F800000#32
  let main_v60 : FVec F S2x1x4 .f32 := broadcastInDim S2x1x4 ![] bcast_S_S2x1x4 main_cst_22
  let main_v61 : IVec S2x1x4 1 := cmpf .olt main_v59 main_v60
  let main_c_23 : IVec S_ 1 := constantI S_ 1 1#1
  let main_v62 : IVec S_ 1 := (fun x v => Host.reduce IntOp.andi x v reducesTo_S2x1x4_S_d0_1_2 h_S_) main_v61 main_c_23
  let main_v63 : IVec S_ 1 := andi main_v58 main_v62
  let main_v64 : FVec F S2x1 .f32 := Host.absf main_arg13
  let main_cst_24 : FVec F S_ .f32 := constant S_ .f32 0x7F800000#32
  let main_v65 : FVec F S2x1 .f32 := broadcastInDim S2x1 ![] bcast_S_S2x1 main_cst_24
  let main_v66 : IVec S2x1 1 := cmpf .olt main_v64 main_v65
  let main_c_25 : IVec S_ 1 := constantI S_ 1 1#1
  let main_v67 : IVec S_ 1 := (fun x v => Host.reduce IntOp.andi x v reducesTo_S2x1_S_d0_1 h_S_) main_v66 main_c_25
  fn_part4 (F := F) main_v63 main_v67

def fn_part2 {F : FTy → Type} [FloatOps F] (main_arg7 : FVec F S6x4 .f32) (main_arg8 : FVec F S4x2x4 .f32) (main_arg9 : FVec F S4x2 .f32) (main_arg10 : FVec F S2x1x4 .f32) (main_arg11 : FVec F S2x1 .f32) (main_arg12 : FVec F S2x1x4 .f32) (main_arg13 : FVec F S2x1 .f32) (main_v33 : IVec S_ 1) : IVec S_ 1 :=
  let main_v34 : FVec F S6x4 .f32 := Host.absf main_arg7
  let main_cst_12 : FVec F S_ .f32 := constant S_ .f32 0x7F800000#32
  let main_v35 : FVec F S6x4 .f32 := broadcastInDim S6x4 ![] bcast_S_S6x4 main_cst_12
  let main_v36 : IVec S6x4 1 := cmpf .olt main_v34 main_v35
  let main_c_13 : IVec S_ 1 := constantI S_ 1 1#1
  let main_v37 : IVec S_ 1 := (fun x v => Host.reduce IntOp.andi x v reducesTo_S6x4_S_d0_1 h_S_) main_v36 main_c_13
  let main_v38 : IVec S_ 1 := andi main_v33 main_v37
  let main_v39 : FVec F S4x2x4 .f32 := Host.absf main_arg8
  let main_cst_14 : FVec F S_ .f32 := constant S_ .f32 0x7F800000#32
  let main_v40 : FVec F S4x2x4 .f32 := broadcastInDim S4x2x4 ![] bcast_S_S4x2x4 main_cst_14
  let main_v41 : IVec S4x2x4 1 := cmpf .olt main_v39 main_v40
  let main_c_15 : IVec S_ 1 := constantI S_ 1 1#1
  let main_v42 : IVec S_ 1 := (fun x v => Host.reduce IntOp.andi x v reducesTo_S4x2x4_S_d0_1_2 h_S_) main_v41 main_c_15
  let main_v43 : IVec S_ 1 := andi main_v38 main_v42
  let main_v44 : FVec F S4x2 .f32 := Host.absf main_arg9
  let main_cst_16 : FVec F S_ .f32 := constant S_ .f32 0x7F800000#32
  let main_v45 : FVec F S4x2 .f32 := broadcastInDim S4x2 ![] bcast_S_S4x2 main_cst_16
  let main_v46 : IVec S4x2 1 := cmpf .olt main_v44 main_v45
  let main_c_17 : IVec S_ 1 := constantI S_ 1 1#1
  let main_v47 : IVec S_ 1 := (fun x v => Host.reduce IntOp.andi x v reducesTo_S4x2_S_d0_1 h_S_) main_v46 main_c_17
  let main_v48 : IVec S_ 1 := andi main_v43 main_v47
  let main_v49 : FVec F S2x1x4 .f32 := Host.absf main_arg10
  let main_cst_18 : FVec F S_ .f32 := constant S_ .f32 0x7F800000#32
  let main_v50 : FVec F S2x1x4 .f32 := broadcastInDim S2x1x4 ![] bcast_S_S2x1x4 main_cst_18
  fn_part3 (F := F) main_arg11 main_arg12 main_arg13 main_v48 main_v49 main_v50

def fn_part1 {F : FTy → Type} [FloatOps F] (main_arg4 : FVec F S6x4x5 .f32) (main_arg5 : FVec F S6x4 .f32) (main_arg6 : FVec F S6x4x4 .f32) (main_arg7 : FVec F S6x4 .f32) (main_arg8 : FVec F S4x2x4 .f32) (main_arg9 : FVec F S4x2 .f32) (main_arg10 : FVec F S2x1x4 .f32) (main_arg11 : FVec F S2x1 .f32) (main_arg12 : FVec F S2x1x4 .f32) (main_arg13 : FVec F S2x1 .f32) (main_v13 : IVec S_ 1) (main_v16 : IVec S2000000x5 1) : IVec S_ 1 :=
  let main_c_5 : IVec S_ 1 := constantI S_ 1 1#1
  let main_v17 : IVec S_ 1 := (fun x v => Host.reduce IntOp.andi x v reducesTo_S2000000x5_S_d0_1 h_S_) main_v16 main_c_5
  let main_v18 : IVec S_ 1 := andi main_v13 main_v17
  let main_v19 : FVec F S6x4x5 .f32 := Host.absf main_arg4
  let main_cst_6 : FVec F S_ .f32 := constant S_ .f32 0x7F800000#32
  let main_v20 : FVec F S6x4x5 .f32 := broadcastInDim S6x4x5 ![] bcast_S_S6x4x5 main_cst_6
  let main_v21 : IVec S6x4x5 1 := cmpf .olt main_v19 main_v20
  let main_c_7 : IVec S_ 1 := constantI S_ 1 1#1
  let main_v22 : IVec S_ 1 := (fun x v => Host.reduce IntOp.andi x v reducesTo_S6x4x5_S_d0_1_2 h_S_) main_v21 main_c_7
  let main_v23 : IVec S_ 1 := andi main_v18 main_v22
  let main_v24 : FVec F S6x4 .f32 := Host.absf main_arg5
  let main_cst_8 : FVec F S_ .f32 := constant S_ .f32 0x7F800000#32
  let main_v25 : FVec F S6x4 .f32 := broadcastInDim S6x4 ![] bcast_S_S6x4 main_cst_8
  let main_v26 : IVec S6x4 1 := cmpf .olt main_v24 main_v25
  let main_c_9 : IVec S_ 1 := constantI S_ 1 1#1
  let main_v27 : IVec S_ 1 := (fun x v => Host.reduce IntOp.andi x v reducesTo_S6x4_S_d0_1 h_S_) main_v26 main_c_9
  let main_v28 : IVec S_ 1 := andi main_v23 main_v27
  let main_v29 : FVec F S6x4x4 .f32 := Host.absf main_arg6
  let main_cst_10 : FVec F S_ .f32 := constant S_ .f32 0x7F800000#32
  let main_v30 : FVec F S6x4x4 .f32 := broadcastInDim S6x4x4 ![] bcast_S_S6x4x4 main_cst_10
  let main_v31 : IVec S6x4x4 1 := cmpf .olt main_v29 main_v30
  let main_c_11 : IVec S_ 1 := constantI S_ 1 1#1
  let main_v32 : IVec S_ 1 := (fun x v => Host.reduce IntOp.andi x v reducesTo_S6x4x4_S_d0_1_2 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S2000000x5 .f32) (main_arg1 : FVec F S2000000x5 .f32) (main_arg2 : FVec F S2000000x5 .f32) (main_arg3 : FVec F S2000000x5 .f32) (main_arg4 : FVec F S6x4x5 .f32) (main_arg5 : FVec F S6x4 .f32) (main_arg6 : FVec F S6x4x4 .f32) (main_arg7 : FVec F S6x4 .f32) (main_arg8 : FVec F S4x2x4 .f32) (main_arg9 : FVec F S4x2 .f32) (main_arg10 : FVec F S2x1x4 .f32) (main_arg11 : FVec F S2x1 .f32) (main_arg12 : FVec F S2x1x4 .f32) (main_arg13 : FVec F S2x1 .f32) : IVec S_ 1 :=
  let main_v0 : FVec F S2000000x5 .f32 := Host.absf main_arg0
  let main_cst : FVec F S_ .f32 := constant S_ .f32 0x7F800000#32
  let main_v1 : FVec F S2000000x5 .f32 := broadcastInDim S2000000x5 ![] bcast_S_S2000000x5 main_cst
  let main_v2 : IVec S2000000x5 1 := cmpf .olt main_v0 main_v1
  let main_c : IVec S_ 1 := constantI S_ 1 1#1
  let main_v3 : IVec S_ 1 := (fun x v => Host.reduce IntOp.andi x v reducesTo_S2000000x5_S_d0_1 h_S_) main_v2 main_c
  let main_v4 : FVec F S2000000x5 .f32 := Host.absf main_arg1
  let main_cst_0 : FVec F S_ .f32 := constant S_ .f32 0x7F800000#32
  let main_v5 : FVec F S2000000x5 .f32 := broadcastInDim S2000000x5 ![] bcast_S_S2000000x5 main_cst_0
  let main_v6 : IVec S2000000x5 1 := cmpf .olt main_v4 main_v5
  let main_c_1 : IVec S_ 1 := constantI S_ 1 1#1
  let main_v7 : IVec S_ 1 := (fun x v => Host.reduce IntOp.andi x v reducesTo_S2000000x5_S_d0_1 h_S_) main_v6 main_c_1
  let main_v8 : IVec S_ 1 := andi main_v3 main_v7
  let main_v9 : FVec F S2000000x5 .f32 := Host.absf main_arg2
  let main_cst_2 : FVec F S_ .f32 := constant S_ .f32 0x7F800000#32
  let main_v10 : FVec F S2000000x5 .f32 := broadcastInDim S2000000x5 ![] bcast_S_S2000000x5 main_cst_2
  let main_v11 : IVec S2000000x5 1 := cmpf .olt main_v9 main_v10
  let main_c_3 : IVec S_ 1 := constantI S_ 1 1#1
  let main_v12 : IVec S_ 1 := (fun x v => Host.reduce IntOp.andi x v reducesTo_S2000000x5_S_d0_1 h_S_) main_v11 main_c_3
  let main_v13 : IVec S_ 1 := andi main_v8 main_v12
  let main_v14 : FVec F S2000000x5 .f32 := Host.absf main_arg3
  let main_cst_4 : FVec F S_ .f32 := constant S_ .f32 0x7F800000#32
  let main_v15 : FVec F S2000000x5 .f32 := broadcastInDim S2000000x5 ![] bcast_S_S2000000x5 main_cst_4
  let main_v16 : IVec S2000000x5 1 := cmpf .olt main_v14 main_v15
  fn_part1 (F := F) main_arg4 main_arg5 main_arg6 main_arg7 main_arg8 main_arg9 main_arg10 main_arg11 main_arg12 main_arg13 main_v13 main_v16
-- ==== Kernel.lean ====
abbrev S2000000x5 : Shape := ⟨2, ![2000000, 5]⟩
abbrev S6x4x5 : Shape := ⟨3, ![6, 4, 5]⟩
abbrev S6x4 : Shape := ⟨2, ![6, 4]⟩
abbrev S6x4x4 : Shape := ⟨3, ![6, 4, 4]⟩
abbrev S4x2x4 : Shape := ⟨3, ![4, 2, 4]⟩
abbrev S4x2 : Shape := ⟨2, ![4, 2]⟩
abbrev S2x1x4 : Shape := ⟨3, ![2, 1, 4]⟩
abbrev S2x1 : Shape := ⟨2, ![2, 1]⟩
abbrev S2000000x4 : Shape := ⟨2, ![2000000, 4]⟩
abbrev S10000x5 : Shape := ⟨2, ![10000, 5]⟩
abbrev S10000x4 : Shape := ⟨2, ![10000, 4]⟩
abbrev S1x4x5 : Shape := ⟨3, ![1, 4, 5]⟩
abbrev S4x5 : Shape := ⟨2, ![4, 5]⟩
abbrev S5x4 : Shape := ⟨2, ![5, 4]⟩
abbrev S1x4 : Shape := ⟨2, ![1, 4]⟩
abbrev S4 : Shape := ⟨1, ![4]⟩
abbrev S1x4x4 : Shape := ⟨3, ![1, 4, 4]⟩
abbrev S4x4 : Shape := ⟨2, ![4, 4]⟩
abbrev S1x2x4 : Shape := ⟨3, ![1, 2, 4]⟩
abbrev S2x4 : Shape := ⟨2, ![2, 4]⟩
abbrev S10000x2 : Shape := ⟨2, ![10000, 2]⟩
abbrev S1x2 : Shape := ⟨2, ![1, 2]⟩
abbrev S2 : Shape := ⟨1, ![2]⟩
abbrev S1x1x4 : Shape := ⟨3, ![1, 1, 4]⟩
abbrev S4x1 : Shape := ⟨2, ![4, 1]⟩
abbrev S10000x1 : Shape := ⟨2, ![10000, 1]⟩
abbrev S1x1 : Shape := ⟨2, ![1, 1]⟩
abbrev S1 : Shape := ⟨1, ![1]⟩

abbrev nBuf : Space → Nat
  | .hbm => 15
  | .vmem => 18
  | .smem => 0
  | _ => 0

abbrev bufTy : (tb : Table) → Fin (tcTables nBuf tb) → BufTy
  | .hbm, ⟨0, _⟩ => ⟨S2000000x5, .f32⟩
  | .hbm, ⟨1, _⟩ => ⟨S2000000x5, .f32⟩
  | .hbm, ⟨2, _⟩ => ⟨S2000000x5, .f32⟩
  | .hbm, ⟨3, _⟩ => ⟨S2000000x5, .f32⟩
  | .hbm, ⟨4, _⟩ => ⟨S6x4x5, .f32⟩
  | .hbm, ⟨5, _⟩ => ⟨S6x4, .f32⟩
  | .hbm, ⟨6, _⟩ => ⟨S6x4x4, .f32⟩
  | .hbm, ⟨7, _⟩ => ⟨S6x4, .f32⟩
  | .hbm, ⟨8, _⟩ => ⟨S4x2x4, .f32⟩
  | .hbm, ⟨9, _⟩ => ⟨S4x2, .f32⟩
  | .hbm, ⟨10, _⟩ => ⟨S2x1x4, .f32⟩
  | .hbm, ⟨11, _⟩ => ⟨S2x1, .f32⟩
  | .hbm, ⟨12, _⟩ => ⟨S2x1x4, .f32⟩
  | .hbm, ⟨13, _⟩ => ⟨S2x1, .f32⟩
  | .hbm, ⟨14, _⟩ => ⟨S2000000x4, .f32⟩
  | .local _ .vmem, ⟨0, _⟩ => ⟨S10000x5, .f32⟩
  | .local _ .vmem, ⟨1, _⟩ => ⟨S10000x5, .f32⟩
  | .local _ .vmem, ⟨2, _⟩ => ⟨S10000x5, .f32⟩
  | .local _ .vmem, ⟨3, _⟩ => ⟨S10000x5, .f32⟩
  | .local _ .vmem, ⟨4, _⟩ => ⟨S10000x5, .f32⟩
  | .local _ .vmem, ⟨5, _⟩ => ⟨S10000x5, .f32⟩
  | .local _ .vmem, ⟨6, _⟩ => ⟨S6x4x5, .f32⟩
  | .local _ .vmem, ⟨7, _⟩ => ⟨S6x4, .f32⟩
  | .local _ .vmem, ⟨8, _⟩ => ⟨S6x4x4, .f32⟩
  | .local _ .vmem, ⟨9, _⟩ => ⟨S6x4, .f32⟩
  | .local _ .vmem, ⟨10, _⟩ => ⟨S4x2x4, .f32⟩
  | .local _ .vmem, ⟨11, _⟩ => ⟨S4x2, .f32⟩
  | .local _ .vmem, ⟨12, _⟩ => ⟨S2x1x4, .f32⟩
  | .local _ .vmem, ⟨13, _⟩ => ⟨S2x1, .f32⟩
  | .local _ .vmem, ⟨14, _⟩ => ⟨S2x1x4, .f32⟩
  | .local _ .vmem, ⟨15, _⟩ => ⟨S2x1, .f32⟩
  | .local _ .vmem, ⟨16, _⟩ => ⟨S10000x4, .f32⟩
  | .local _ .vmem, ⟨17, _⟩ => ⟨S10000x4, .f32⟩
  | _, _ => ⟨S2000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x4x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S10000x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S10000x5_S10000x5_0_0 : ∀ a, (![0, 0] : Fin 2 → Nat) a + S10000x5.size a ≤ S10000x5.size a
  h_S10000x5 : 0 < S10000x5.numel
  inb_S6x4x5_S6x4x5_0_0_0 : ∀ a, (![0, 0, 0] : Fin 3 → Nat) a + S6x4x5.size a ≤ S6x4x5.size a
  h_S6x4x5 : 0 < S6x4x5.numel
  inb_S6x4_S6x4_0_0 : ∀ a, (![0, 0] : Fin 2 → Nat) a + S6x4.size a ≤ S6x4.size a
  h_S6x4 : 0 < S6x4.numel
  inb_S6x4x4_S6x4x4_0_0_0 : ∀ a, (![0, 0, 0] : Fin 3 → Nat) a + S6x4x4.size a ≤ S6x4x4.size a
  h_S6x4x4 : 0 < S6x4x4.numel
  inb_S4x2x4_S4x2x4_0_0_0 : ∀ a, (![0, 0, 0] : Fin 3 → Nat) a + S4x2x4.size a ≤ S4x2x4.size a
  h_S4x2x4 : 0 < S4x2x4.numel
  inb_S4x2_S4x2_0_0 : ∀ a, (![0, 0] : Fin 2 → Nat) a + S4x2.size a ≤ S4x2.size a
  h_S4x2 : 0 < S4x2.numel
  inb_S2x1x4_S2x1x4_0_0_0 : ∀ a, (![0, 0, 0] : Fin 3 → Nat) a + S2x1x4.size a ≤ S2x1x4.size a
  h_S2x1x4 : 0 < S2x1x4.numel
  inb_S2x1_S2x1_0_0 : ∀ a, (![0, 0] : Fin 2 → Nat) a + S2x1.size a ≤ S2x1.size a
  h_S2x1 : 0 < S2x1.numel
  slices_S6x4x5_o0_0_0_S1x4x5 : S6x4x5.Slices ![0, 0, 0] S1x4x5
  shapeCasts_S1x4x5_S4x5 : S1x4x5.ShapeCasts S4x5
  transposes_S4x5_p1_0_S5x4 : S4x5.Transposes [1, 0] S5x4
  slices_S6x4_o0_0_S1x4 : S6x4.Slices ![0, 0] S1x4
  shapeCasts_S1x4_S4 : S1x4.ShapeCasts S4
  shapeCasts_S4_S1x4 : S4.ShapeCasts S1x4
  broadcasts_S1x4_S10000x4 : S1x4.Broadcasts S10000x4
  slices_S6x4x4_o0_0_0_S1x4x4 : S6x4x4.Slices ![0, 0, 0] S1x4x4
  shapeCasts_S1x4x4_S4x4 : S1x4x4.ShapeCasts S4x4
  transposes_S4x4_p1_0_S4x4 : S4x4.Transposes [1, 0] S4x4
  slices_S6x4x5_o1_0_0_S1x4x5 : S6x4x5.Slices ![1, 0, 0] S1x4x5
  slices_S6x4_o1_0_S1x4 : S6x4.Slices ![1, 0] S1x4
  slices_S6x4x4_o1_0_0_S1x4x4 : S6x4x4.Slices ![1, 0, 0] S1x4x4
  slices_S6x4x5_o2_0_0_S1x4x5 : S6x4x5.Slices ![2, 0, 0] S1x4x5
  slices_S6x4_o2_0_S1x4 : S6x4.Slices ![2, 0] S1x4
  slices_S6x4x4_o2_0_0_S1x4x4 : S6x4x4.Slices ![2, 0, 0] S1x4x4
  slices_S6x4x5_o3_0_0_S1x4x5 : S6x4x5.Slices ![3, 0, 0] S1x4x5
  slices_S6x4_o3_0_S1x4 : S6x4.Slices ![3, 0] S1x4
  slices_S6x4x4_o3_0_0_S1x4x4 : S6x4x4.Slices ![3, 0, 0] S1x4x4
  slices_S6x4x5_o4_0_0_S1x4x5 : S6x4x5.Slices ![4, 0, 0] S1x4x5
  slices_S6x4_o4_0_S1x4 : S6x4.Slices ![4, 0] S1x4
  slices_S6x4x4_o4_0_0_S1x4x4 : S6x4x4.Slices ![4, 0, 0] S1x4x4
  slices_S6x4x5_o5_0_0_S1x4x5 : S6x4x5.Slices ![5, 0, 0] S1x4x5
  slices_S6x4_o5_0_S1x4 : S6x4.Slices ![5, 0] S1x4
  slices_S6x4x4_o5_0_0_S1x4x4 : S6x4x4.Slices ![5, 0, 0] S1x4x4
  slices_S4x2x4_o0_0_0_S1x2x4 : S4x2x4.Slices ![0, 0, 0] S1x2x4
  shapeCasts_S1x2x4_S2x4 : S1x2x4.ShapeCasts S2x4
  transposes_S2x4_p1_0_S4x2 : S2x4.Transposes [1, 0] S4x2
  slices_S4x2_o0_0_S1x2 : S4x2.Slices ![0, 0] S1x2
  shapeCasts_S1x2_S2 : S1x2.ShapeCasts S2
  shapeCasts_S2_S1x2 : S2.ShapeCasts S1x2
  broadcasts_S1x2_S10000x2 : S1x2.Broadcasts S10000x2
  slices_S4x2x4_o1_0_0_S1x2x4 : S4x2x4.Slices ![1, 0, 0] S1x2x4
  slices_S4x2_o1_0_S1x2 : S4x2.Slices ![1, 0] S1x2
  slices_S4x2x4_o2_0_0_S1x2x4 : S4x2x4.Slices ![2, 0, 0] S1x2x4
  slices_S4x2_o2_0_S1x2 : S4x2.Slices ![2, 0] S1x2
  slices_S4x2x4_o3_0_0_S1x2x4 : S4x2x4.Slices ![3, 0, 0] S1x2x4
  slices_S4x2_o3_0_S1x2 : S4x2.Slices ![3, 0] S1x2
  slices_S2x1x4_o0_0_0_S1x1x4 : S2x1x4.Slices ![0, 0, 0] S1x1x4
  shapeCasts_S1x1x4_S1x4 : S1x1x4.ShapeCasts S1x4
  transposes_S1x4_p1_0_S4x1 : S1x4.Transposes [1, 0] S4x1
  slices_S2x1_o0_0_S1x1 : S2x1.Slices ![0, 0] S1x1
  shapeCasts_S1x1_S1 : S1x1.ShapeCasts S1
  shapeCasts_S1_S1x1 : S1.ShapeCasts S1x1
  broadcasts_S1x1_S10000x1 : S1x1.Broadcasts S10000x1
  slices_S2x1x4_o1_0_0_S1x1x4 : S2x1x4.Slices ![1, 0, 0] S1x1x4
  slices_S2x1_o1_0_S1x1 : S2x1.Slices ![1, 0] S1x1
  concatenates_S10000x2_S10000x2_S10000x4_d1 : Shape.Concatenates [S10000x2, S10000x2] S10000x4 1
  concatenates_S10000x1_S10000x1_S10000x1_S10000x1_S10000x4_d1 : Shape.Concatenates [S10000x1, S10000x1, S10000x1, S10000x1] S10000x4 1
  inb_S10000x4_S10000x4_0_0 : ∀ a, (![0, 0] : Fin 2 → Nat) a + S10000x4.size a ≤ S10000x4.size a
  h_S10000x4 : 0 < S10000x4.numel
  dot_S10000x5_S5x4_S10000x4_1_0_0_1_n_n_wf : DotDims.WF S10000x5 S5x4 S10000x4 [1] [0] [0] [1] [] []
  dot_S10000x4_S4x4_S10000x4_1_0_0_1_n_n_wf : DotDims.WF S10000x4 S4x4 S10000x4 [1] [0] [0] [1] [] []
  dot_S10000x4_S4x2_S10000x2_1_0_0_1_n_n_wf : DotDims.WF S10000x4 S4x2 S10000x2 [1] [0] [0] [1] [] []
  dot_S10000x4_S4x1_S10000x1_1_0_0_1_n_n_wf : DotDims.WF S10000x4 S4x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S2000000x5.size a
  hwx0_0 : ∀ i : grid0.Coords, EltTy.bits .f32 = 32 ∨ (Rect.block (s := S2000000x5) S10000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x5.size a ≤ S2000000x5.size a
  hwx0_1 : ∀ i : grid0.Coords, EltTy.bits .f32 = 32 ∨ (Rect.block (s := S2000000x5) S10000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x5.size a ≤ S2000000x5.size a
  hwx0_2 : ∀ i : grid0.Coords, EltTy.bits .f32 = 32 ∨ (Rect.block (s := S2000000x5) S10000x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x4x5.size a ≤ S6x4x5.size a
  hwx0_3 : ∀ i : grid0.Coords, EltTy.bits .f32 = 32 ∨ (Rect.block (s := S6x4x5) S6x4x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x4.size a ≤ S6x4.size a
  hwx0_4 : ∀ i : grid0.Coords, EltTy.bits .f32 = 32 ∨ (Rect.block (s := S6x4) S6x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x4x4.size a ≤ S6x4x4.size a
  hwx0_5 : ∀ i : grid0.Coords, EltTy.bits .f32 = 32 ∨ (Rect.block (s := S6x4x4) S6x4x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x4.size a ≤ S6x4.size a
  hwx0_6 : ∀ i : grid0.Coords, EltTy.bits .f32 = 32 ∨ (Rect.block (s := S6x4) S6x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x2x4.size a ≤ S4x2x4.size a
  hwx0_7 : ∀ i : grid0.Coords, EltTy.bits .f32 = 32 ∨ (Rect.block (s := S4x2x4) S4x2x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x2.size a ≤ S4x2.size a
  hwx0_8 : ∀ i : grid0.Coords, EltTy.bits .f32 = 32 ∨ (Rect.block (s := S4x2) S4x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x1x4.size a ≤ S2x1x4.size a
  hwx0_9 : ∀ i : grid0.Coords, EltTy.bits .f32 = 32 ∨ (Rect.block (s := S2x1x4) S2x1x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x1.size a ≤ S2x1.size a
  hwx0_10 : ∀ i : grid0.Coords, EltTy.bits .f32 = 32 ∨ (Rect.block (s := S2x1) S2x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x1x4.size a ≤ S2x1x4.size a
  hwx0_11 : ∀ i : grid0.Coords, EltTy.bits .f32 = 32 ∨ (Rect.block (s := S2x1x4) S2x1x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x1.size a ≤ S2x1.size a
  hwx0_12 : ∀ i : grid0.Coords, EltTy.bits .f32 = 32 ∨ (Rect.block (s := S2x1) S2x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S10000x4.size a ≤ S2000000x4.size a
  hwx0_13 : ∀ i : grid0.Coords, EltTy.bits .f32 = 32 ∨ (Rect.block (s := S2000000x4) S10000x4.size (cc0_transform_13 i) (hinb0_13 i)).WholeWords (EltTy.packing .f32)

variable [Facts₀]

def dot_S10000x5_S5x4_S10000x4_1_0_0_1_n_n : DotDims S10000x5 S5x4 S10000x4 where
  lhsContracting := [1]
  rhsContracting := [0]
  lhsNonContracting := [0]
  rhsNonContracting := [1]
  lhsBatch := []
  rhsBatch := []
  wf := dot_S10000x5_S5x4_S10000x4_1_0_0_1_n_n_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def dot_S10000x4_S4x1_S10000x1_1_0_0_1_n_n : DotDims S10000x4 S4x1 S10000x1 where
  lhsContracting := [1]
  rhsContracting := [0]
  lhsNonContracting := [0]
  rhsNonContracting := [1]
  lhsBatch := []
  rhsBatch := []
  wf := dot_S10000x4_S4x1_S10000x1_1_0_0_1_n_n_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S6x4x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S6x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S6x4x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S6x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S4x2x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S4x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2x1x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S2x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S2x1x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S2x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S10000x4.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2000000x5 : Shape := ⟨2, ![2000000, 5]⟩
abbrev S6x4x5 : Shape := ⟨3, ![6, 4, 5]⟩
abbrev S6x4 : Shape := ⟨2, ![6, 4]⟩
abbrev S6x4x4 : Shape := ⟨3, ![6, 4, 4]⟩
abbrev S4x2x4 : Shape := ⟨3, ![4, 2, 4]⟩
abbrev S4x2 : Shape := ⟨2, ![4, 2]⟩
abbrev S2x1x4 : Shape := ⟨3, ![2, 1, 4]⟩
abbrev S2x1 : Shape := ⟨2, ![2, 1]⟩
abbrev S4 : Shape := ⟨1, ![4]⟩
abbrev S2 : Shape := ⟨1, ![2]⟩
abbrev S1x2000000x5 : Shape := ⟨3, ![1, 2000000, 5]⟩
abbrev S6x2000000x5 : Shape := ⟨3, ![6, 2000000, 5]⟩
abbrev S6x2000000x4 : Shape := ⟨3, ![6, 2000000, 4]⟩
abbrev S6x1x4 : Shape := ⟨3, ![6, 1, 4]⟩
abbrev S_ : Shape := ⟨0, ![]⟩
abbrev S4x1 : Shape := ⟨2, ![4, 1]⟩
abbrev S4x2000000x4 : Shape := ⟨3, ![4, 2000000, 4]⟩
abbrev S4x2000000x2 : Shape := ⟨3, ![4, 2000000, 2]⟩
abbrev S4x1x2 : Shape := ⟨3, ![4, 1, 2]⟩
abbrev S2x2000000x4 : Shape := ⟨3, ![2, 2000000, 4]⟩
abbrev S2x2000000x1 : Shape := ⟨3, ![2, 2000000, 1]⟩
abbrev S2x1x1 : Shape := ⟨3, ![2, 1, 1]⟩
abbrev S1x2000000x2 : Shape := ⟨3, ![1, 2000000, 2]⟩
abbrev S2000000x2 : Shape := ⟨2, ![2000000, 2]⟩
abbrev S2000000x4 : Shape := ⟨2, ![2000000, 4]⟩
abbrev S1x1x4 : Shape := ⟨3, ![1, 1, 4]⟩
abbrev S1x4 : Shape := ⟨2, ![1, 4]⟩
abbrev S2000000x1 : Shape := ⟨2, ![2000000, 1]⟩
abbrev S1x1 : Shape := ⟨2, ![1, 1]⟩
abbrev S1 : Shape := ⟨1, ![1]⟩
abbrev S1x2000000x1 : Shape := ⟨3, ![1, 2000000, 1]⟩

abbrev nBuf : Space → Nat
  | .hbm => 106
  | .vmem => 0
  | .smem => 0
  | _ => 0

abbrev bufTy : (tb : Table) → Fin (tcTables nBuf tb) → BufTy
  | .hbm, ⟨0, _⟩ => ⟨S2000000x5, .f32⟩
  | .hbm, ⟨1, _⟩ => ⟨S2000000x5, .f32⟩
  | .hbm, ⟨2, _⟩ => ⟨S2000000x5, .f32⟩
  | .hbm, ⟨3, _⟩ => ⟨S2000000x5, .f32⟩
  | .hbm, ⟨4, _⟩ => ⟨S6x4x5, .f32⟩
  | .hbm, ⟨5, _⟩ => ⟨S6x4, .f32⟩
  | .hbm, ⟨6, _⟩ => ⟨S6x4x4, .f32⟩
  | .hbm, ⟨7, _⟩ => ⟨S6x4, .f32⟩
  | .hbm, ⟨8, _⟩ => ⟨S4x2x4, .f32⟩
  | .hbm, ⟨9, _⟩ => ⟨S4x2, .f32⟩
  | .hbm, ⟨10, _⟩ => ⟨S2x1x4, .f32⟩
  | .hbm, ⟨11, _⟩ => ⟨S2x1, .f32⟩
  | .hbm, ⟨12, _⟩ => ⟨S2x1x4, .f32⟩
  | .hbm, ⟨13, _⟩ => ⟨S2x1, .f32⟩
  | .hbm, ⟨14, _⟩ => ⟨S4, .i32⟩
  | .hbm, ⟨15, _⟩ => ⟨S2, .i32⟩
  | .hbm, ⟨16, _⟩ => ⟨S1x2000000x5, .f32⟩
  | .hbm, ⟨17, _⟩ => ⟨S1x2000000x5, .f32⟩
  | .hbm, ⟨18, _⟩ => ⟨S1x2000000x5, .f32⟩
  | .hbm, ⟨19, _⟩ => ⟨S1x2000000x5, .f32⟩
  | .hbm, ⟨20, _⟩ => ⟨S1x2000000x5, .f32⟩
  | .hbm, ⟨21, _⟩ => ⟨S1x2000000x5, .f32⟩
  | .hbm, ⟨22, _⟩ => ⟨S6x2000000x5, .f32⟩
  | .hbm, ⟨23, _⟩ => ⟨S6x2000000x4, .f32⟩
  | .hbm, ⟨24, _⟩ => ⟨S6x1x4, .f32⟩
  | .hbm, ⟨25, _⟩ => ⟨S6x2000000x4, .f32⟩
  | .hbm, ⟨26, _⟩ => ⟨S6x2000000x4, .f32⟩
  | .hbm, ⟨27, _⟩ => ⟨S6x2000000x4, .f32⟩
  | .hbm, ⟨28, _⟩ => ⟨S6x2000000x4, .f32⟩
  | .hbm, ⟨29, _⟩ => ⟨S_, .f32⟩
  | .hbm, ⟨30, _⟩ => ⟨S6x2000000x4, .f32⟩
  | .hbm, ⟨31, _⟩ => ⟨S6x2000000x4, .f32⟩
  | .hbm, ⟨32, _⟩ => ⟨S_, .f32⟩
  | .hbm, ⟨33, _⟩ => ⟨S6x2000000x4, .f32⟩
  | .hbm, ⟨34, _⟩ => ⟨S6x2000000x4, .f32⟩
  | .hbm, ⟨35, _⟩ => ⟨S6x2000000x4, .f32⟩
  | .hbm, ⟨36, _⟩ => ⟨S6x1x4, .f32⟩
  | .hbm, ⟨37, _⟩ => ⟨S6x2000000x4, .f32⟩
  | .hbm, ⟨38, _⟩ => ⟨S6x2000000x4, .f32⟩
  | .hbm, ⟨39, _⟩ => ⟨S6x2000000x4, .f32⟩
  | .hbm, ⟨40, _⟩ => ⟨S6x2000000x4, .f32⟩
  | .hbm, ⟨41, _⟩ => ⟨S_, .f32⟩
  | .hbm, ⟨42, _⟩ => ⟨S6x2000000x4, .f32⟩
  | .hbm, ⟨43, _⟩ => ⟨S6x2000000x4, .f32⟩
  | .hbm, ⟨44, _⟩ => ⟨S_, .f32⟩
  | .hbm, ⟨45, _⟩ => ⟨S6x2000000x4, .f32⟩
  | .hbm, ⟨46, _⟩ => ⟨S6x2000000x4, .f32⟩
  | .hbm, ⟨47, _⟩ => ⟨S_, .i32⟩
  | .hbm, ⟨48, _⟩ => ⟨S4, .i32⟩
  | .hbm, ⟨49, _⟩ => ⟨S4, .i1⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S4, .i32⟩
  | .hbm, ⟨54, _⟩ => ⟨S4x1, .i32⟩
  | .hbm, ⟨55, _⟩ => ⟨S4x2000000x4, .f32⟩
  | .hbm, ⟨56, _⟩ => ⟨S4x2000000x2, .f32⟩
  | .hbm, ⟨57, _⟩ => ⟨S4x1x2, .f32⟩
  | .hbm, ⟨58, _⟩ => ⟨S4x2000000x2, .f32⟩
  | .hbm, ⟨59, _⟩ => ⟨S4x2000000x2, .f32⟩
  | .hbm, ⟨60, _⟩ => ⟨S_, .i32⟩
  | .hbm, ⟨61, _⟩ => ⟨S2, .i32⟩
  | .hbm, ⟨62, _⟩ => ⟨S2, .i1⟩
  | .hbm, ⟨63, _⟩ => ⟨S_, .i32⟩
  | .hbm, ⟨64, _⟩ => ⟨S2, .i32⟩
  | .hbm, ⟨65, _⟩ => ⟨S2, .i32⟩
  | .hbm, ⟨66, _⟩ => ⟨S2, .i32⟩
  | .hbm, ⟨67, _⟩ => ⟨S2x1, .i32⟩
  | .hbm, ⟨68, _⟩ => ⟨S2x2000000x4, .f32⟩
  | .hbm, ⟨69, _⟩ => ⟨S2x2000000x1, .f32⟩
  | .hbm, ⟨70, _⟩ => ⟨S2x1x1, .f32⟩
  | .hbm, ⟨71, _⟩ => ⟨S2x2000000x1, .f32⟩
  | .hbm, ⟨72, _⟩ => ⟨S2x2000000x1, .f32⟩
  | .hbm, ⟨73, _⟩ => ⟨S1x2000000x2, .f32⟩
  | .hbm, ⟨74, _⟩ => ⟨S2000000x2, .f32⟩
  | .hbm, ⟨75, _⟩ => ⟨S1x2000000x2, .f32⟩
  | .hbm, ⟨76, _⟩ => ⟨S2000000x2, .f32⟩
  | .hbm, ⟨77, _⟩ => ⟨S2000000x4, .f32⟩
  | .hbm, ⟨78, _⟩ => ⟨S1x2000000x2, .f32⟩
  | .hbm, ⟨79, _⟩ => ⟨S2000000x2, .f32⟩
  | .hbm, ⟨80, _⟩ => ⟨S1x2000000x2, .f32⟩
  | .hbm, ⟨81, _⟩ => ⟨S2000000x2, .f32⟩
  | .hbm, ⟨82, _⟩ => ⟨S2000000x4, .f32⟩
  | .hbm, ⟨83, _⟩ => ⟨S1x1x4, .f32⟩
  | .hbm, ⟨84, _⟩ => ⟨S1x4, .f32⟩
  | .hbm, ⟨85, _⟩ => ⟨S4x1, .f32⟩
  | .hbm, ⟨86, _⟩ => ⟨S2000000x1, .f32⟩
  | .hbm, ⟨87, _⟩ => ⟨S1x1, .f32⟩
  | .hbm, ⟨88, _⟩ => ⟨S1, .f32⟩
  | .hbm, ⟨89, _⟩ => ⟨S1x1, .f32⟩
  | .hbm, ⟨90, _⟩ => ⟨S2000000x1, .f32⟩
  | .hbm, ⟨91, _⟩ => ⟨S2000000x1, .f32⟩
  | .hbm, ⟨92, _⟩ => ⟨S1x1x4, .f32⟩
  | .hbm, ⟨93, _⟩ => ⟨S1x4, .f32⟩
  | .hbm, ⟨94, _⟩ => ⟨S4x1, .f32⟩
  | .hbm, ⟨95, _⟩ => ⟨S2000000x1, .f32⟩
  | .hbm, ⟨96, _⟩ => ⟨S1x1, .f32⟩
  | .hbm, ⟨97, _⟩ => ⟨S1, .f32⟩
  | .hbm, ⟨98, _⟩ => ⟨S1x1, .f32⟩
  | .hbm, ⟨99, _⟩ => ⟨S2000000x1, .f32⟩
  | .hbm, ⟨100, _⟩ => ⟨S2000000x1, .f32⟩
  | .hbm, ⟨101, _⟩ => ⟨S1x2000000x1, .f32⟩
  | .hbm, ⟨102, _⟩ => ⟨S2000000x1, .f32⟩
  | .hbm, ⟨103, _⟩ => ⟨S1x2000000x1, .f32⟩
  | .hbm, ⟨104, _⟩ => ⟨S2000000x1, .f32⟩
  | .hbm, ⟨105, _⟩ => ⟨S2000000x4, .f32⟩
  | _, _ => ⟨S2000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]

class Facts₀ : Prop where
  bcast_S2000000x5_S1x2000000x5_1_2 : S2000000x5.BroadcastsInDim S1x2000000x5 (![1, 2] : Fin 2 → Fin S1x2000000x5.rank)
  concatenates_S1x2000000x5_S1x2000000x5_S1x2000000x5_S1x2000000x5_S1x2000000x5_S1x2000000x5_S6x2000000x5_d0 : Shape.Concatenates [S1x2000000x5, S1x2000000x5, S1x2000000x5, S1x2000000x5, S1x2000000x5, S1x2000000x5] S6x2000000x5 0
  bcast_S6x4_S6x1x4_0_2 : S6x4.BroadcastsInDim S6x1x4 (![0, 2] : Fin 2 → Fin S6x1x4.rank)
  bcast_S6x1x4_S6x2000000x4_0_1_2 : S6x1x4.BroadcastsInDim S6x2000000x4 (![0, 1, 2] : Fin 3 → Fin S6x2000000x4.rank)
  bcast_S_S6x2000000x4 : S_.BroadcastsInDim S6x2000000x4 (![] : Fin 0 → Fin S6x2000000x4.rank)
  bcast_S_S4 : S_.BroadcastsInDim S4 (![] : Fin 0 → Fin S4.rank)
  bcast_S4_S4x1_0 : S4.BroadcastsInDim S4x1 (![0] : Fin 1 → Fin S4x1.rank)
  bcast_S4x2_S4x1x2_0_2 : S4x2.BroadcastsInDim S4x1x2 (![0, 2] : Fin 2 → Fin S4x1x2.rank)
  bcast_S4x1x2_S4x2000000x2_0_1_2 : S4x1x2.BroadcastsInDim S4x2000000x2 (![0, 1, 2] : Fin 3 → Fin S4x2000000x2.rank)
  bcast_S_S2 : S_.BroadcastsInDim S2 (![] : Fin 0 → Fin S2.rank)
  bcast_S2_S2x1_0 : S2.BroadcastsInDim S2x1 (![0] : Fin 1 → Fin S2x1.rank)
  bcast_S2x1_S2x1x1_0_2 : S2x1.BroadcastsInDim S2x1x1 (![0, 2] : Fin 2 → Fin S2x1x1.rank)
  bcast_S2x1x1_S2x2000000x1_0_1_2 : S2x1x1.BroadcastsInDim S2x2000000x1 (![0, 1, 2] : Fin 3 → Fin S2x2000000x1.rank)
  slices_S4x2000000x2_S1x2000000x2_0_0_0 : S4x2000000x2.Slices ![0, 0, 0] S1x2000000x2
  shapeCasts_S1x2000000x2_S2000000x2 : S1x2000000x2.ShapeCasts S2000000x2
  slices_S4x2000000x2_S1x2000000x2_2_0_0 : S4x2000000x2.Slices ![2, 0, 0] S1x2000000x2
  concatenates_S2000000x2_S2000000x2_S2000000x4_d1 : Shape.Concatenates [S2000000x2, S2000000x2] S2000000x4 1
  slices_S4x2000000x2_S1x2000000x2_1_0_0 : S4x2000000x2.Slices ![1, 0, 0] S1x2000000x2
  slices_S4x2000000x2_S1x2000000x2_3_0_0 : S4x2000000x2.Slices ![3, 0, 0] S1x2000000x2
  slices_S2x1x4_S1x1x4_0_0_0 : S2x1x4.Slices ![0, 0, 0] S1x1x4
  shapeCasts_S1x1x4_S1x4 : S1x1x4.ShapeCasts S1x4
  transposes_S1x4_S4x1_1_0 : S1x4.Transposes [1, 0] S4x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  slices_S2x1x4_S1x1x4_1_0_0 : S2x1x4.Slices ![1, 0, 0] S1x1x4
  slices_S2x1_S1x1_1_0 : S2x1.Slices ![1, 0] S1x1
  slices_S2x2000000x1_S1x2000000x1_0_0_0 : S2x2000000x1.Slices ![0, 0, 0] S1x2000000x1
  shapeCasts_S1x2000000x1_S2000000x1 : S1x2000000x1.ShapeCasts S2000000x1
  slices_S2x2000000x1_S1x2000000x1_1_0_0 : S2x2000000x1.Slices ![1, 0, 0] S1x2000000x1
  concatenates_S2000000x1_S2000000x1_S2000000x1_S2000000x1_S2000000x4_d1 : Shape.Concatenates [S2000000x1, S2000000x1, S2000000x1, S2000000x1] S2000000x4 1
  dot_S6x2000000x5_S6x4x5_S6x2000000x4_2_2_1_1_0_0_wf : DotDims.WF S6x2000000x5 S6x4x5 S6x2000000x4 [2] [2] [1] [1] [0] [0]
  dot_S6x2000000x4_S6x4x4_S6x2000000x4_2_2_1_1_0_0_wf : DotDims.WF S6x2000000x4 S6x4x4 S6x2000000x4 [2] [2] [1] [1] [0] [0]
  gather_S6x2000000x4_S4x1_S4x2000000x4_12_0_n_n_0_1_120000004_wf : GatherDims.WF S6x2000000x4 S4x1 S4x2000000x4 [1, 2] [0] [] [0] [] 1 ![1, 2000000, 4]
  dot_S4x2000000x4_S4x2x4_S4x2000000x2_2_2_1_1_0_0_wf : DotDims.WF S4x2000000x4 S4x2x4 S4x2000000x2 [2] [2] [1] [1] [0] [0]
  gather_S6x2000000x4_S2x1_S2x2000000x4_12_0_n_n_0_1_120000004_wf : GatherDims.WF S6x2000000x4 S2x1 S2x2000000x4 [1, 2] [0] [] [0] [] 1 ![1, 2000000, 4]
  dot_S2x2000000x4_S2x1x4_S2x2000000x1_2_2_1_1_0_0_wf : DotDims.WF S2x2000000x4 S2x1x4 S2x2000000x1 [2] [2] [1] [1] [0] [0]
  dot_S2000000x4_S4x1_S2000000x1_1_0_0_1_n_n_wf : DotDims.WF S2000000x4 S4x1 S2000000x1 [1] [0] [0] [1] [] []

variable [Facts₀]

def dot_S6x2000000x5_S6x4x5_S6x2000000x4_2_2_1_1_0_0 : DotDims S6x2000000x5 S6x4x5 S6x2000000x4 where
  lhsContracting := [2]
  rhsContracting := [2]
  lhsNonContracting := [1]
  rhsNonContracting := [1]
  lhsBatch := [0]
  rhsBatch := [0]
  wf := dot_S6x2000000x5_S6x4x5_S6x2000000x4_2_2_1_1_0_0_wf
def dot_S6x2000000x4_S6x4x4_S6x2000000x4_2_2_1_1_0_0 : DotDims S6x2000000x4 S6x4x4 S6x2000000x4 where
  lhsContracting := [2]
  rhsContracting := [2]
  lhsNonContracting := [1]
  rhsNonContracting := [1]
  lhsBatch := [0]
  rhsBatch := [0]
  wf := dot_S6x2000000x4_S6x4x4_S6x2000000x4_2_2_1_1_0_0_wf
def gather_S6x2000000x4_S4x1_S4x2000000x4_12_0_n_n_0_1_120000004 : GatherDims S6x2000000x4 S4x1 S4x2000000x4 where
  offsetDims := [1, 2]
  collapsedSliceDims := [0]
  operandBatchingDims := []
  startIndicesBatchingDims := []
  startIndexMap := [0]
  indexVectorDim := 1
  sliceSizes := ![1, 2000000, 4]
  wf := gather_S6x2000000x4_S4x1_S4x2000000x4_12_0_n_n_0_1_120000004_wf
def dot_S4x2000000x4_S4x2x4_S4x2000000x2_2_2_1_1_0_0 : DotDims S4x2000000x4 S4x2x4 S4x2000000x2 where
  lhsContracting := [2]
  rhsContracting := [2]
  lhsNonContracting := [1]
  rhsNonContracting := [1]
  lhsBatch := [0]
  rhsBatch := [0]
  wf := dot_S4x2000000x4_S4x2x4_S4x2000000x2_2_2_1_1_0_0_wf
def gather_S6x2000000x4_S2x1_S2x2000000x4_12_0_n_n_0_1_120000004 : GatherDims S6x2000000x4 S2x1 S2x2000000x4 where
  offsetDims := [1, 2]
  collapsedSliceDims := [0]
  operandBatchingDims := []
  startIndicesBatchingDims := []
  startIndexMap := [0]
  indexVectorDim := 1
  sliceSizes := ![1, 2000000, 4]
  wf := gather_S6x2000000x4_S2x1_S2x2000000x4_12_0_n_n_0_1_120000004_wf
def dot_S2x2000000x4_S2x1x4_S2x2000000x1_2_2_1_1_0_0 : DotDims S2x2000000x4 S2x1x4 S2x2000000x1 where
  lhsContracting := [2]
  rhsContracting := [2]
  lhsNonContracting := [1]
  rhsNonContracting := [1]
  lhsBatch := [0]
  rhsBatch := [0]
  wf := dot_S2x2000000x4_S2x1x4_S2x2000000x1_2_2_1_1_0_0_wf
def dot_S2000000x4_S4x1_S2000000x1_1_0_0_1_n_n : DotDims S2000000x4 S4x1 S2000000x1 where
  lhsContracting := [1]
  rhsContracting := [0]
  lhsNonContracting := [0]
  rhsNonContracting := [1]
  lhsBatch := []
  rhsBatch := []
  wf := dot_S2000000x4_S4x1_S2000000x1_1_0_0_1_n_n_wf

class Facts : Prop extends Facts₀ where

variable [Facts]
-- ==== Proof.KDot.lean ====
/-
  The kernel's matrix products at an index. Every product in the body is a block of rows (10000 of them) of width
  n against an n × w matrix, accumulated into zero: entry (p, h) is  Σᵢ X[p, i] · W[i, h],  a finite sum over the
  contracted axis, exact on the extended reals. One lemma per shape (n, w) ∈ {(5,4), (4,4), (4,2), (4,1)}; the
  four small lemmas before each say which coordinate of each operand an output index and a contraction index name.
-/
import proofs.«116432_j48292612276330_1_alg».proof.Proof.Gen.KernelIdeal
import Idealize.ShloMosaic.PureOps.Ideal.Laws
import Idealize.ShloMosaic.Lib.ValueIdx

noncomputable section

namespace Cert.KernelIdeal.Body

open Cert.KernelIdeal Cert.KernelIdeal.Gen Idealize.ShloMosaic Idealize.ShloMosaic.ValueIdx

/-! ### Rows of width 5 against a 5 × 4 matrix -/

theorem dot_5_4_lhs_row (i : S10000x4.Idx) (q : dot_S10000x5_S5x4_S10000x4_1_0_0_1_n_n.contr.Idx) :
    (dot_S10000x5_S5x4_S10000x4_1_0_0_1_n_n.lhsIdx i q 0).val = (i 0).val := by
  unfold DotDims.lhsIdx
  rw [dif_neg (show ¬(0 : Fin S10000x5.rank) ∈ dot_S10000x5_S5x4_S10000x4_1_0_0_1_n_n.lhsBatch by decide), dif_pos (show (0 : Fin S10000x5.rank) ∈ dot_S10000x5_S5x4_S10000x4_1_0_0_1_n_n.lhsNonContracting by decide)]
  rfl

theorem dot_5_4_lhs_contr (i : S10000x4.Idx) (q : dot_S10000x5_S5x4_S10000x4_1_0_0_1_n_n.contr.Idx) :
    (dot_S10000x5_S5x4_S10000x4_1_0_0_1_n_n.lhsIdx i q 1).val = (q ⟨0, by decide⟩).val :=
  dot_S10000x5_S5x4_S10000x4_1_0_0_1_n_n.lhsIdx_val_of_single rfl i q

theorem dot_5_4_rhs_contr (i : S10000x4.Idx) (q : dot_S10000x5_S5x4_S10000x4_1_0_0_1_n_n.contr.Idx) :
    (dot_S10000x5_S5x4_S10000x4_1_0_0_1_n_n.rhsIdx i q 0).val = (q ⟨0, by decide⟩).val :=
  dot_S10000x5_S5x4_S10000x4_1_0_0_1_n_n.rhsIdx_val_of_single rfl i q

theorem dot_5_4_rhs_col (i : S10000x4.Idx) (q : dot_S10000x5_S5x4_S10000x4_1_0_0_1_n_n.contr.Idx) :
    (dot_S10000x5_S5x4_S10000x4_1_0_0_1_n_n.rhsIdx i q 1).val = (i 1).val := by
  unfold DotDims.rhsIdx
  rw [dif_neg (show ¬(1 : Fin S5x4.rank) ∈ dot_S10000x5_S5x4_S10000x4_1_0_0_1_n_n.rhsBatch by decide), dif_pos (show (1 : Fin S5x4.rank) ∈ dot_S10000x5_S5x4_S10000x4_1_0_0_1_n_n.rhsNonContracting by decide)]
  rfl

/-- Entry (p, h) of the product X · W accumulated into zero is the sum over the 5 columns of X. -/
theorem dot_5_4_apply (X : FVec Ideal S10000x5 .f32) (W : FVec Ideal S5x4 .f32) (p : Fin 10000) (h : Fin 4) :
    matmul dot_S10000x5_S5x4_S10000x4_1_0_0_1_n_n none X W (constant S10000x4 .f32 0x00000000#32) (ix2 p h)
      = ∑ i : Fin 5, X (ix2 p i) * W (ix2 i h) := by
  simp only [matmul]
  rw [Ideal.matmul_constant_zero_apply, ← Equiv.sum_comp (ValueIdx.contrEquiv1 dot_S10000x5_S5x4_S10000x4_1_0_0_1_n_n 5 rfl rfl).symm]
  refine Finset.sum_congr rfl fun k _ => ?_
  have hk := ValueIdx.contrEquiv1_symm_val dot_S10000x5_S5x4_S10000x4_1_0_0_1_n_n 5 rfl rfl k
  have el : dot_S10000x5_S5x4_S10000x4_1_0_0_1_n_n.lhsIdx (ix2 p h) ((ValueIdx.contrEquiv1 dot_S10000x5_S5x4_S10000x4_1_0_0_1_n_n 5 rfl rfl).symm k) = ix2 p k := funext fun a => Fin.ext (by
    match a with
    | ⟨0, _⟩ => exact dot_5_4_lhs_row _ _
    | ⟨1, _⟩ => exact (dot_5_4_lhs_contr _ _).trans hk)
  have er : dot_S10000x5_S5x4_S10000x4_1_0_0_1_n_n.rhsIdx (ix2 p h) ((ValueIdx.contrEquiv1 dot_S10000x5_S5x4_S10000x4_1_0_0_1_n_n 5 rfl rfl).symm k) = ix2 k h := funext fun a => Fin.ext (by
    match a with
    | ⟨0, _⟩ => exact (dot_5_4_rhs_contr _ _).trans hk
    | ⟨1, _⟩ => exact dot_5_4_rhs_col _ _)
  rw [el, er]

/-! ### Rows of width 4 against a 4 × 4 matrix -/

theorem dot_4_4_lhs_row (i : S10000x4.Idx) (q : dot_S10000x4_S4x4_S10000x4_1_0_0_1_n_n.contr.Idx) :
    (dot_S10000x4_S4x4_S10000x4_1_0_0_1_n_n.lhsIdx i q 0).val = (i 0).val := by
  unfold DotDims.lhsIdx
  rw [dif_neg (show ¬(0 : Fin S10000x4.rank) ∈ dot_S10000x4_S4x4_S10000x4_1_0_0_1_n_n.lhsBatch by decide), dif_pos (show (0 : Fin S10000x4.rank) ∈ dot_S10000x4_S4x4_S10000x4_1_0_0_1_n_n.lhsNonContracting by decide)]
  rfl

theorem dot_4_4_lhs_contr (i : S10000x4.Idx) (q : dot_S10000x4_S4x4_S10000x4_1_0_0_1_n_n.contr.Idx) :
    (dot_S10000x4_S4x4_S10000x4_1_0_0_1_n_n.lhsIdx i q 1).val = (q ⟨0, by decide⟩).val :=
  dot_S10000x4_S4x4_S10000x4_1_0_0_1_n_n.lhsIdx_val_of_single rfl i q

theorem dot_4_4_rhs_contr (i : S10000x4.Idx) (q : dot_S10000x4_S4x4_S10000x4_1_0_0_1_n_n.contr.Idx) :
    (dot_S10000x4_S4x4_S10000x4_1_0_0_1_n_n.rhsIdx i q 0).val = (q ⟨0, by decide⟩).val :=
  dot_S10000x4_S4x4_S10000x4_1_0_0_1_n_n.rhsIdx_val_of_single rfl i q

theorem dot_4_4_rhs_col (i : S10000x4.Idx) (q : dot_S10000x4_S4x4_S10000x4_1_0_0_1_n_n.contr.Idx) :
    (dot_S10000x4_S4x4_S10000x4_1_0_0_1_n_n.rhsIdx i q 1).val = (i 1).val := by
  unfold DotDims.rhsIdx
  rw [dif_neg (show ¬(1 : Fin S4x4.rank) ∈ dot_S10000x4_S4x4_S10000x4_1_0_0_1_n_n.rhsBatch by decide), dif_pos (show (1 : Fin S4x4.rank) ∈ dot_S10000x4_S4x4_S10000x4_1_0_0_1_n_n.rhsNonContracting by decide)]
  rfl

/-- Entry (p, h) of the product X · W accumulated into zero is the sum over the 4 columns of X. -/
theorem dot_4_4_apply (X : FVec Ideal S10000x4 .f32) (W : FVec Ideal S4x4 .f32) (p : Fin 10000) (h : Fin 4) :
    matmul dot_S10000x4_S4x4_S10000x4_1_0_0_1_n_n none X W (constant S10000x4 .f32 0x00000000#32) (ix2 p h)
      = ∑ i : Fin 4, X (ix2 p i) * W (ix2 i h) := by
  simp only [matmul]
  rw [Ideal.matmul_constant_zero_apply, ← Equiv.sum_comp (ValueIdx.contrEquiv1 dot_S10000x4_S4x4_S10000x4_1_0_0_1_n_n 4 rfl rfl).symm]
  refine Finset.sum_congr rfl fun k _ => ?_
  have hk := ValueIdx.contrEquiv1_symm_val dot_S10000x4_S4x4_S10000x4_1_0_0_1_n_n 4 rfl rfl k
  have el : dot_S10000x4_S4x4_S10000x4_1_0_0_1_n_n.lhsIdx (ix2 p h) ((ValueIdx.contrEquiv1 dot_S10000x4_S4x4_S10000x4_1_0_0_1_n_n 4 rfl rfl).symm k) = ix2 p k := funext fun a => Fin.ext (by
    match a with
    | ⟨0, _⟩ => exact dot_4_4_lhs_row _ _
    | ⟨1, _⟩ => exact (dot_4_4_lhs_contr _ _).trans hk)
  have er : dot_S10000x4_S4x4_S10000x4_1_0_0_1_n_n.rhsIdx (ix2 p h) ((ValueIdx.contrEquiv1 dot_S10000x4_S4x4_S10000x4_1_0_0_1_n_n 4 rfl rfl).symm k) = ix2 k h := funext fun a => Fin.ext (by
    match a with
    | ⟨0, _⟩ => exact (dot_4_4_rhs_contr _ _).trans hk
    | ⟨1, _⟩ => exact dot_4_4_rhs_col _ _)
  rw [el, er]

/-! ### Rows of width 4 against a 4 × 2 matrix -/

theorem dot_4_2_lhs_row (i : S10000x2.Idx) (q : dot_S10000x4_S4x2_S10000x2_1_0_0_1_n_n.contr.Idx) :
    (dot_S10000x4_S4x2_S10000x2_1_0_0_1_n_n.lhsIdx i q 0).val = (i 0).val := by
  unfold DotDims.lhsIdx
  rw [dif_neg (show ¬(0 : Fin S10000x4.rank) ∈ dot_S10000x4_S4x2_S10000x2_1_0_0_1_n_n.lhsBatch by decide), dif_pos (show (0 : Fin S10000x4.rank) ∈ dot_S10000x4_S4x2_S10000x2_1_0_0_1_n_n.lhsNonContracting by decide)]
  rfl

theorem dot_4_2_lhs_contr (i : S10000x2.Idx) (q : dot_S10000x4_S4x2_S10000x2_1_0_0_1_n_n.contr.Idx) :
    (dot_S10000x4_S4x2_S10000x2_1_0_0_1_n_n.lhsIdx i q 1).val = (q ⟨0, by decide⟩).val :=
  dot_S10000x4_S4x2_S10000x2_1_0_0_1_n_n.lhsIdx_val_of_single rfl i q

theorem dot_4_2_rhs_contr (i : S10000x2.Idx) (q : dot_S10000x4_S4x2_S10000x2_1_0_0_1_n_n.contr.Idx) :
    (dot_S10000x4_S4x2_S10000x2_1_0_0_1_n_n.rhsIdx i q 0).val = (q ⟨0, by decide⟩).val :=
  dot_S10000x4_S4x2_S10000x2_1_0_0_1_n_n.rhsIdx_val_of_single rfl i q

theorem dot_4_2_rhs_col (i : S10000x2.Idx) (q : dot_S10000x4_S4x2_S10000x2_1_0_0_1_n_n.contr.Idx) :
    (dot_S10000x4_S4x2_S10000x2_1_0_0_1_n_n.rhsIdx i q 1).val = (i 1).val := by
  unfold DotDims.rhsIdx
  rw [dif_neg (show ¬(1 : Fin S4x2.rank) ∈ dot_S10000x4_S4x2_S10000x2_1_0_0_1_n_n.rhsBatch by decide), dif_pos (show (1 : Fin S4x2.rank) ∈ dot_S10000x4_S4x2_S10000x2_1_0_0_1_n_n.rhsNonContracting by decide)]
  rfl

/-- Entry (p, h) of the product X · W accumulated into zero is the sum over the 4 columns of X. -/
theorem dot_4_2_apply (X : FVec Ideal S10000x4 .f32) (W : FVec Ideal S4x2 .f32) (p : Fin 10000) (h : Fin 2) :
    matmul dot_S10000x4_S4x2_S10000x2_1_0_0_1_n_n none X W (constant S10000x2 .f32 0x00000000#32) (ix2 p h)
      = ∑ i : Fin 4, X (ix2 p i) * W (ix2 i h) := by
  simp only [matmul]
  rw [Ideal.matmul_constant_zero_apply, ← Equiv.sum_comp (ValueIdx.contrEquiv1 dot_S10000x4_S4x2_S10000x2_1_0_0_1_n_n 4 rfl rfl).symm]
  refine Finset.sum_congr rfl fun k _ => ?_
  have hk := ValueIdx.contrEquiv1_symm_val dot_S10000x4_S4x2_S10000x2_1_0_0_1_n_n 4 rfl rfl k
  have el : dot_S10000x4_S4x2_S10000x2_1_0_0_1_n_n.lhsIdx (ix2 p h) ((ValueIdx.contrEquiv1 dot_S10000x4_S4x2_S10000x2_1_0_0_1_n_n 4 rfl rfl).symm k) = ix2 p k := funext fun a => Fin.ext (by
    match a with
    | ⟨0, _⟩ => exact dot_4_2_lhs_row _ _
    | ⟨1, _⟩ => exact (dot_4_2_lhs_contr _ _).trans hk)
  have er : dot_S10000x4_S4x2_S10000x2_1_0_0_1_n_n.rhsIdx (ix2 p h) ((ValueIdx.contrEquiv1 dot_S10000x4_S4x2_S10000x2_1_0_0_1_n_n 4 rfl rfl).symm k) = ix2 k h := funext fun a => Fin.ext (by
    match a with
    | ⟨0, _⟩ => exact (dot_4_2_rhs_contr _ _).trans hk
    | ⟨1, _⟩ => exact dot_4_2_rhs_col _ _)
  rw [el, er]

/-! ### Rows of width 4 against a 4 × 1 matrix -/

theorem dot_4_1_lhs_row (i : S10000x1.Idx) (q : dot_S10000x4_S4x1_S10000x1_1_0_0_1_n_n.contr.Idx) :
    (dot_S10000x4_S4x1_S10000x1_1_0_0_1_n_n.lhsIdx i q 0).val = (i 0).val := by
  unfold DotDims.lhsIdx
  rw [dif_neg (show ¬(0 : Fin S10000x4.rank) ∈ dot_S10000x4_S4x1_S10000x1_1_0_0_1_n_n.lhsBatch by decide), dif_pos (show (0 : Fin S10000x4.rank) ∈ dot_S10000x4_S4x1_S10000x1_1_0_0_1_n_n.lhsNonContracting by decide)]
  rfl

theorem dot_4_1_lhs_contr (i : S10000x1.Idx) (q : dot_S10000x4_S4x1_S10000x1_1_0_0_1_n_n.contr.Idx) :
    (dot_S10000x4_S4x1_S10000x1_1_0_0_1_n_n.lhsIdx i q 1).val = (q ⟨0, by decide⟩).val :=
  dot_S10000x4_S4x1_S10000x1_1_0_0_1_n_n.lhsIdx_val_of_single rfl i q

theorem dot_4_1_rhs_contr (i : S10000x1.Idx) (q : dot_S10000x4_S4x1_S10000x1_1_0_0_1_n_n.contr.Idx) :
    (dot_S10000x4_S4x1_S10000x1_1_0_0_1_n_n.rhsIdx i q 0).val = (q ⟨0, by decide⟩).val :=
  dot_S10000x4_S4x1_S10000x1_1_0_0_1_n_n.rhsIdx_val_of_single rfl i q

theorem dot_4_1_rhs_col (i : S10000x1.Idx) (q : dot_S10000x4_S4x1_S10000x1_1_0_0_1_n_n.contr.Idx) :
    (dot_S10000x4_S4x1_S10000x1_1_0_0_1_n_n.rhsIdx i q 1).val = (i 1).val := by
  unfold DotDims.rhsIdx
  rw [dif_neg (show ¬(1 : Fin S4x1.rank) ∈ dot_S10000x4_S4x1_S10000x1_1_0_0_1_n_n.rhsBatch by decide), dif_pos (show (1 : Fin S4x1.rank) ∈ dot_S10000x4_S4x1_S10000x1_1_0_0_1_n_n.rhsNonContracting by decide)]
  rfl

/-- Entry (p, h) of the product X · W accumulated into zero is the sum over the 4 columns of X. -/
theorem dot_4_1_apply (X : FVec Ideal S10000x4 .f32) (W : FVec Ideal S4x1 .f32) (p : Fin 10000) (h : Fin 1) :
    matmul dot_S10000x4_S4x1_S10000x1_1_0_0_1_n_n none X W (constant S10000x1 .f32 0x00000000#32) (ix2 p h)
      = ∑ i : Fin 4, X (ix2 p i) * W (ix2 i h) := by
  simp only [matmul]
  rw [Ideal.matmul_constant_zero_apply, ← Equiv.sum_comp (ValueIdx.contrEquiv1 dot_S10000x4_S4x1_S10000x1_1_0_0_1_n_n 4 rfl rfl).symm]
  refine Finset.sum_congr rfl fun k _ => ?_
  have hk := ValueIdx.contrEquiv1_symm_val dot_S10000x4_S4x1_S10000x1_1_0_0_1_n_n 4 rfl rfl k
  have el : dot_S10000x4_S4x1_S10000x1_1_0_0_1_n_n.lhsIdx (ix2 p h) ((ValueIdx.contrEquiv1 dot_S10000x4_S4x1_S10000x1_1_0_0_1_n_n 4 rfl rfl).symm k) = ix2 p k := funext fun a => Fin.ext (by
    match a with
    | ⟨0, _⟩ => exact dot_4_1_lhs_row _ _
    | ⟨1, _⟩ => exact (dot_4_1_lhs_contr _ _).trans hk)
  have er : dot_S10000x4_S4x1_S10000x1_1_0_0_1_n_n.rhsIdx (ix2 p h) ((ValueIdx.contrEquiv1 dot_S10000x4_S4x1_S10000x1_1_0_0_1_n_n 4 rfl rfl).symm k) = ix2 k h := funext fun a => Fin.ext (by
    match a with
    | ⟨0, _⟩ => exact (dot_4_1_rhs_contr _ _).trans hk
    | ⟨1, _⟩ => exact dot_4_1_rhs_col _ _)
  rw [el, er]

end Cert.KernelIdeal.Body

end
-- ==== Proof.Spec.lean ====
/-
  The function both programs compute, row by row.

  A row of the batch passes through six small perceptrons ("branches" k = 0 … 5). Branch k maps an input
  row x ∈ ℝ⁵ to  h2ₖ(x) = σ(W2ₖ · σ(W1ₖ · x + b1ₖ) + b2ₖ) ∈ ℝ⁴,  with σ(z) = 1 / (1 + exp(−z)) written out with
  the one literal 1.0 both programs use. Branches 0, 4 read the row of xl, branches 1, 3, 5 the row of yl,
  branch 2 the row of xr. Four two-wide heads (on branches 0, 1, 4, 5) and two one-wide heads (on branches
  2, 3) follow; the two-wide heads of branches 0, 4 (resp. 1, 5) are laid side by side into a 4-vector on
  which a last one-wide head acts. The result row is (head of branch 2, head of branch 3, last head on
  (0,4), last head on (1,5)).

  Everything is over the extended reals; every sum is a finite sum over the contracted axis.
-/
import Idealize.ShloMosaic.PureOps.Ideal
import Idealize.ShloMosaic.Lib.ValueIdx

noncomputable section

namespace Cert.BranchNet

open Idealize.ShloMosaic Idealize.ShloMosaic.ValueIdx

/-- The literal 1.0 of both programs, never evaluated. -/
abbrev one : EReal := Ideal.ofBits .f32 0x3F800000#32

/-- The logistic function as both programs spell it: 1 / (1 + exp (−z)). -/
def sigm (z : EReal) : EReal := Ideal.div one (one + Ideal.exp (-z))

/-- The parameters: two hidden layers per branch, the two- and one-wide heads, the last heads. -/
structure Params where
  W1 : (⟨3, ![6, 4, 5]⟩ : Shape).Idx → EReal
  b1 : (⟨2, ![6, 4]⟩ : Shape).Idx → EReal
  W2 : (⟨3, ![6, 4, 4]⟩ : Shape).Idx → EReal
  b2 : (⟨2, ![6, 4]⟩ : Shape).Idx → EReal
  W32 : (⟨3, ![4, 2, 4]⟩ : Shape).Idx → EReal
  b32 : (⟨2, ![4, 2]⟩ : Shape).Idx → EReal
  W31 : (⟨3, ![2, 1, 4]⟩ : Shape).Idx → EReal
  b31 : (⟨2, ![2, 1]⟩ : Shape).Idx → EReal
  W4 : (⟨3, ![2, 1, 4]⟩ : Shape).Idx → EReal
  b4 : (⟨2, ![2, 1]⟩ : Shape).Idx → EReal

variable (P : Params)

/-- First hidden layer of branch k on the row x. -/
def h1 (k : Fin 6) (x : Fin 5 → EReal) (h : Fin 4) : EReal :=
  sigm ((∑ i : Fin 5, x i * P.W1 (ix3 k h i)) + P.b1 (ix2 k h))

/-- Second hidden layer of branch k on the row x. -/
def h2 (k : Fin 6) (x : Fin 5 → EReal) (g : Fin 4) : EReal :=
  sigm ((∑ h : Fin 4, h1 P k x h * P.W2 (ix3 k g h)) + P.b2 (ix2 k g))

/-- Two-wide head number e on a hidden row v. -/
def head2 (e : Fin 4) (v : Fin 4 → EReal) (o : Fin 2) : EReal :=
  (∑ h : Fin 4, v h * P.W32 (ix3 e o h)) + P.b32 (ix2 e o)

/-- One-wide head number e on a hidden row v. -/
def head1 (e : Fin 2) (v : Fin 4 → EReal) : EReal :=
  (∑ h : Fin 4, v h * P.W31 (ix3 e 0 h)) + P.b31 (ix2 e 0)

/-- Two 2-vectors side by side. -/
def side (a b : Fin 2 → EReal) (c : Fin 4) : EReal :=
  if h : c.val < 2 then a ⟨c.val, h⟩ else b ⟨c.val - 2, by omega⟩

/-- Last head number e on a 4-vector v. -/
def last (e : Fin 2) (v : Fin 4 → EReal) : EReal :=
  (∑ c : Fin 4, v c * P.W4 (ix3 e 0 c)) + P.b4 (ix2 e 0)

/-- The result row for the rows xl, yl, xr of the three inputs that are read. -/
def rowOut (xl yl xr : Fin 5 → EReal) (q : Fin 4) : EReal :=
  if q.val = 0 then head1 P 0 (h2 P 2 xr)
  else if q.val = 1 then head1 P 1 (h2 P 3 yl)
  else if q.val = 2 then last P 0 (side (head2 P 0 (h2 P 0 xl)) (head2 P 2 (h2 P 4 xl)))
  else last P 1 (side (head2 P 1 (h2 P 1 yl)) (head2 P 3 (h2 P 5 yl)))

/-- Row r of an array of N rows of width 5. -/
abbrev rowOf {N : Nat} (X : (⟨2, ![N, 5]⟩ : Shape).Idx → EReal) (r : Fin N) : Fin 5 → EReal := fun i => X (ix2 r i)

/-- The whole result: entry (r, q) is the result row of the r-th rows of xl, yl, xr, at q. Stated for any number of
    rows N, so that it can be read both on a block of rows and on the whole batch. -/
def out {N : Nat} (xl yl xr : (⟨2, ![N, 5]⟩ : Shape).Idx → EReal) : (⟨2, ![N, 4]⟩ : Shape).Idx → EReal :=
  fun j => rowOut P (rowOf xl (j 0)) (rowOf yl (j 0)) (rowOf xr (j 0)) (j 1)

end Cert.BranchNet

end
-- ==== Proof.Lay.lean ====
/-
  The re-layings both programs use, read at an index, stated for any number of rows R so that they serve a block of
  rows and the whole batch alike.

  * Matrix k of a stack of K matrices of shape H × I, cut out, its unit axis dropped, transposed: entry (i, h) is
    W[k, h, i].
  * Row k of a K × H table, cut out and repeated over R rows: entry (p, h) is b[k, h].
  * The logistic function as the kernel spells it, 1 / (1 + exp (0 − z)), is 1 / (1 + exp (−z)) entry by entry:
    0 − z = −z on the extended reals, infinities included.
  * Two R × 2 arrays side by side, and four R × 1 columns side by side, read at (p, c).
-/
import proofs.«116432_j48292612276330_1_alg».proof.Proof.Spec
import Idealize.ShloMosaic.Lib.ValueLayout
import Idealize.ShloMosaic.Lib.Pipeline.Value
import Idealize.ShloMosaic.PureOps.Ideal.Laws

noncomputable section

namespace Cert.BranchNet.Lay

open Idealize.ShloMosaic Idealize.ShloMosaic.ValueIdx

variable {α : Type}

/-- Matrix k of the stack, transposed: entry (i, h) is W[k, h, i]. -/
theorem weightT_apply {K H I : ℕ} (W : (⟨3, ![K, H, I]⟩ : Shape).Idx → α) (k : ℕ) (hk : k < K)
    (hs : (⟨3, ![K, H, I]⟩ : Shape).Slices ![k, 0, 0] ⟨3, ![1, H, I]⟩)
    (hc : (⟨3, ![1, H, I]⟩ : Shape).ShapeCasts ⟨2, ![H, I]⟩)
    (ht : (⟨2, ![H, I]⟩ : Shape).Transposes [1, 0] ⟨2, ![I, H]⟩) (i : Fin I) (h : Fin H) :
    transpose ⟨2, ![I, H]⟩ [1, 0] (shapeCast ⟨2, ![H, I]⟩ (extractStridedSlice ⟨3, ![1, H, I]⟩ ![k, 0, 0] W hs) hc) ht (ix2 i h)
      = W (ix3 ⟨k, hk⟩ h i) := by
  rw [transpose_ix2_apply, shapeCast_1ab_ab_apply]
  exact extractStridedSlice_apply _ W hs _ _ fun a => match a with
    | ⟨0, _⟩ => by show k = k + 0; rfl
    | ⟨1, _⟩ => by show h.val = 0 + h.val; omega
    | ⟨2, _⟩ => by show i.val = 0 + i.val; omega

/-- Row k of the table repeated over the R rows: entry (p, h) is b[k, h]. -/
theorem bias_apply {K H R : ℕ} (b : (⟨2, ![K, H]⟩ : Shape).Idx → α) (k : ℕ) (hk : k < K)
    (hs : (⟨2, ![K, H]⟩ : Shape).Slices ![k, 0] ⟨2, ![1, H]⟩)
    (h1 : (⟨2, ![1, H]⟩ : Shape).ShapeCasts ⟨1, ![H]⟩) (h2 : (⟨1, ![H]⟩ : Shape).ShapeCasts ⟨2, ![1, H]⟩)
    (hb : (⟨2, ![1, H]⟩ : Shape).Broadcasts ⟨2, ![R, H]⟩) (p : Fin R) (h : Fin H) :
    broadcastTo ⟨2, ![R, H]⟩ (shapeCast ⟨2, ![1, H]⟩ (shapeCast ⟨1, ![H]⟩ (extractStridedSlice ⟨2, ![1, H]⟩ ![k, 0] b hs) h1) h2) hb (ix2 p h)
      = b (ix2 ⟨k, hk⟩ h) := by
  rw [broadcastTo_1b_ab_apply, shapeCast_a_1a_apply, shapeCast_1a_a_apply]
  exact extractStridedSlice_apply _ b hs _ _ fun a => match a with
    | ⟨0, _⟩ => by show k = k + 0; rfl
    | ⟨1, _⟩ => by show h.val = 0 + h.val; omega

/-- 1 / (1 + exp (0 − z)) entry by entry is the logistic of the entry. -/
theorem logistic_apply {s : Shape} (z : FVec Ideal s .f32) (j : s.Idx) :
    divf (broadcast s (Scalar.ofBits (F := Ideal) .f32 0x3F800000#32))
        (addf (broadcast s (Scalar.ofBits (F := Ideal) .f32 0x3F800000#32))
          (exp (subf (broadcast s (Scalar.ofBits (F := Ideal) .f32 0x00000000#32)) z))) j
      = sigm (z j) := by
  show Ideal.div (Ideal.ofBits .f32 0x3F800000#32)
      (Ideal.ofBits .f32 0x3F800000#32 + Ideal.exp (Ideal.ofBits .f32 0x00000000#32 - z j)) = _
  rw [Ideal.ofBits_zero_f32, zero_sub]
  rfl

/-- Two R × 2 arrays side by side, at (p, c). -/
theorem pair_apply {R : ℕ} (a b : (⟨2, ![R, 2]⟩ : Shape).Idx → EReal)
    (hc : Shape.Concatenates [(⟨2, ![R, 2]⟩ : Shape), ⟨2, ![R, 2]⟩] ⟨2, ![R, 4]⟩ 1) (p : Fin R) (c : Fin 4) :
    concatenate ⟨2, ![R, 4]⟩ 1 [⟨⟨2, ![R, 2]⟩, a⟩, ⟨⟨2, ![R, 2]⟩, b⟩] hc (ix2 p c)
      = side (fun o => a (ix2 p o)) (fun o => b (ix2 p o)) c := by
  unfold side
  by_cases h : c.val < 2
  · rw [dif_pos h]
    exact concatenate_pair_apply_left 1 a b hc (ix2 p c) rfl (ix2 p ⟨c.val, h⟩)
      (fun bx => match bx with | ⟨0, _⟩ => rfl | ⟨1, _⟩ => rfl)
  · rw [dif_neg h]
    exact concatenate_pair_apply_right 1 a b hc (ix2 p c) rfl rfl (ix2 p ⟨c.val - 2, by omega⟩)
      (fun bx hb => match bx, hb with | ⟨0, _⟩, _ => rfl | ⟨1, _⟩, hb => absurd rfl hb)
      (by show (c.val - 2) + 2 = c.val; omega)

/-- Four R × 1 columns side by side, at (p, q): column q at row p. -/
theorem four_apply {R : ℕ} (a b c d : (⟨2, ![R, 1]⟩ : Shape).Idx → EReal)
    (hc : Shape.Concatenates [(⟨2, ![R, 1]⟩ : Shape), ⟨2, ![R, 1]⟩, ⟨2, ![R, 1]⟩, ⟨2, ![R, 1]⟩] ⟨2, ![R, 4]⟩ 1)
    (p : Fin R) (q : Fin 4) :
    concatenate ⟨2, ![R, 4]⟩ 1 [⟨⟨2, ![R, 1]⟩, a⟩, ⟨⟨2, ![R, 1]⟩, b⟩, ⟨⟨2, ![R, 1]⟩, c⟩, ⟨⟨2, ![R, 1]⟩, d⟩] hc (ix2 p q)
      = if q.val = 0 then a (ix2 p 0) else if q.val = 1 then b (ix2 p 0) else if q.val = 2 then c (ix2 p 0) else d (ix2 p 0) := by
  have hi : ∀ bx : Fin 2, bx.cast (rfl : (⟨2, ![R, 1]⟩ : Shape).rank = (⟨2, ![R, 4]⟩ : Shape).rank) ≠ (1 : Fin 2) →
      ((ix2 p (0 : Fin 1)) bx).val = ((ix2 p q) (bx.cast rfl)).val :=
    fun bx hb => match bx, hb with | ⟨0, _⟩, _ => rfl | ⟨1, _⟩, hb => absurd rfl hb
  have hq := q.isLt
  by_cases h0 : q.val = 0
  · rw [if_pos h0]
    exact concatenate_apply_piece (t := ⟨2, ![R, 4]⟩) 1 [⟨⟨2, ![R, 1]⟩, a⟩, ⟨⟨2, ![R, 1]⟩, b⟩, ⟨⟨2, ![R, 1]⟩, c⟩, ⟨⟨2, ![R, 1]⟩, d⟩] hc (ix2 p q) 0 (by simp) ⟨2, ![R, 1]⟩ a rfl rfl 0 rfl (ix2 p 0) hi (by show 0 + 0 = q.val; omega)
  · rw [if_neg h0]
    by_cases h1 : q.val = 1
    · rw [if_pos h1]
      exact concatenate_apply_piece (t := ⟨2, ![R, 4]⟩) 1 [⟨⟨2, ![R, 1]⟩, a⟩, ⟨⟨2, ![R, 1]⟩, b⟩, ⟨⟨2, ![R, 1]⟩, c⟩, ⟨⟨2, ![R, 1]⟩, d⟩] hc (ix2 p q) 1 (by simp) ⟨2, ![R, 1]⟩ b rfl rfl 1 rfl (ix2 p 0) hi (by show 1 + 0 = q.val; omega)
    · rw [if_neg h1]
      by_cases h2 : q.val = 2
      · rw [if_pos h2]
        exact concatenate_apply_piece (t := ⟨2, ![R, 4]⟩) 1 [⟨⟨2, ![R, 1]⟩, a⟩, ⟨⟨2, ![R, 1]⟩, b⟩, ⟨⟨2, ![R, 1]⟩, c⟩, ⟨⟨2, ![R, 1]⟩, d⟩] hc (ix2 p q) 2 (by simp) ⟨2, ![R, 1]⟩ c rfl rfl 2 rfl (ix2 p 0) hi (by show 2 + 0 = q.val; omega)
      · rw [if_neg h2]
        exact concatenate_apply_piece (t := ⟨2, ![R, 4]⟩) 1 [⟨⟨2, ![R, 1]⟩, a⟩, ⟨⟨2, ![R, 1]⟩, b⟩, ⟨⟨2, ![R, 1]⟩, c⟩, ⟨⟨2, ![R, 1]⟩, d⟩] hc (ix2 p q) 3 (by simp) ⟨2, ![R, 1]⟩ d rfl rfl 3 rfl (ix2 p 0) hi (by show 3 + 0 = q.val; omega)

end Cert.BranchNet.Lay

end
-- ==== Proof.KDense.lean ====
/-
  A dense layer of the kernel's body at an index: a block of rows times one matrix of a stack (cut out, its unit
  axis dropped, transposed) accumulated into zero, plus one row of the bias table repeated over the rows. Entry
  (p, h) is  Σᵢ X[p, i] · W[k, h, i] + b[k, h].  One lemma per shape of layer: 5 → 4, 4 → 4, 4 → 2, 4 → 1.
  Then the two halves in which the body computes a logistic: e = exp (0 − z), and 1 / (1 + e).
-/
import proofs.«116432_j48292612276330_1_alg».proof.Proof.KDot
import proofs.«116432_j48292612276330_1_alg».proof.Proof.Lay

noncomputable section

namespace Cert.KernelIdeal.Body

open Cert.KernelIdeal Cert.KernelIdeal.Gen Cert.BranchNet Idealize.ShloMosaic Idealize.ShloMosaic.ValueIdx

/-- A block of rows of width 5 through matrix k of the stack (4 × 5, used transposed) plus row k of the bias
    table: entry (p, h) is  Σᵢ X[p, i] · W[k, h, i] + b[k, h]. -/
theorem dense_5_4 (X : FVec Ideal S10000x5 .f32) (W : FVec Ideal S6x4x5 .f32) (b : FVec Ideal S6x4 .f32) (k : ℕ) (hk : k < 6)
    (hs : S6x4x5.Slices ![k, 0, 0] S1x4x5) (hc : S1x4x5.ShapeCasts S4x5) (ht : S4x5.Transposes [1, 0] S5x4)
    (hs' : S6x4.Slices ![k, 0] S1x4) (h1 : S1x4.ShapeCasts S4) (h2 : S4.ShapeCasts S1x4) (hb : S1x4.Broadcasts S10000x4)
    (p : Fin 10000) (h : Fin 4) :
    addf (matmul dot_S10000x5_S5x4_S10000x4_1_0_0_1_n_n none X
          (transpose S5x4 [1, 0] (shapeCast S4x5 (extractStridedSlice S1x4x5 ![k, 0, 0] W hs) hc) ht) (constant S10000x4 .f32 0x00000000#32))
        (broadcastTo S10000x4 (shapeCast S1x4 (shapeCast S4 (extractStridedSlice S1x4 ![k, 0] b hs') h1) h2) hb) (ix2 p h)
      = (∑ i : Fin 5, X (ix2 p i) * W (ix3 ⟨k, hk⟩ h i)) + b (ix2 ⟨k, hk⟩ h) := by
  rw [addf_apply, dot_5_4_apply]
  refine congrArg₂ (· + ·) (Finset.sum_congr rfl fun i _ => ?_) ?_
  · exact congrArg (X (ix2 p i) * ·) (Lay.weightT_apply W k hk hs hc ht i h)
  · exact Lay.bias_apply b k hk hs' h1 h2 hb p h

/-- A block of rows of width 4 through matrix k of the stack (4 × 4, used transposed) plus row k of the bias
    table: entry (p, h) is  Σᵢ X[p, i] · W[k, h, i] + b[k, h]. -/
theorem dense_4_4 (X : FVec Ideal S10000x4 .f32) (W : FVec Ideal S6x4x4 .f32) (b : FVec Ideal S6x4 .f32) (k : ℕ) (hk : k < 6)
    (hs : S6x4x4.Slices ![k, 0, 0] S1x4x4) (hc : S1x4x4.ShapeCasts S4x4) (ht : S4x4.Transposes [1, 0] S4x4)
    (hs' : S6x4.Slices ![k, 0] S1x4) (h1 : S1x4.ShapeCasts S4) (h2 : S4.ShapeCasts S1x4) (hb : S1x4.Broadcasts S10000x4)
    (p : Fin 10000) (h : Fin 4) :
    addf (matmul dot_S10000x4_S4x4_S10000x4_1_0_0_1_n_n none X
          (transpose S4x4 [1, 0] (shapeCast S4x4 (extractStridedSlice S1x4x4 ![k, 0, 0] W hs) hc) ht) (constant S10000x4 .f32 0x00000000#32))
        (broadcastTo S10000x4 (shapeCast S1x4 (shapeCast S4 (extractStridedSlice S1x4 ![k, 0] b hs') h1) h2) hb) (ix2 p h)
      = (∑ i : Fin 4, X (ix2 p i) * W (ix3 ⟨k, hk⟩ h i)) + b (ix2 ⟨k, hk⟩ h) := by
  rw [addf_apply, dot_4_4_apply]
  refine congrArg₂ (· + ·) (Finset.sum_congr rfl fun i _ => ?_) ?_
  · exact congrArg (X (ix2 p i) * ·) (Lay.weightT_apply W k hk hs hc ht i h)
  · exact Lay.bias_apply b k hk hs' h1 h2 hb p h

/-- A block of rows of width 4 through matrix k of the stack (2 × 4, used transposed) plus row k of the bias
    table: entry (p, h) is  Σᵢ X[p, i] · W[k, h, i] + b[k, h]. -/
theorem dense_4_2 (X : FVec Ideal S10000x4 .f32) (W : FVec Ideal S4x2x4 .f32) (b : FVec Ideal S4x2 .f32) (k : ℕ) (hk : k < 4)
    (hs : S4x2x4.Slices ![k, 0, 0] S1x2x4) (hc : S1x2x4.ShapeCasts S2x4) (ht : S2x4.Transposes [1, 0] S4x2)
    (hs' : S4x2.Slices ![k, 0] S1x2) (h1 : S1x2.ShapeCasts S2) (h2 : S2.ShapeCasts S1x2) (hb : S1x2.Broadcasts S10000x2)
    (p : Fin 10000) (h : Fin 2) :
    addf (matmul dot_S10000x4_S4x2_S10000x2_1_0_0_1_n_n none X
          (transpose S4x2 [1, 0] (shapeCast S2x4 (extractStridedSlice S1x2x4 ![k, 0, 0] W hs) hc) ht) (constant S10000x2 .f32 0x00000000#32))
        (broadcastTo S10000x2 (shapeCast S1x2 (shapeCast S2 (extractStridedSlice S1x2 ![k, 0] b hs') h1) h2) hb) (ix2 p h)
      = (∑ i : Fin 4, X (ix2 p i) * W (ix3 ⟨k, hk⟩ h i)) + b (ix2 ⟨k, hk⟩ h) := by
  rw [addf_apply, dot_4_2_apply]
  refine congrArg₂ (· + ·) (Finset.sum_congr rfl fun i _ => ?_) ?_
  · exact congrArg (X (ix2 p i) * ·) (Lay.weightT_apply W k hk hs hc ht i h)
  · exact Lay.bias_apply b k hk hs' h1 h2 hb p h

/-- A block of rows of width 4 through matrix k of the stack (1 × 4, used transposed) plus row k of the bias
    table: entry (p, h) is  Σᵢ X[p, i] · W[k, h, i] + b[k, h]. -/
theorem dense_4_1 (X : FVec Ideal S10000x4 .f32) (W : FVec Ideal S2x1x4 .f32) (b : FVec Ideal S2x1 .f32) (k : ℕ) (hk : k < 2)
    (hs : S2x1x4.Slices ![k, 0, 0] S1x1x4) (hc : S1x1x4.ShapeCasts S1x4) (ht : S1x4.Transposes [1, 0] S4x1)
    (hs' : S2x1.Slices ![k, 0] S1x1) (h1 : S1x1.ShapeCasts S1) (h2 : S1.ShapeCasts S1x1) (hb : S1x1.Broadcasts S10000x1)
    (p : Fin 10000) (h : Fin 1) :
    addf (matmul dot_S10000x4_S4x1_S10000x1_1_0_0_1_n_n none X
          (transpose S4x1 [1, 0] (shapeCast S1x4 (extractStridedSlice S1x1x4 ![k, 0, 0] W hs) hc) ht) (constant S10000x1 .f32 0x00000000#32))
        (broadcastTo S10000x1 (shapeCast S1x1 (shapeCast S1 (extractStridedSlice S1x1 ![k, 0] b hs') h1) h2) hb) (ix2 p h)
      = (∑ i : Fin 4, X (ix2 p i) * W (ix3 ⟨k, hk⟩ h i)) + b (ix2 ⟨k, hk⟩ h) := by
  rw [addf_apply, dot_4_1_apply]
  refine congrArg₂ (· + ·) (Finset.sum_congr rfl fun i _ => ?_) ?_
  · exact congrArg (X (ix2 p i) * ·) (Lay.weightT_apply W k hk hs hc ht i h)
  · exact Lay.bias_apply b k hk hs' h1 h2 hb p h

/-- exp (0 − z) entry by entry is exp (−z): 0 − z = −z on the extended reals, infinities included. -/
theorem expneg_apply {s : Shape} (z : FVec Ideal s .f32) (j : s.Idx) :
    exp (subf (broadcast s (Scalar.ofBits (F := Ideal) .f32 0x00000000#32)) z) j = Ideal.exp (-(z j)) := by
  show Ideal.exp (Ideal.ofBits .f32 0x00000000#32 - z j) = _
  rw [Ideal.ofBits_zero_f32, zero_sub]

/-- 1 / (1 + e) entry by entry. -/
theorem recip_apply {s : Shape} (e : FVec Ideal s .f32) (j : s.Idx) :
    divf (broadcast s (Scalar.ofBits (F := Ideal) .f32 0x3F800000#32))
        (addf (broadcast s (Scalar.ofBits (F := Ideal) .f32 0x3F800000#32)) e) j
      = Ideal.div one (one + e j) := rfl

end Cert.KernelIdeal.Body

end
-- ==== Proof.KBranch.lean ====
/-
  The six branches of the kernel's body, each read at an index of its block of rows: entry (p, g) of branch k's
  second hidden layer is  h2ₖ(row p of the branch's input)[g].  The body computes some branches in one part and
  cuts others in the middle of a logistic (after exp (0 − z), before 1 / (1 + ·)); each cut part gets its own
  lemma, and the parts are put together per branch.
-/
import proofs.«116432_j48292612276330_1_alg».proof.Proof.Gen.KernelIdeal.Skeleton
import proofs.«116432_j48292612276330_1_alg».proof.Proof.KDense

noncomputable section

namespace Cert.KernelIdeal.Body

open Cert.KernelIdeal Cert.KernelIdeal.Gen Cert.BranchNet Idealize.ShloMosaic Idealize.ShloMosaic.ValueIdx

/-- The literal 1.0 as the body passes it between its parts. -/
abbrev one' : Ideal .f32 := Scalar.ofBits (F := Ideal) .f32 0x3F800000#32

variable (P : Params)

/-- Branch 0, first part: exp (−z) of the first layer's pre-activation z. -/
theorem k0_pay2_apply (X : FVec Ideal S10000x5 .f32) (p : Fin 10000) (h : Fin 4) :
    k0_pay2 (F := Ideal) X P.W1 P.b1 (ix2 p h)
      = Ideal.exp (-((∑ i : Fin 5, X (ix2 p i) * P.W1 (ix3 0 h i)) + P.b1 (ix2 0 h))) := by
  unfold k0_pay2
  dsimp only
  rw [expneg_apply, dense_5_4 X P.W1 P.b1 0 (by decide)]
  rfl

/-- Branch 0: the first layer's logistic finished from its exp, then the whole second layer. -/
theorem branch0_apply (X : FVec Ideal S10000x5 .f32) (p : Fin 10000) (g : Fin 4) :
    k0_pay3 (F := Ideal) P.W2 P.b2 (k0_pay2 X P.W1 P.b1) one' (ix2 p g) = h2 P 0 (rowOf X p) g := by
  unfold k0_pay3
  dsimp only
  rw [recip_apply, expneg_apply, dense_4_4 _ P.W2 P.b2 0 (by decide)]
  unfold h2 sigm
  refine congrArg (fun s => Ideal.div one (one + Ideal.exp (-(s + P.b2 (ix2 0 g))))) (Finset.sum_congr rfl fun h _ => ?_)
  refine congrArg (· * P.W2 (ix3 0 g h)) ?_
  rw [recip_apply, k0_pay2_apply]
  rfl

/-- Branch 1, first part: the whole first layer, then exp (−z) of the second layer's pre-activation z. -/
theorem k0_pay4_apply (X : FVec Ideal S10000x5 .f32) (p : Fin 10000) (g : Fin 4) :
    k0_pay4 (F := Ideal) X P.W1 P.b1 P.W2 P.b2 (ix2 p g)
      = Ideal.exp (-((∑ h : Fin 4, h1 P 1 (rowOf X p) h * P.W2 (ix3 1 g h)) + P.b2 (ix2 1 g))) := by
  unfold k0_pay4
  dsimp only
  rw [expneg_apply, dense_4_4 _ P.W2 P.b2 1 (by decide)]
  refine congrArg (fun s => Ideal.exp (-(s + P.b2 (ix2 1 g)))) (Finset.sum_congr rfl fun h _ => ?_)
  refine congrArg (· * P.W2 (ix3 1 g h)) ?_
  rw [recip_apply, expneg_apply, dense_5_4 X P.W1 P.b1 1 (by decide)]
  rfl

/-- Branch 1: the second layer's logistic finished from its exp. -/
theorem branch1_apply (X : FVec Ideal S10000x5 .f32) (p : Fin 10000) (g : Fin 4) :
    k0_pay5 (F := Ideal) (k0_pay4 X P.W1 P.b1 P.W2 P.b2) one' (ix2 p g) = h2 P 1 (rowOf X p) g := by
  unfold k0_pay5
  rw [recip_apply, k0_pay4_apply]
  rfl

/-- Branch 2: both hidden layers, computed in one part of the body. -/
theorem branch2_apply (X : FVec Ideal S10000x5 .f32) (p : Fin 10000) (g : Fin 4) :
    k0_pay6 (F := Ideal) X P.W1 P.b1 P.W2 P.b2 (ix2 p g) = h2 P 2 (rowOf X p) g := by
  unfold k0_pay6
  dsimp only
  rw [recip_apply, expneg_apply, dense_4_4 _ P.W2 P.b2 2 (by decide)]
  unfold h2 sigm
  refine congrArg (fun s => Ideal.div one (one + Ideal.exp (-(s + P.b2 (ix2 2 g))))) (Finset.sum_congr rfl fun h _ => ?_)
  refine congrArg (· * P.W2 (ix3 2 g h)) ?_
  rw [recip_apply, expneg_apply, dense_5_4 X P.W1 P.b1 2 (by decide)]
  rfl

/-- Branch 3, first part: exp (−z) of the first layer's pre-activation z. -/
theorem k0_pay7_apply (X : FVec Ideal S10000x5 .f32) (p : Fin 10000) (h : Fin 4) :
    k0_pay7 (F := Ideal) X P.W1 P.b1 (ix2 p h)
      = Ideal.exp (-((∑ i : Fin 5, X (ix2 p i) * P.W1 (ix3 3 h i)) + P.b1 (ix2 3 h))) := by
  unfold k0_pay7
  dsimp only
  rw [expneg_apply, dense_5_4 X P.W1 P.b1 3 (by decide)]
  rfl

/-- Branch 3: the first layer's logistic finished from its exp, then the whole second layer. -/
theorem branch3_apply (X : FVec Ideal S10000x5 .f32) (p : Fin 10000) (g : Fin 4) :
    k0_pay8 (F := Ideal) P.W2 P.b2 (k0_pay7 X P.W1 P.b1) one' (ix2 p g) = h2 P 3 (rowOf X p) g := by
  unfold k0_pay8
  dsimp only
  rw [recip_apply, expneg_apply, dense_4_4 _ P.W2 P.b2 3 (by decide)]
  unfold h2 sigm
  refine congrArg (fun s => Ideal.div one (one + Ideal.exp (-(s + P.b2 (ix2 3 g))))) (Finset.sum_congr rfl fun h _ => ?_)
  refine congrArg (· * P.W2 (ix3 3 g h)) ?_
  rw [recip_apply, k0_pay7_apply]
  rfl

/-- Branch 4, first part: the whole first layer, then exp (−z) of the second layer's pre-activation z. -/
theorem k0_pay9_apply (X : FVec Ideal S10000x5 .f32) (p : Fin 10000) (g : Fin 4) :
    k0_pay9 (F := Ideal) X P.W1 P.b1 P.W2 P.b2 (ix2 p g)
      = Ideal.exp (-((∑ h : Fin 4, h1 P 4 (rowOf X p) h * P.W2 (ix3 4 g h)) + P.b2 (ix2 4 g))) := by
  unfold k0_pay9
  dsimp only
  rw [expneg_apply, dense_4_4 _ P.W2 P.b2 4 (by decide)]
  refine congrArg (fun s => Ideal.exp (-(s + P.b2 (ix2 4 g)))) (Finset.sum_congr rfl fun h _ => ?_)
  refine congrArg (· * P.W2 (ix3 4 g h)) ?_
  rw [recip_apply, expneg_apply, dense_5_4 X P.W1 P.b1 4 (by decide)]
  rfl

/-- Branch 4: the second layer's logistic finished from its exp. -/
theorem branch4_apply (X : FVec Ideal S10000x5 .f32) (p : Fin 10000) (g : Fin 4) :
    k0_pay10 (F := Ideal) (k0_pay9 X P.W1 P.b1 P.W2 P.b2) one' (ix2 p g) = h2 P 4 (rowOf X p) g := by
  unfold k0_pay10
  rw [recip_apply, k0_pay9_apply]
  rfl

/-- Branch 5: both hidden layers, computed in one part of the body. -/
theorem branch5_apply (X : FVec Ideal S10000x5 .f32) (p : Fin 10000) (g : Fin 4) :
    k0_pay11 (F := Ideal) X P.W1 P.b1 P.W2 P.b2 (ix2 p g) = h2 P 5 (rowOf X p) g := by
  unfold k0_pay11
  dsimp only
  rw [recip_apply, expneg_apply, dense_4_4 _ P.W2 P.b2 5 (by decide)]
  unfold h2 sigm
  refine congrArg (fun s => Ideal.div one (one + Ideal.exp (-(s + P.b2 (ix2 5 g))))) (Finset.sum_congr rfl fun h _ => ?_)
  refine congrArg (· * P.W2 (ix3 5 g h)) ?_
  rw [recip_apply, expneg_apply, dense_5_4 X P.W1 P.b1 5 (by decide)]
  rfl

end Cert.KernelIdeal.Body

end
-- ==== Proof.KHeads.lean ====
/-
  The heads of the kernel's body and the body as a whole, read at an index of its block of rows.

  A head takes a hidden row y (the entries (p, ·) of a block Y) to  Σₕ y[h] · W[e, o, h] + b[e, o].  The body
  computes head 1 of the two-wide family in two parts (the product first, the bias later), lays two-wide heads side
  by side, applies the last heads — the second of them against a transposed weight row computed apart — and lays
  the four result columns side by side. Entry (p, q) of the whole is the result row of the p-th rows of the three
  inputs, at q.
-/
import proofs.«116432_j48292612276330_1_alg».proof.Proof.KBranch

noncomputable section

namespace Cert.KernelIdeal.Body

open Cert.KernelIdeal Cert.KernelIdeal.Gen Cert.BranchNet Idealize.ShloMosaic Idealize.ShloMosaic.ValueIdx

variable (P : Params)

/-- Two-wide head 0 on a block whose row p is y. -/
theorem pay12_apply (Y : FVec Ideal S10000x4 .f32) (y : Fin 4 → EReal) (p : Fin 10000) (hY : ∀ h, Y (ix2 p h) = y h) (o : Fin 2) :
    k0_pay12 (F := Ideal) P.W32 P.b32 Y (ix2 p o) = head2 P 0 y o := by
  unfold k0_pay12
  dsimp only
  rw [dense_4_2 Y P.W32 P.b32 0 (by decide)]
  unfold head2
  exact congrArg (· + P.b32 (ix2 0 o)) (Finset.sum_congr rfl fun h _ => by rw [hY]; rfl)

/-- The product part of two-wide head 1 (its bias is added later). -/
theorem pay13_apply (Y : FVec Ideal S10000x4 .f32) (y : Fin 4 → EReal) (p : Fin 10000) (hY : ∀ h, Y (ix2 p h) = y h) (o : Fin 2) :
    k0_pay13 (F := Ideal) P.W32 Y (ix2 p o) = ∑ h : Fin 4, y h * P.W32 (ix3 1 o h) := by
  unfold k0_pay13
  dsimp only
  rw [dot_4_2_apply]
  exact Finset.sum_congr rfl fun h _ => by rw [hY, Lay.weightT_apply P.W32 1 (by decide)]; rfl

/-- One-wide head 0. -/
theorem pay14_apply (Y : FVec Ideal S10000x4 .f32) (y : Fin 4 → EReal) (p : Fin 10000) (hY : ∀ h, Y (ix2 p h) = y h) :
    k0_pay14 (F := Ideal) P.W31 P.b31 Y (ix2 p 0) = head1 P 0 y := by
  unfold k0_pay14
  dsimp only
  rw [dense_4_1 Y P.W31 P.b31 0 (by decide)]
  unfold head1
  exact congrArg (· + P.b31 (ix2 0 0)) (Finset.sum_congr rfl fun h _ => by rw [hY]; rfl)

/-- One-wide head 1. -/
theorem pay15_apply (Y : FVec Ideal S10000x4 .f32) (y : Fin 4 → EReal) (p : Fin 10000) (hY : ∀ h, Y (ix2 p h) = y h) :
    k0_pay15 (F := Ideal) P.W31 P.b31 Y (ix2 p 0) = head1 P 1 y := by
  unfold k0_pay15
  dsimp only
  rw [dense_4_1 Y P.W31 P.b31 1 (by decide)]
  unfold head1
  exact congrArg (· + P.b31 (ix2 1 0)) (Finset.sum_congr rfl fun h _ => by rw [hY]; rfl)

/-- Two-wide head 1 finished (the product z plus its bias) beside two-wide head 3 on a block whose row p is y. -/
theorem pay16_apply (Y : FVec Ideal S10000x4 .f32) (Z : FVec Ideal S10000x2 .f32) (y : Fin 4 → EReal) (p : Fin 10000)
    (hY : ∀ h, Y (ix2 p h) = y h) (z : Fin 2 → EReal) (hZ : ∀ o, Z (ix2 p o) = z o) (c : Fin 4) :
    k0_pay16 (F := Ideal) P.W32 P.b32 Y Z (ix2 p c) = side (fun o => z o + P.b32 (ix2 1 o)) (head2 P 3 y) c := by
  unfold k0_pay16
  dsimp only
  rw [Lay.pair_apply]
  refine congrArg₂ (fun a b => side a b c) (funext fun o => ?_) (funext fun o => ?_)
  · rw [addf_apply, hZ, Lay.bias_apply P.b32 1 (by decide)]
    rfl
  · rw [dense_4_2 Y P.W32 P.b32 3 (by decide)]
    unfold head2
    exact congrArg (· + P.b32 (ix2 3 o)) (Finset.sum_congr rfl fun h _ => by rw [hY]; rfl)

/-- The last head 0 on two-wide head 0 (given, with row z) beside two-wide head 2 on a block whose row p is y. -/
theorem pay17_apply (Y : FVec Ideal S10000x4 .f32) (Z : FVec Ideal S10000x2 .f32) (y : Fin 4 → EReal) (p : Fin 10000)
    (hY : ∀ h, Y (ix2 p h) = y h) (z : Fin 2 → EReal) (hZ : ∀ o, Z (ix2 p o) = z o) :
    k0_pay17 (F := Ideal) P.W32 P.b32 P.W4 P.b4 Y Z (ix2 p 0) = last P 0 (side z (head2 P 2 y)) := by
  unfold k0_pay17
  dsimp only
  rw [dense_4_1 _ P.W4 P.b4 0 (by decide)]
  unfold last
  refine congrArg (· + P.b4 (ix2 0 0)) (Finset.sum_congr rfl fun c _ => ?_)
  refine congrArg (· * P.W4 (ix3 0 0 c)) ?_
  rw [Lay.pair_apply]
  refine congrArg₂ (fun a b => side a b c) (funext fun o => hZ o) (funext fun o => ?_)
  rw [dense_4_2 Y P.W32 P.b32 2 (by decide)]
  unfold head2
  exact congrArg (· + P.b32 (ix2 2 o)) (Finset.sum_congr rfl fun h _ => by rw [hY]; rfl)

/-- The weight row of the last head 1, as a column. -/
theorem pay18_apply (c : Fin 4) : k0_pay18 (F := Ideal) P.W4 (ix2 c 0) = P.W4 (ix3 1 0 c) := by
  unfold k0_pay18
  exact Lay.weightT_apply P.W4 1 (by decide) _ _ _ c 0

/-- The four result columns: the two one-wide heads, the last head 0, and the last head 1 computed here from the
    side-by-side block C against the weight column T. -/
theorem pay1_apply (A B D : FVec Ideal S10000x1 .f32) (C : FVec Ideal S10000x4 .f32) (T : FVec Ideal S4x1 .f32) (p : Fin 10000) (q : Fin 4) :
    k0_pay1 (F := Ideal) P.b4 A B C D T (ix2 p q)
      = if q.val = 0 then A (ix2 p 0) else if q.val = 1 then B (ix2 p 0) else if q.val = 2 then D (ix2 p 0)
        else (∑ c : Fin 4, C (ix2 p c) * T (ix2 c 0)) + P.b4 (ix2 1 0) := by
  unfold k0_pay1
  rw [Lay.four_apply, addf_apply, dot_4_1_apply, Lay.bias_apply P.b4 1 (by decide)]
  rfl

/-- THE BODY AT AN INDEX: entry (p, q) of what the body stores, computed from the blocks x0, x1, x2 of xl, yl, xr and
    the parameters, is the result row of the blocks' p-th rows, at q. -/
theorem body_apply (x0 x1 x2 : FVec Ideal S10000x5 .f32) (p : Fin 10000) (q : Fin 4) :
    k0_pay1 (F := Ideal) P.b4 (k0_pay14 P.W31 P.b31 (k0_pay6 x2 P.W1 P.b1 P.W2 P.b2))
        (k0_pay15 P.W31 P.b31 (k0_pay8 P.W2 P.b2 (k0_pay7 x1 P.W1 P.b1) one'))
        (k0_pay16 P.W32 P.b32 (k0_pay11 x1 P.W1 P.b1 P.W2 P.b2) (k0_pay13 P.W32 (k0_pay5 (k0_pay4 x1 P.W1 P.b1 P.W2 P.b2) one')))
        (k0_pay17 P.W32 P.b32 P.W4 P.b4 (k0_pay10 (k0_pay9 x0 P.W1 P.b1 P.W2 P.b2) one')
          (k0_pay12 P.W32 P.b32 (k0_pay3 P.W2 P.b2 (k0_pay2 x0 P.W1 P.b1) one')))
        (k0_pay18 P.W4) (ix2 p q)
      = rowOut P (rowOf x0 p) (rowOf x1 p) (rowOf x2 p) q := by
  rw [pay1_apply]
  unfold rowOut
  have e0 := pay14_apply P _ (h2 P 2 (rowOf x2 p)) p (fun h => branch2_apply P x2 p h)
  have e1 := pay15_apply P _ (h2 P 3 (rowOf x1 p)) p (fun h => branch3_apply P x1 p h)
  have e2 := pay17_apply P _ _ (h2 P 4 (rowOf x0 p)) p (fun h => branch4_apply P x0 p h)
    (head2 P 0 (h2 P 0 (rowOf x0 p))) (fun o => pay12_apply P _ (h2 P 0 (rowOf x0 p)) p (fun h => branch0_apply P x0 p h) o)
  have e3 : (∑ c : Fin 4, k0_pay16 (F := Ideal) P.W32 P.b32 (k0_pay11 x1 P.W1 P.b1 P.W2 P.b2)
        (k0_pay13 P.W32 (k0_pay5 (k0_pay4 x1 P.W1 P.b1 P.W2 P.b2) one')) (ix2 p c) * k0_pay18 (F := Ideal) P.W4 (ix2 c 0)) + P.b4 (ix2 1 0)
      = last P 1 (side (head2 P 1 (h2 P 1 (rowOf x1 p))) (head2 P 3 (h2 P 5 (rowOf x1 p)))) := by
    unfold last
    refine congrArg (· + P.b4 (ix2 1 0)) (Finset.sum_congr rfl fun c _ => ?_)
    rw [pay18_apply, pay16_apply P _ _ (h2 P 5 (rowOf x1 p)) p (fun h => branch5_apply P x1 p h)
      (fun o => ∑ h : Fin 4, h2 P 1 (rowOf x1 p) h * P.W32 (ix3 1 o h))
      (fun o => pay13_apply P _ (h2 P 1 (rowOf x1 p)) p (fun h => branch1_apply P x1 p h) o)]
    rfl
  rw [e0, e1, e2, e3]

end Cert.KernelIdeal.Body

end
-- ==== Proof.KArray.lean ====
/-
  From blocks to the whole array. The grid has 200 points; point t reads rows 10000·t … 10000·t + 9999 of xl, yl, xr
  and the ten parameter arrays whole, and writes back rows 10000·t … 10000·t + 9999 of the result. What point t
  writes back is the body's value on those blocks, which entry by entry is the result row of the corresponding rows
  of the inputs: so it is block t of the one function `out` of the whole argument arrays. The 200 blocks tile the
  2000000 rows (row r lies in block r / 10000), hence the array after the run is `out` of the arguments.
-/
import proofs.«116432_j48292612276330_1_alg».proof.Proof.Gen.KernelIdeal.Value
import proofs.«116432_j48292612276330_1_alg».proof.Proof.KHeads

noncomputable section

namespace Cert.KernelIdeal.Whole

open Cert.KernelIdeal Cert.KernelIdeal.Gen Cert.KernelIdeal.Body Cert.BranchNet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The parameters as the region finds them on device c. -/
def params (c : Dev nD) : Params :=
  ⟨V m c main_arg4, V m c main_arg5, V m c main_arg6, V m c main_arg7, V m c main_arg8, V m c main_arg9,
   V m c main_arg10, V m c main_arg11, V m c main_arg12, V m c main_arg13⟩

/-- The result as one function of the argument arrays on device c. -/
def whole (c : Dev nD) : S2000000x4.Idx → EReal :=
  out (params m c) (V m c main_arg0) (V m c main_arg1) (V m c main_arg2)

theorem hz2 : (![0, 0] : Fin 2 → Nat) = fun _ => 0 := funext fun a => by fin_cases a <;> rfl
theorem hz3 : (![0, 0, 0] : Fin 3 → Nat) = fun _ => 0 := funext fun a => by fin_cases a <;> rfl

/-- The block index maps over the grid: the three row-blocked inputs move with the output (block row t, block column
    0), and every parameter array is one block at the origin. -/
theorem idx_facts : ∀ t : Fin cfg0.N,
    win0_0.index t (0 : Fin 2) = win0_13.index t (0 : Fin 2)
    ∧ win0_0.index t (1 : Fin 2) = 0
    ∧ win0_1.index t (0 : Fin 2) = win0_13.index t (0 : Fin 2)
    ∧ win0_1.index t (1 : Fin 2) = 0
    ∧ win0_2.index t (0 : Fin 2) = win0_13.index t (0 : Fin 2)
    ∧ win0_2.index t (1 : Fin 2) = 0
    ∧ win0_13.index t (0 : Fin 2) = t.val
    ∧ win0_13.index t (1 : Fin 2) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 3) = 0
    ∧ win0_9.index t (1 : Fin 3) = 0
    ∧ win0_9.index t (2 : Fin 3) = 0
    ∧ win0_10.index t (0 : Fin 2) = 0
    ∧ win0_10.index t (1 : Fin 2) = 0
    ∧ win0_11.index t (0 : Fin 3) = 0
    ∧ win0_11.index t (1 : Fin 3) = 0
    ∧ win0_11.index t (2 : Fin 3) = 0
    ∧ win0_12.index t (0 : Fin 2) = 0
    ∧ win0_12.index t (1 : Fin 2) = 0 :=
  (by decide +kernel : ∀ t : Fin grid0.N, _)

/-- The result row depends only on the parameters, the three rows read and the column. -/
theorem rowOut_congr {P Q : Params} {a a' b b' d d' : Fin 5 → EReal} {q q' : Fin 4}
    (hP : P = Q) (ha : a = a') (hb : b = b') (hd : d = d') (hq : q = q') :
    rowOut P a b d q = rowOut Q a' b' d' q' := by
  subst hP ha hb hd hq; rfl

/-- Two parameter records whose ten fields agree are equal. -/
theorem params_congr {a0 b0 : S6x4x5.Idx → EReal} {a1 b1 : S6x4.Idx → EReal} {a2 b2 : S6x4x4.Idx → EReal}
    {a3 b3 : S6x4.Idx → EReal} {a4 b4 : S4x2x4.Idx → EReal} {a5 b5 : S4x2.Idx → EReal}
    {a6 b6 : S2x1x4.Idx → EReal} {a7 b7 : S2x1.Idx → EReal} {a8 b8 : S2x1x4.Idx → EReal} {a9 b9 : S2x1.Idx → EReal}
    (h0 : a0 = b0) (h1 : a1 = b1) (h2 : a2 = b2) (h3 : a3 = b3) (h4 : a4 = b4) (h5 : a5 = b5)
    (h6 : a6 = b6) (h7 : a7 = b7) (h8 : a8 = b8) (h9 : a9 = b9) :
    (⟨a0, a1, a2, a3, a4, a5, a6, a7, a8, a9⟩ : Params) = ⟨b0, b1, b2, b3, b4, b5, b6, b7, b8, b9⟩ := by
  subst h0 h1 h2 h3 h4 h5 h6 h7 h8 h9; rfl

/-- Reading block t of `whole` at an index is the result row of the rows the block's embedding names. -/
theorem whole_read (c : Dev nD) (t : Fin cfg0.N) (j : S10000x4.Idx) :
    ((cfg0.win 13).blk t).view.read (Elt Ideal) (whole m c) j
      = rowOut (params m c) (rowOf (V m c main_arg0) ((((cfg0.win 13).blk t).view.emb j) 0))
        (rowOf (V m c main_arg1) ((((cfg0.win 13).blk t).view.emb j) 0))
        (rowOf (V m c main_arg2) ((((cfg0.win 13).blk t).view.emb j) 0)) ((((cfg0.win 13).blk t).view.emb j) 1) :=
  rfl

/-- What point t writes back is block t of `whole`. -/
theorem flushed_eq (c : Dev nD) (t : Fin cfg0.N) :
    (dats m 0 c).flushed 13 t = ((cfg0.win 13).blk t).view.read (Elt Ideal) (whole m c) := by
  rw [Value.flushed13]
  unfold out0_13
  rw [View.canon_unit_zero hz2]
  simp only [View.ld_unit_zero (S := S10000x5) hz2, View.ld_unit_zero (S := S6x4x5) hz3, View.ld_unit_zero (S := S6x4) hz2, View.ld_unit_zero (S := S6x4x4) hz3, View.ld_unit_zero (S := S4x2x4) hz3, View.ld_unit_zero (S := S4x2) hz2, View.ld_unit_zero (S := S2x1x4) hz3, View.ld_unit_zero (S := S2x1) hz2]
  obtain ⟨f0, f1, f2, f3, f4, f5, f6, f7, f8, f9, f10, f11, f12, f13, f14, f15, f16, f17, f18, f19, f20, f21, f22, f23, f24, f25, f26, f27, f28, f29, f30, f31, f32⟩ := idx_facts t
  funext j
  obtain ⟨p, q, rfl⟩ : ∃ (p : Fin 10000) (q : Fin 4), j = ix2 p q := ⟨j 0, j 1, eq_ix2 j⟩
  have w3 : (iblk m c 3 t : S6x4x5.Idx → EReal) = V m c main_arg4 := by
    funext y
    show V m c main_arg4 (((cfg0.win 3).blk t).view.emb y) = V m c main_arg4 y
    refine congrArg _ (funext fun a => Fin.ext ?_)
    match a with
    | ⟨0, _⟩ => show win0_3.index t (0 : Fin 3) * 6 + 1 * (y 0).val = (y 0).val; omega
    | ⟨1, _⟩ => show win0_3.index t (1 : Fin 3) * 4 + 1 * (y 1).val = (y 1).val; omega
    | ⟨2, _⟩ => show win0_3.index t (2 : Fin 3) * 5 + 1 * (y 2).val = (y 2).val; omega
  have w4 : (iblk m c 4 t : S6x4.Idx → EReal) = V m c main_arg5 := by
    funext y
    show V m c main_arg5 (((cfg0.win 4).blk t).view.emb y) = V m c main_arg5 y
    refine congrArg _ (funext fun a => Fin.ext ?_)
    match a with
    | ⟨0, _⟩ => show win0_4.index t (0 : Fin 2) * 6 + 1 * (y 0).val = (y 0).val; omega
    | ⟨1, _⟩ => show win0_4.index t (1 : Fin 2) * 4 + 1 * (y 1).val = (y 1).val; omega
  have w5 : (iblk m c 5 t : S6x4x4.Idx → EReal) = V m c main_arg6 := by
    funext y
    show V m c main_arg6 (((cfg0.win 5).blk t).view.emb y) = V m c main_arg6 y
    refine congrArg _ (funext fun a => Fin.ext ?_)
    match a with
    | ⟨0, _⟩ => show win0_5.index t (0 : Fin 3) * 6 + 1 * (y 0).val = (y 0).val; omega
    | ⟨1, _⟩ => show win0_5.index t (1 : Fin 3) * 4 + 1 * (y 1).val = (y 1).val; omega
    | ⟨2, _⟩ => show win0_5.index t (2 : Fin 3) * 4 + 1 * (y 2).val = (y 2).val; omega
  have w6 : (iblk m c 6 t : S6x4.Idx → EReal) = V m c main_arg7 := by
    funext y
    show V m c main_arg7 (((cfg0.win 6).blk t).view.emb y) = V m c main_arg7 y
    refine congrArg _ (funext fun a => Fin.ext ?_)
    match a with
    | ⟨0, _⟩ => show win0_6.index t (0 : Fin 2) * 6 + 1 * (y 0).val = (y 0).val; omega
    | ⟨1, _⟩ => show win0_6.index t (1 : Fin 2) * 4 + 1 * (y 1).val = (y 1).val; omega
  have w7 : (iblk m c 7 t : S4x2x4.Idx → EReal) = V m c main_arg8 := by
    funext y
    show V m c main_arg8 (((cfg0.win 7).blk t).view.emb y) = V m c main_arg8 y
    refine congrArg _ (funext fun a => Fin.ext ?_)
    match a with
    | ⟨0, _⟩ => show win0_7.index t (0 : Fin 3) * 4 + 1 * (y 0).val = (y 0).val; omega
    | ⟨1, _⟩ => show win0_7.index t (1 : Fin 3) * 2 + 1 * (y 1).val = (y 1).val; omega
    | ⟨2, _⟩ => show win0_7.index t (2 : Fin 3) * 4 + 1 * (y 2).val = (y 2).val; omega
  have w8 : (iblk m c 8 t : S4x2.Idx → EReal) = V m c main_arg9 := by
    funext y
    show V m c main_arg9 (((cfg0.win 8).blk t).view.emb y) = V m c main_arg9 y
    refine congrArg _ (funext fun a => Fin.ext ?_)
    match a with
    | ⟨0, _⟩ => show win0_8.index t (0 : Fin 2) * 4 + 1 * (y 0).val = (y 0).val; omega
    | ⟨1, _⟩ => show win0_8.index t (1 : Fin 2) * 2 + 1 * (y 1).val = (y 1).val; omega
  have w9 : (iblk m c 9 t : S2x1x4.Idx → EReal) = V m c main_arg10 := by
    funext y
    show V m c main_arg10 (((cfg0.win 9).blk t).view.emb y) = V m c main_arg10 y
    refine congrArg _ (funext fun a => Fin.ext ?_)
    match a with
    | ⟨0, _⟩ => show win0_9.index t (0 : Fin 3) * 2 + 1 * (y 0).val = (y 0).val; omega
    | ⟨1, _⟩ => show win0_9.index t (1 : Fin 3) * 1 + 1 * (y 1).val = (y 1).val; omega
    | ⟨2, _⟩ => show win0_9.index t (2 : Fin 3) * 4 + 1 * (y 2).val = (y 2).val; omega
  have w10 : (iblk m c 10 t : S2x1.Idx → EReal) = V m c main_arg11 := by
    funext y
    show V m c main_arg11 (((cfg0.win 10).blk t).view.emb y) = V m c main_arg11 y
    refine congrArg _ (funext fun a => Fin.ext ?_)
    match a with
    | ⟨0, _⟩ => show win0_10.index t (0 : Fin 2) * 2 + 1 * (y 0).val = (y 0).val; omega
    | ⟨1, _⟩ => show win0_10.index t (1 : Fin 2) * 1 + 1 * (y 1).val = (y 1).val; omega
  have w11 : (iblk m c 11 t : S2x1x4.Idx → EReal) = V m c main_arg12 := by
    funext y
    show V m c main_arg12 (((cfg0.win 11).blk t).view.emb y) = V m c main_arg12 y
    refine congrArg _ (funext fun a => Fin.ext ?_)
    match a with
    | ⟨0, _⟩ => show win0_11.index t (0 : Fin 3) * 2 + 1 * (y 0).val = (y 0).val; omega
    | ⟨1, _⟩ => show win0_11.index t (1 : Fin 3) * 1 + 1 * (y 1).val = (y 1).val; omega
    | ⟨2, _⟩ => show win0_11.index t (2 : Fin 3) * 4 + 1 * (y 2).val = (y 2).val; omega
  have w12 : (iblk m c 12 t : S2x1.Idx → EReal) = V m c main_arg13 := by
    funext y
    show V m c main_arg13 (((cfg0.win 12).blk t).view.emb y) = V m c main_arg13 y
    refine congrArg _ (funext fun a => Fin.ext ?_)
    match a with
    | ⟨0, _⟩ => show win0_12.index t (0 : Fin 2) * 2 + 1 * (y 0).val = (y 0).val; omega
    | ⟨1, _⟩ => show win0_12.index t (1 : Fin 2) * 1 + 1 * (y 1).val = (y 1).val; omega
  have r0 : rowOf (iblk m c 0 t : S10000x5.Idx → EReal) p
      = rowOf (V m c main_arg0) ((((cfg0.win 13).blk t).view.emb (ix2 p q)) 0) := by
    funext i
    show V m c main_arg0 (((cfg0.win 0).blk t).view.emb (ix2 p i)) = V m c main_arg0 (ix2 ((((cfg0.win 13).blk t).view.emb (ix2 p q)) 0) i)
    refine congrArg _ (funext fun a => Fin.ext ?_)
    match a with
    | ⟨0, _⟩ => show win0_0.index t (0 : Fin 2) * 10000 + 1 * p.val = win0_13.index t (0 : Fin 2) * 10000 + 1 * p.val; omega
    | ⟨1, _⟩ => show win0_0.index t (1 : Fin 2) * 5 + 1 * i.val = i.val; omega
  have r1 : rowOf (iblk m c 1 t : S10000x5.Idx → EReal) p
      = rowOf (V m c main_arg1) ((((cfg0.win 13).blk t).view.emb (ix2 p q)) 0) := by
    funext i
    show V m c main_arg1 (((cfg0.win 1).blk t).view.emb (ix2 p i)) = V m c main_arg1 (ix2 ((((cfg0.win 13).blk t).view.emb (ix2 p q)) 0) i)
    refine congrArg _ (funext fun a => Fin.ext ?_)
    match a with
    | ⟨0, _⟩ => show win0_1.index t (0 : Fin 2) * 10000 + 1 * p.val = win0_13.index t (0 : Fin 2) * 10000 + 1 * p.val; omega
    | ⟨1, _⟩ => show win0_1.index t (1 : Fin 2) * 5 + 1 * i.val = i.val; omega
  have r2 : rowOf (iblk m c 2 t : S10000x5.Idx → EReal) p
      = rowOf (V m c main_arg2) ((((cfg0.win 13).blk t).view.emb (ix2 p q)) 0) := by
    funext i
    show V m c main_arg2 (((cfg0.win 2).blk t).view.emb (ix2 p i)) = V m c main_arg2 (ix2 ((((cfg0.win 13).blk t).view.emb (ix2 p q)) 0) i)
    refine congrArg _ (funext fun a => Fin.ext ?_)
    match a with
    | ⟨0, _⟩ => show win0_2.index t (0 : Fin 2) * 10000 + 1 * p.val = win0_13.index t (0 : Fin 2) * 10000 + 1 * p.val; omega
    | ⟨1, _⟩ => show win0_2.index t (1 : Fin 2) * 5 + 1 * i.val = i.val; omega
  have hq : ((((cfg0.win 13).blk t).view.emb (ix2 p q)) 1 : Fin 4) = q :=
    Fin.ext (show win0_13.index t (1 : Fin 2) * 4 + 1 * q.val = q.val by omega)
  refine (body_apply ⟨iblk m c 3 t, iblk m c 4 t, iblk m c 5 t, iblk m c 6 t, iblk m c 7 t, iblk m c 8 t, iblk m c 9 t,
    iblk m c 10 t, iblk m c 11 t, iblk m c 12 t⟩ (iblk m c 0 t) (iblk m c 1 t) (iblk m c 2 t) p q).trans ?_
  have hP : (⟨iblk m c 3 t, iblk m c 4 t, iblk m c 5 t, iblk m c 6 t, iblk m c 7 t, iblk m c 8 t, iblk m c 9 t,
      iblk m c 10 t, iblk m c 11 t, iblk m c 12 t⟩ : Params) = params m c :=
    params_congr w3 w4 w5 w6 w7 w8 w9 w10 w11 w12
  exact (rowOut_congr hP r0 r1 r2 hq.symm).trans (whole_read m c t (ix2 p q)).symm

/-- An index of the array is in point t's block iff each coordinate is in the block's range on its axis. -/
theorem mem_blk (t : Fin cfg0.N) (i : S2000000x4.Idx) :
    i ∈ ((cfg0.win 13).blk t).view.set ↔ ∀ a : Fin 2, win0_13.index t a * S10000x4.size a ≤ (i a).val
      ∧ (i a).val < win0_13.index t a * S10000x4.size a + S10000x4.size a := by
  show i ∈ ((View.whole main_v0).slice (win0_13.rect t)).set ↔ _
  rw [View.set_slice_whole, Rect.mem_set_unit]
  exact Iff.rfl

/-- The blocks tile the array: row r lies in the block of point r / 10000. -/
theorem cover (i : S2000000x4.Idx) : ∃ t : Fin cfg0.N, (cfg0.win 13).flush t = true ∧ i ∈ ((cfg0.win 13).blk t).view.set := by
  have hi0 : (i 0).val < 2000000 := (i 0).isLt
  have hi1 : (i 1).val < 4 := (i 1).isLt
  have hN : cfg0.N = 200 := rfl
  refine ⟨⟨(i 0).val / 10000, by rw [hN]; omega⟩, flush0_13 _, ?_⟩
  obtain ⟨f0, f1, f2, f3, f4, f5, f6, f7, f8, f9, f10, f11, f12, f13, f14, f15, f16, f17, f18, f19, f20, f21, f22, f23, f24, f25, f26, f27, f28, f29, f30, f31, f32⟩ := idx_facts ⟨(i 0).val / 10000, by rw [hN]; omega⟩
  rw [mem_blk]
  intro a
  match a with
  | ⟨0, _⟩ =>
    show win0_13.index _ (0 : Fin 2) * 10000 ≤ (i 0).val ∧ (i 0).val < win0_13.index _ (0 : Fin 2) * 10000 + 10000
    rw [f6]
    show (i 0).val / 10000 * 10000 ≤ (i 0).val ∧ (i 0).val < (i 0).val / 10000 * 10000 + 10000
    omega
  | ⟨1, _⟩ =>
    show win0_13.index _ (1 : Fin 2) * 4 ≤ (i 1).val ∧ (i 1).val < win0_13.index _ (1 : Fin 2) * 4 + 4
    rw [f7]
    omega

/-- The array after the run is `whole`. -/
theorem final (c : Dev nD) : (dats m 0 c).arrAt 13 cfg0.N = whole m c :=
  (dats m 0 c).arrAt_eq_of_cover 13 (whole m c) (fun t _ => flushed_eq m c t) (cover)

/-- The kernel's run with its result named: every weakly fair execution terminates with the result array at `whole`
    of the launch contents, the fourteen arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.RefTerm.lean ====
/-
  The reference, as a pure function of its argument arrays: its host operations composed stage by stage, in the
  order the program runs them. Stages: the six branch inputs stacked (xl, yl, xr, yl, xl, yl along a new leading
  axis); the two hidden layers, each a batched contraction over the last axis plus a bias, through
  1 / (1 + exp (−z)); the selection of branches 0, 1, 4, 5 and of branches 2, 3 out of the six (constant index
  tables, normalised as jnp normalises a possibly negative index); the two- and one-wide heads on the selected
  branches; the two-wide heads of selected branches 0, 2 (resp. 1, 3) laid side by side; the last heads; and the
  four one-wide columns laid side by side into the result.
-/
import proofs.«116432_j48292612276330_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The six branch inputs along a new leading axis: xl, yl, xr, yl, xl, yl. -/
def stack (a0 a1 a2 : (⟨S2000000x5, .f32⟩ : BufTy).Contents (Elt F)) : (⟨S6x2000000x5, .f32⟩ : BufTy).Contents (Elt F) :=
  have v0 := (broadcastInDim S1x2000000x5 ![1, 2] bcast_S2000000x5_S1x2000000x5_1_2 : (⟨S2000000x5, .f32⟩ : BufTy).Contents (Elt F) → (⟨S1x2000000x5, .f32⟩ : BufTy).Contents (Elt F)) a0
  have v1 := (broadcastInDim S1x2000000x5 ![1, 2] bcast_S2000000x5_S1x2000000x5_1_2 : (⟨S2000000x5, .f32⟩ : BufTy).Contents (Elt F) → (⟨S1x2000000x5, .f32⟩ : BufTy).Contents (Elt F)) a1
  have v2 := (broadcastInDim S1x2000000x5 ![1, 2] bcast_S2000000x5_S1x2000000x5_1_2 : (⟨S2000000x5, .f32⟩ : BufTy).Contents (Elt F) → (⟨S1x2000000x5, .f32⟩ : BufTy).Contents (Elt F)) a2
  have v3 := (broadcastInDim S1x2000000x5 ![1, 2] bcast_S2000000x5_S1x2000000x5_1_2 : (⟨S2000000x5, .f32⟩ : BufTy).Contents (Elt F) → (⟨S1x2000000x5, .f32⟩ : BufTy).Contents (Elt F)) a1
  have v4 := (broadcastInDim S1x2000000x5 ![1, 2] bcast_S2000000x5_S1x2000000x5_1_2 : (⟨S2000000x5, .f32⟩ : BufTy).Contents (Elt F) → (⟨S1x2000000x5, .f32⟩ : BufTy).Contents (Elt F)) a0
  have v5 := (broadcastInDim S1x2000000x5 ![1, 2] bcast_S2000000x5_S1x2000000x5_1_2 : (⟨S2000000x5, .f32⟩ : BufTy).Contents (Elt F) → (⟨S1x2000000x5, .f32⟩ : BufTy).Contents (Elt F)) a1
  have v6 := concatenate S6x2000000x5 0 [⟨S1x2000000x5, v0⟩, ⟨S1x2000000x5, v1⟩, ⟨S1x2000000x5, v2⟩, ⟨S1x2000000x5, v3⟩, ⟨S1x2000000x5, v4⟩, ⟨S1x2000000x5, v5⟩] concatenates_S1x2000000x5_S1x2000000x5_S1x2000000x5_S1x2000000x5_S1x2000000x5_S1x2000000x5_S6x2000000x5_d0
  v6

/-- First hidden layer of all six branches: the contraction with W1 over the input axis, plus b1, through the logistic. -/
def hidden1 (v6 : (⟨S6x2000000x5, .f32⟩ : BufTy).Contents (Elt F)) (a4 : (⟨S6x4x5, .f32⟩ : BufTy).Contents (Elt F)) (a5 : (⟨S6x4, .f32⟩ : BufTy).Contents (Elt F)) : (⟨S6x2000000x4, .f32⟩ : BufTy).Contents (Elt F) :=
  have v7 := ((fun l r => Host.dotGeneral dot_S6x2000000x5_S6x4x5_S6x2000000x4_2_2_1_1_0_0 none l r) : (⟨S6x2000000x5, .f32⟩ : BufTy).Contents (Elt F) → (⟨S6x4x5, .f32⟩ : BufTy).Contents (Elt F) → (⟨S6x2000000x4, .f32⟩ : BufTy).Contents (Elt F)) v6 a4
  have v8 := (broadcastInDim S6x1x4 ![0, 2] bcast_S6x4_S6x1x4_0_2 : (⟨S6x4, .f32⟩ : BufTy).Contents (Elt F) → (⟨S6x1x4, .f32⟩ : BufTy).Contents (Elt F)) a5
  have v9 := (broadcastInDim S6x2000000x4 ![0, 1, 2] bcast_S6x1x4_S6x2000000x4_0_1_2 : (⟨S6x1x4, .f32⟩ : BufTy).Contents (Elt F) → (⟨S6x2000000x4, .f32⟩ : BufTy).Contents (Elt F)) v8
  have v10 := (addf : (⟨S6x2000000x4, .f32⟩ : BufTy).Contents (Elt F) → (⟨S6x2000000x4, .f32⟩ : BufTy).Contents (Elt F) → (⟨S6x2000000x4, .f32⟩ : BufTy).Contents (Elt F)) v7 v9
  have v11 := (Host.negf : (⟨S6x2000000x4, .f32⟩ : BufTy).Contents (Elt F) → (⟨S6x2000000x4, .f32⟩ : BufTy).Contents (Elt F)) v10
  have v12 := (Host.exp : (⟨S6x2000000x4, .f32⟩ : BufTy).Contents (Elt F) → (⟨S6x2000000x4, .f32⟩ : BufTy).Contents (Elt F)) v11
  have cst : (⟨S_, .f32⟩ : BufTy).Contents (Elt F) := (constant S_ .f32 0x3F800000#32)
  have v13 := (broadcastInDim S6x2000000x4 ![] bcast_S_S6x2000000x4 : (⟨S_, .f32⟩ : BufTy).Contents (Elt F) → (⟨S6x2000000x4, .f32⟩ : BufTy).Contents (Elt F)) cst
  have v14 := (addf : (⟨S6x2000000x4, .f32⟩ : BufTy).Contents (Elt F) → (⟨S6x2000000x4, .f32⟩ : BufTy).Contents (Elt F) → (⟨S6x2000000x4, .f32⟩ : BufTy).Contents (Elt F)) v13 v12
  have cst_1 : (⟨S_, .f32⟩ : BufTy).Contents (Elt F) := (constant S_ .f32 0x3F800000#32)
  have v15 := (broadcastInDim S6x2000000x4 ![] bcast_S_S6x2000000x4 : (⟨S_, .f32⟩ : BufTy).Contents (Elt F) → (⟨S6x2000000x4, .f32⟩ : BufTy).Contents (Elt F)) cst_1
  have v16 := (Host.divf : (⟨S6x2000000x4, .f32⟩ : BufTy).Contents (Elt F) → (⟨S6x2000000x4, .f32⟩ : BufTy).Contents (Elt F) → (⟨S6x2000000x4, .f32⟩ : BufTy).Contents (Elt F)) v15 v14
  v16

/-- Second hidden layer of all six branches: the contraction with W2, plus b2, through the logistic. -/
def hidden2 (v16 : (⟨S6x2000000x4, .f32⟩ : BufTy).Contents (Elt F)) (a6 : (⟨S6x4x4, .f32⟩ : BufTy).Contents (Elt F)) (a7 : (⟨S6x4, .f32⟩ : BufTy).Contents (Elt F)) : (⟨S6x2000000x4, .f32⟩ : BufTy).Contents (Elt F) :=
  have v17 := ((fun l r => Host.dotGeneral dot_S6x2000000x4_S6x4x4_S6x2000000x4_2_2_1_1_0_0 none l r) : (⟨S6x2000000x4, .f32⟩ : BufTy).Contents (Elt F) → (⟨S6x4x4, .f32⟩ : BufTy).Contents (Elt F) → (⟨S6x2000000x4, .f32⟩ : BufTy).Contents (Elt F)) v16 a6
  have v18 := (broadcastInDim S6x1x4 ![0, 2] bcast_S6x4_S6x1x4_0_2 : (⟨S6x4, .f32⟩ : BufTy).Contents (Elt F) → (⟨S6x1x4, .f32⟩ : BufTy).Contents (Elt F)) a7
  have v19 := (broadcastInDim S6x2000000x4 ![0, 1, 2] bcast_S6x1x4_S6x2000000x4_0_1_2 : (⟨S6x1x4, .f32⟩ : BufTy).Contents (Elt F) → (⟨S6x2000000x4, .f32⟩ : BufTy).Contents (Elt F)) v18
  have v20 := (addf : (⟨S6x2000000x4, .f32⟩ : BufTy).Contents (Elt F) → (⟨S6x2000000x4, .f32⟩ : BufTy).Contents (Elt F) → (⟨S6x2000000x4, .f32⟩ : BufTy).Contents (Elt F)) v17 v19
  have v21 := (Host.negf : (⟨S6x2000000x4, .f32⟩ : BufTy).Contents (Elt F) → (⟨S6x2000000x4, .f32⟩ : BufTy).Contents (Elt F)) v20
  have v22 := (Host.exp : (⟨S6x2000000x4, .f32⟩ : BufTy).Contents (Elt F) → (⟨S6x2000000x4, .f32⟩ : BufTy).Contents (Elt F)) v21
  have cst_2 : (⟨S_, .f32⟩ : BufTy).Contents (Elt F) := (constant S_ .f32 0x3F800000#32)
  have v23 := (broadcastInDim S6x2000000x4 ![] bcast_S_S6x2000000x4 : (⟨S_, .f32⟩ : BufTy).Contents (Elt F) → (⟨S6x2000000x4, .f32⟩ : BufTy).Contents (Elt F)) cst_2
  have v24 := (addf : (⟨S6x2000000x4, .f32⟩ : BufTy).Contents (Elt F) → (⟨S6x2000000x4, .f32⟩ : BufTy).Contents (Elt F) → (⟨S6x2000000x4, .f32⟩ : BufTy).Contents (Elt F)) v23 v22
  have cst_3 : (⟨S_, .f32⟩ : BufTy).Contents (Elt F) := (constant S_ .f32 0x3F800000#32)
  have v25 := (broadcastInDim S6x2000000x4 ![] bcast_S_S6x2000000x4 : (⟨S_, .f32⟩ : BufTy).Contents (Elt F) → (⟨S6x2000000x4, .f32⟩ : BufTy).Contents (Elt F)) cst_3
  have v26 := (Host.divf : (⟨S6x2000000x4, .f32⟩ : BufTy).Contents (Elt F) → (⟨S6x2000000x4, .f32⟩ : BufTy).Contents (Elt F) → (⟨S6x2000000x4, .f32⟩ : BufTy).Contents (Elt F)) v25 v24
  v26

/-- The index table 0, 1, 4, 5 as a column, each entry i replaced by i + 6 when negative. -/
def pick4 : (⟨S4x1, .i32⟩ : BufTy).Contents (Elt F) :=
  have c : (⟨S4, .i32⟩ : BufTy).Contents (Elt F) := (fun i => lit0 (S4.rowMajor i))
  have c_4 : (⟨S_, .i32⟩ : BufTy).Contents (Elt F) := (constantI S_ 32 0#32)
  have v27 := (broadcastInDim S4 ![] bcast_S_S4 : (⟨S_, .i32⟩ : BufTy).Contents (Elt F) → (⟨S4, .i32⟩ : BufTy).Contents (Elt F)) c_4
  have v28 := (cmpi .slt : (⟨S4, .i32⟩ : BufTy).Contents (Elt F) → (⟨S4, .i32⟩ : BufTy).Contents (Elt F) → (⟨S4, .i1⟩ : BufTy).Contents (Elt F)) c v27
  have c_5 : (⟨S_, .i32⟩ : BufTy).Contents (Elt F) := (constantI S_ 32 6#32)
  have v29 := (broadcastInDim S4 ![] bcast_S_S4 : (⟨S_, .i32⟩ : BufTy).Contents (Elt F) → (⟨S4, .i32⟩ : BufTy).Contents (Elt F)) c_5
  have v30 := (addi : (⟨S4, .i32⟩ : BufTy).Contents (Elt F) → (⟨S4, .i32⟩ : BufTy).Contents (Elt F) → (⟨S4, .i32⟩ : BufTy).Contents (Elt F)) c v29
  have v31 := (select : (⟨S4, .i1⟩ : BufTy).Contents (Elt F) → (⟨S4, .i32⟩ : BufTy).Contents (Elt F) → (⟨S4, .i32⟩ : BufTy).Contents (Elt F) → (⟨S4, .i32⟩ : BufTy).Contents (Elt F)) v28 v30 c
  have v32 := (broadcastInDim S4x1 ![0] bcast_S4_S4x1_0 : (⟨S4, .i32⟩ : BufTy).Contents (Elt F) → (⟨S4x1, .i32⟩ : BufTy).Contents (Elt F)) v31
  v32

/-- The two-wide heads on branches 0, 1, 4, 5 of the second hidden layer. -/
def heads2 (v26 : (⟨S6x2000000x4, .f32⟩ : BufTy).Contents (Elt F)) (a8 : (⟨S4x2x4, .f32⟩ : BufTy).Contents (Elt F)) (a9 : (⟨S4x2, .f32⟩ : BufTy).Contents (Elt F)) : (⟨S4x2000000x2, .f32⟩ : BufTy).Contents (Elt F) :=
  have v32 : (⟨S4x1, .i32⟩ : BufTy).Contents (Elt F) := pick4 (F := F)
  have v33 := ((fun x i => Host.gather gather_S6x2000000x4_S4x1_S4x2000000x4_12_0_n_n_0_1_120000004 x i) : (⟨S6x2000000x4, .f32⟩ : BufTy).Contents (Elt F) → (⟨S4x1, .i32⟩ : BufTy).Contents (Elt F) → (⟨S4x2000000x4, .f32⟩ : BufTy).Contents (Elt F)) v26 v32
  have v34 := ((fun l r => Host.dotGeneral dot_S4x2000000x4_S4x2x4_S4x2000000x2_2_2_1_1_0_0 none l r) : (⟨S4x2000000x4, .f32⟩ : BufTy).Contents (Elt F) → (⟨S4x2x4, .f32⟩ : BufTy).Contents (Elt F) → (⟨S4x2000000x2, .f32⟩ : BufTy).Contents (Elt F)) v33 a8
  have v35 := (broadcastInDim S4x1x2 ![0, 2] bcast_S4x2_S4x1x2_0_2 : (⟨S4x2, .f32⟩ : BufTy).Contents (Elt F) → (⟨S4x1x2, .f32⟩ : BufTy).Contents (Elt F)) a9
  have v36 := (broadcastInDim S4x2000000x2 ![0, 1, 2] bcast_S4x1x2_S4x2000000x2_0_1_2 : (⟨S4x1x2, .f32⟩ : BufTy).Contents (Elt F) → (⟨S4x2000000x2, .f32⟩ : BufTy).Contents (Elt F)) v35
  have v37 := (addf : (⟨S4x2000000x2, .f32⟩ : BufTy).Contents (Elt F) → (⟨S4x2000000x2, .f32⟩ : BufTy).Contents (Elt F) → (⟨S4x2000000x2, .f32⟩ : BufTy).Contents (Elt F)) v34 v36
  v37

/-- The index table 2, 3 as a column, each entry i replaced by i + 6 when negative. -/
def pick2 : (⟨S2x1, .i32⟩ : BufTy).Contents (Elt F) :=
  have c_0 : (⟨S2, .i32⟩ : BufTy).Contents (Elt F) := (fun i => lit1 (S2.rowMajor i))
  have c_6 : (⟨S_, .i32⟩ : BufTy).Contents (Elt F) := (constantI S_ 32 0#32)
  have v38 := (broadcastInDim S2 ![] bcast_S_S2 : (⟨S_, .i32⟩ : BufTy).Contents (Elt F) → (⟨S2, .i32⟩ : BufTy).Contents (Elt F)) c_6
  have v39 := (cmpi .slt : (⟨S2, .i32⟩ : BufTy).Contents (Elt F) → (⟨S2, .i32⟩ : BufTy).Contents (Elt F) → (⟨S2, .i1⟩ : BufTy).Contents (Elt F)) c_0 v38
  have c_7 : (⟨S_, .i32⟩ : BufTy).Contents (Elt F) := (constantI S_ 32 6#32)
  have v40 := (broadcastInDim S2 ![] bcast_S_S2 : (⟨S_, .i32⟩ : BufTy).Contents (Elt F) → (⟨S2, .i32⟩ : BufTy).Contents (Elt F)) c_7
  have v41 := (addi : (⟨S2, .i32⟩ : BufTy).Contents (Elt F) → (⟨S2, .i32⟩ : BufTy).Contents (Elt F) → (⟨S2, .i32⟩ : BufTy).Contents (Elt F)) c_0 v40
  have v42 := (select : (⟨S2, .i1⟩ : BufTy).Contents (Elt F) → (⟨S2, .i32⟩ : BufTy).Contents (Elt F) → (⟨S2, .i32⟩ : BufTy).Contents (Elt F) → (⟨S2, .i32⟩ : BufTy).Contents (Elt F)) v39 v41 c_0
  have v43 := (broadcastInDim S2x1 ![0] bcast_S2_S2x1_0 : (⟨S2, .i32⟩ : BufTy).Contents (Elt F) → (⟨S2x1, .i32⟩ : BufTy).Contents (Elt F)) v42
  v43

/-- The one-wide heads on branches 2, 3 of the second hidden layer. -/
def heads1 (v26 : (⟨S6x2000000x4, .f32⟩ : BufTy).Contents (Elt F)) (a10 : (⟨S2x1x4, .f32⟩ : BufTy).Contents (Elt F)) (a11 : (⟨S2x1, .f32⟩ : BufTy).Contents (Elt F)) : (⟨S2x2000000x1, .f32⟩ : BufTy).Contents (Elt F) :=
  have v43 : (⟨S2x1, .i32⟩ : BufTy).Contents (Elt F) := pick2 (F := F)
  have v44 := ((fun x i => Host.gather gather_S6x2000000x4_S2x1_S2x2000000x4_12_0_n_n_0_1_120000004 x i) : (⟨S6x2000000x4, .f32⟩ : BufTy).Contents (Elt F) → (⟨S2x1, .i32⟩ : BufTy).Contents (Elt F) → (⟨S2x2000000x4, .f32⟩ : BufTy).Contents (Elt F)) v26 v43
  have v45 := ((fun l r => Host.dotGeneral dot_S2x2000000x4_S2x1x4_S2x2000000x1_2_2_1_1_0_0 none l r) : (⟨S2x2000000x4, .f32⟩ : BufTy).Contents (Elt F) → (⟨S2x1x4, .f32⟩ : BufTy).Contents (Elt F) → (⟨S2x2000000x1, .f32⟩ : BufTy).Contents (Elt F)) v44 a10
  have v46 := (broadcastInDim S2x1x1 ![0, 2] bcast_S2x1_S2x1x1_0_2 : (⟨S2x1, .f32⟩ : BufTy).Contents (Elt F) → (⟨S2x1x1, .f32⟩ : BufTy).Contents (Elt F)) a11
  have v47 := (broadcastInDim S2x2000000x1 ![0, 1, 2] bcast_S2x1x1_S2x2000000x1_0_1_2 : (⟨S2x1x1, .f32⟩ : BufTy).Contents (Elt F) → (⟨S2x2000000x1, .f32⟩ : BufTy).Contents (Elt F)) v46
  have v48 := (addf : (⟨S2x2000000x1, .f32⟩ : BufTy).Contents (Elt F) → (⟨S2x2000000x1, .f32⟩ : BufTy).Contents (Elt F) → (⟨S2x2000000x1, .f32⟩ : BufTy).Contents (Elt F)) v45 v47
  v48

/-- Two-wide heads number 0 and 2 side by side. -/
def pairA (v37 : (⟨S4x2000000x2, .f32⟩ : BufTy).Contents (Elt F)) : (⟨S2000000x4, .f32⟩ : BufTy).Contents (Elt F) :=
  have v49 := ((extractStridedSlice S1x2000000x2 ![0, 0, 0] · slices_S4x2000000x2_S1x2000000x2_0_0_0) : (⟨S4x2000000x2, .f32⟩ : BufTy).Contents (Elt F) → (⟨S1x2000000x2, .f32⟩ : BufTy).Contents (Elt F)) v37
  have v50 := shapeCast S2000000x2 v49 shapeCasts_S1x2000000x2_S2000000x2
  have v51 := ((extractStridedSlice S1x2000000x2 ![2, 0, 0] · slices_S4x2000000x2_S1x2000000x2_2_0_0) : (⟨S4x2000000x2, .f32⟩ : BufTy).Contents (Elt F) → (⟨S1x2000000x2, .f32⟩ : BufTy).Contents (Elt F)) v37
  have v52 := shapeCast S2000000x2 v51 shapeCasts_S1x2000000x2_S2000000x2
  have v53 := ((fun a b => concatenate S2000000x4 1 [⟨S2000000x2, a⟩, ⟨S2000000x2, b⟩] concatenates_S2000000x2_S2000000x2_S2000000x4_d1) : (⟨S2000000x2, .f32⟩ : BufTy).Contents (Elt F) → (⟨S2000000x2, .f32⟩ : BufTy).Contents (Elt F) → (⟨S2000000x4, .f32⟩ : BufTy).Contents (Elt F)) v50 v52
  v53

/-- Two-wide heads number 1 and 3 side by side. -/
def pairB (v37 : (⟨S4x2000000x2, .f32⟩ : BufTy).Contents (Elt F)) : (⟨S2000000x4, .f32⟩ : BufTy).Contents (Elt F) :=
  have v54 := ((extractStridedSlice S1x2000000x2 ![1, 0, 0] · slices_S4x2000000x2_S1x2000000x2_1_0_0) : (⟨S4x2000000x2, .f32⟩ : BufTy).Contents (Elt F) → (⟨S1x2000000x2, .f32⟩ : BufTy).Contents (Elt F)) v37
  have v55 := shapeCast S2000000x2 v54 shapeCasts_S1x2000000x2_S2000000x2
  have v56 := ((extractStridedSlice S1x2000000x2 ![3, 0, 0] · slices_S4x2000000x2_S1x2000000x2_3_0_0) : (⟨S4x2000000x2, .f32⟩ : BufTy).Contents (Elt F) → (⟨S1x2000000x2, .f32⟩ : BufTy).Contents (Elt F)) v37
  have v57 := shapeCast S2000000x2 v56 shapeCasts_S1x2000000x2_S2000000x2
  have v58 := ((fun a b => concatenate S2000000x4 1 [⟨S2000000x2, a⟩, ⟨S2000000x2, b⟩] concatenates_S2000000x2_S2000000x2_S2000000x4_d1) : (⟨S2000000x2, .f32⟩ : BufTy).Contents (Elt F) → (⟨S2000000x2, .f32⟩ : BufTy).Contents (Elt F) → (⟨S2000000x4, .f32⟩ : BufTy).Contents (Elt F)) v55 v57
  v58

/-- Last head number 0, on the pair (0, 2). -/
def lastA (v53 : (⟨S2000000x4, .f32⟩ : BufTy).Contents (Elt F)) (a12 : (⟨S2x1x4, .f32⟩ : BufTy).Contents (Elt F)) (a13 : (⟨S2x1, .f32⟩ : BufTy).Contents (Elt F)) : (⟨S2000000x1, .f32⟩ : BufTy).Contents (Elt F) :=
  have v59 := ((extractStridedSlice S1x1x4 ![0, 0, 0] · slices_S2x1x4_S1x1x4_0_0_0) : (⟨S2x1x4, .f32⟩ : BufTy).Contents (Elt F) → (⟨S1x1x4, .f32⟩ : BufTy).Contents (Elt F)) a12
  have v60 := shapeCast S1x4 v59 shapeCasts_S1x1x4_S1x4
  have v61 := ((transpose S4x1 [1, 0] · transposes_S1x4_S4x1_1_0) : (⟨S1x4, .f32⟩ : BufTy).Contents (Elt F) → (⟨S4x1, .f32⟩ : BufTy).Contents (Elt F)) v60
  have v62 := ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)) v53 v61
  have v63 := ((extractStridedSlice S1x1 ![0, 0] · slices_S2x1_S1x1_0_0) : (⟨S2x1, .f32⟩ : BufTy).Contents (Elt F) → (⟨S1x1, .f32⟩ : BufTy).Contents (Elt F)) a13
  have v64 := shapeCast S1 v63 shapeCasts_S1x1_S1
  have v65 := (broadcastInDim S1x1 ![1] bcast_S1_S1x1_1 : (⟨S1, .f32⟩ : BufTy).Contents (Elt F) → (⟨S1x1, .f32⟩ : BufTy).Contents (Elt F)) v64
  have v66 := (broadcastInDim S2000000x1 ![0, 1] bcast_S1x1_S2000000x1_0_1 : (⟨S1x1, .f32⟩ : BufTy).Contents (Elt F) → (⟨S2000000x1, .f32⟩ : BufTy).Contents (Elt F)) v65
  have v67 := (addf : (⟨S2000000x1, .f32⟩ : BufTy).Contents (Elt F) → (⟨S2000000x1, .f32⟩ : BufTy).Contents (Elt F) → (⟨S2000000x1, .f32⟩ : BufTy).Contents (Elt F)) v62 v66
  v67

/-- Last head number 1, on the pair (1, 3). -/
def lastB (v58 : (⟨S2000000x4, .f32⟩ : BufTy).Contents (Elt F)) (a12 : (⟨S2x1x4, .f32⟩ : BufTy).Contents (Elt F)) (a13 : (⟨S2x1, .f32⟩ : BufTy).Contents (Elt F)) : (⟨S2000000x1, .f32⟩ : BufTy).Contents (Elt F) :=
  have v68 := ((extractStridedSlice S1x1x4 ![1, 0, 0] · slices_S2x1x4_S1x1x4_1_0_0) : (⟨S2x1x4, .f32⟩ : BufTy).Contents (Elt F) → (⟨S1x1x4, .f32⟩ : BufTy).Contents (Elt F)) a12
  have v69 := shapeCast S1x4 v68 shapeCasts_S1x1x4_S1x4
  have v70 := ((transpose S4x1 [1, 0] · transposes_S1x4_S4x1_1_0) : (⟨S1x4, .f32⟩ : BufTy).Contents (Elt F) → (⟨S4x1, .f32⟩ : BufTy).Contents (Elt F)) v69
  have v71 := ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)) v58 v70
  have v72 := ((extractStridedSlice S1x1 ![1, 0] · slices_S2x1_S1x1_1_0) : (⟨S2x1, .f32⟩ : BufTy).Contents (Elt F) → (⟨S1x1, .f32⟩ : BufTy).Contents (Elt F)) a13
  have v73 := shapeCast S1 v72 shapeCasts_S1x1_S1
  have v74 := (broadcastInDim S1x1 ![1] bcast_S1_S1x1_1 : (⟨S1, .f32⟩ : BufTy).Contents (Elt F) → (⟨S1x1, .f32⟩ : BufTy).Contents (Elt F)) v73
  have v75 := (broadcastInDim S2000000x1 ![0, 1] bcast_S1x1_S2000000x1_0_1 : (⟨S1x1, .f32⟩ : BufTy).Contents (Elt F) → (⟨S2000000x1, .f32⟩ : BufTy).Contents (Elt F)) v74
  have v76 := (addf : (⟨S2000000x1, .f32⟩ : BufTy).Contents (Elt F) → (⟨S2000000x1, .f32⟩ : BufTy).Contents (Elt F) → (⟨S2000000x1, .f32⟩ : BufTy).Contents (Elt F)) v71 v75
  v76

/-- The four result columns side by side: one-wide heads 0 and 1, last heads 0 and 1. -/
def columns (v48 : (⟨S2x2000000x1, .f32⟩ : BufTy).Contents (Elt F)) (v67 v76 : (⟨S2000000x1, .f32⟩ : BufTy).Contents (Elt F)) : (⟨S2000000x4, .f32⟩ : BufTy).Contents (Elt F) :=
  have v77 := ((extractStridedSlice S1x2000000x1 ![0, 0, 0] · slices_S2x2000000x1_S1x2000000x1_0_0_0) : (⟨S2x2000000x1, .f32⟩ : BufTy).Contents (Elt F) → (⟨S1x2000000x1, .f32⟩ : BufTy).Contents (Elt F)) v48
  have v78 := shapeCast S2000000x1 v77 shapeCasts_S1x2000000x1_S2000000x1
  have v79 := ((extractStridedSlice S1x2000000x1 ![1, 0, 0] · slices_S2x2000000x1_S1x2000000x1_1_0_0) : (⟨S2x2000000x1, .f32⟩ : BufTy).Contents (Elt F) → (⟨S1x2000000x1, .f32⟩ : BufTy).Contents (Elt F)) v48
  have v80 := shapeCast S2000000x1 v79 shapeCasts_S1x2000000x1_S2000000x1
  have v81 := concatenate S2000000x4 1 [⟨S2000000x1, v78⟩, ⟨S2000000x1, v80⟩, ⟨S2000000x1, v67⟩, ⟨S2000000x1, v76⟩] concatenates_S2000000x1_S2000000x1_S2000000x1_S2000000x1_S2000000x4_d1
  v81

/-- The reference's result as a function of the arguments it reads (the fourth input is never read). -/
def result (a0 a1 a2 : (⟨S2000000x5, .f32⟩ : BufTy).Contents (Elt F)) (a4 : (⟨S6x4x5, .f32⟩ : BufTy).Contents (Elt F)) (a5 : (⟨S6x4, .f32⟩ : BufTy).Contents (Elt F)) (a6 : (⟨S6x4x4, .f32⟩ : BufTy).Contents (Elt F)) (a7 : (⟨S6x4, .f32⟩ : BufTy).Contents (Elt F))
    (a8 : (⟨S4x2x4, .f32⟩ : BufTy).Contents (Elt F)) (a9 : (⟨S4x2, .f32⟩ : BufTy).Contents (Elt F)) (a10 : (⟨S2x1x4, .f32⟩ : BufTy).Contents (Elt F)) (a11 : (⟨S2x1, .f32⟩ : BufTy).Contents (Elt F)) (a12 : (⟨S2x1x4, .f32⟩ : BufTy).Contents (Elt F)) (a13 : (⟨S2x1, .f32⟩ : BufTy).Contents (Elt F)) :
    (⟨S2000000x4, .f32⟩ : BufTy).Contents (Elt F) :=
  have v26 := hidden2 (hidden1 (stack a0 a1 a2) a4 a5) a6 a7
  have v37 := heads2 v26 a8 a9
  columns (heads1 v26 a10 a11) (lastA (pairA v37) a12 a13) (lastB (pairB v37) a12 a13)

end Cert.ReferenceIdeal.RefTerm

end
-- ==== Proof.RefRun.lean ====
/-
  The reference's run. Its program is a straight line of 92 host operations; listed in order, the program equals
  the line of that list, every operation touches tensor values of the device only, and no buffer or semaphore is
  scoped. So every weakly fair execution terminates with each buffer at the fold of the operations' results over
  the launch contents. The fold is read in two stretches: the first 59 operations leave the two- and one-wide heads
  of the trunk, and the last 33, from any contents, lay the columns out of those; no operation writes an argument.
  Joined, the result buffer holds the reference's composed term of the arguments.
-/
import proofs.«116432_j48292612276330_1_alg».proof.Proof.RefTerm
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

section Nary6

variable {τ' : Topo} {sig' : RefSig} {Val : EltTy → Type} {x0 x1 x2 x3 x4 x5 y : Ref sig' .tc}

/-- An operation over a literal family of six operands leaves, at its result, its function applied to the six
    operands' contents, each read at its own reference. -/
theorem nary6_result
    (f : ((k : Fin 6) → ((![x0, x1, x2, x3, x4, x5] : Fin 6 → Ref sig' .tc) k).ty.Contents Val) → y.ty.Contents Val) (hxs hy)
    (V : Valuation τ' sig' Val) :
    (nary (τ := τ') ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) := by
  rw [nary_result]; congr 1; funext k; fin_cases k <;> rfl

/-- The same, with the result reference left out of the index, for use as a rewrite rule of the simplifier. -/
theorem nary6_result'
    (f : ((k : Fin 6) → ((![x0, x1, x2, x3, x4, x5] : Fin 6 → Ref sig' .tc) k).ty.Contents Val) → y.ty.Contents Val) (hxs hy)
    (V : Valuation τ' sig' Val) :
    (nary (τ := τ') ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) :=
  nary6_result f hxs hy V

end Nary6

/-- The program's 92 operations, in order. -/
abbrev ops : List (HloOp τ sig (Elt F)) :=
  [ StableHlo.nullary main_c (fun i => lit0 (S4.rowMajor i)),
    StableHlo.nullary main_c_0 (fun i => lit1 (S2.rowMajor i)),
    StableHlo.unary main_arg0 main_v0 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg1 main_v1 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg2 main_v2 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg1 main_v3 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg0 main_v4 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg1 main_v5 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.nary ![main_v0, main_v1, main_v2, main_v3, main_v4, main_v5] main_v6 (fun u => concatenate S6x2000000x5 0 [⟨S1x2000000x5, u 0⟩, ⟨S1x2000000x5, u 1⟩, ⟨S1x2000000x5, u 2⟩, ⟨S1x2000000x5, u 3⟩, ⟨S1x2000000x5, u 4⟩, ⟨S1x2000000x5, u 5⟩] concatenates_S1x2000000x5_S1x2000000x5_S1x2000000x5_S1x2000000x5_S1x2000000x5_S1x2000000x5_S6x2000000x5_d0),
    StableHlo.binary main_v6 main_arg4 main_v7 ((fun l r => Host.dotGeneral dot_S6x2000000x5_S6x4x5_S6x2000000x4_2_2_1_1_0_0 none l r) : (⟨S6x2000000x5, .f32⟩ : BufTy).Contents (Elt F) → (⟨S6x4x5, .f32⟩ : BufTy).Contents (Elt F) → (⟨S6x2000000x4, .f32⟩ : BufTy).Contents (Elt F)),
    StableHlo.unary main_arg5 main_v8 (broadcastInDim S6x1x4 ![0, 2] bcast_S6x4_S6x1x4_0_2 : (⟨S6x4, .f32⟩ : BufTy).Contents (Elt F) → (⟨S6x1x4, .f32⟩ : BufTy).Contents (Elt F)),
    StableHlo.unary main_v8 main_v9 (broadcastInDim S6x2000000x4 ![0, 1, 2] bcast_S6x1x4_S6x2000000x4_0_1_2 : (⟨S6x1x4, .f32⟩ : BufTy).Contents (Elt F) → (⟨S6x2000000x4, .f32⟩ : BufTy).Contents (Elt F)),
    StableHlo.binary main_v7 main_v9 main_v10 (addf : (⟨S6x2000000x4, .f32⟩ : BufTy).Contents (Elt F) → (⟨S6x2000000x4, .f32⟩ : BufTy).Contents (Elt F) → (⟨S6x2000000x4, .f32⟩ : BufTy).Contents (Elt F)),
    StableHlo.unary main_v10 main_v11 (Host.negf : (⟨S6x2000000x4, .f32⟩ : BufTy).Contents (Elt F) → (⟨S6x2000000x4, .f32⟩ : BufTy).Contents (Elt F)),
    StableHlo.unary main_v11 main_v12 (Host.exp : (⟨S6x2000000x4, .f32⟩ : BufTy).Contents (Elt F) → (⟨S6x2000000x4, .f32⟩ : BufTy).Contents (Elt F)),
    StableHlo.nullary main_cst (constant S_ .f32 0x3F800000#32),
    StableHlo.unary main_cst main_v13 (broadcastInDim S6x2000000x4 ![] bcast_S_S6x2000000x4 : (⟨S_, .f32⟩ : BufTy).Contents (Elt F) → (⟨S6x2000000x4, .f32⟩ : BufTy).Contents (Elt F)),
    StableHlo.binary main_v13 main_v12 main_v14 (addf : (⟨S6x2000000x4, .f32⟩ : BufTy).Contents (Elt F) → (⟨S6x2000000x4, .f32⟩ : BufTy).Contents (Elt F) → (⟨S6x2000000x4, .f32⟩ : BufTy).Contents (Elt F)),
    StableHlo.nullary main_cst_1 (constant S_ .f32 0x3F800000#32),
    StableHlo.unary main_cst_1 main_v15 (broadcastInDim S6x2000000x4 ![] bcast_S_S6x2000000x4 : (⟨S_, .f32⟩ : BufTy).Contents (Elt F) → (⟨S6x2000000x4, .f32⟩ : BufTy).Contents (Elt F)),
    StableHlo.binary main_v15 main_v14 main_v16 (Host.divf : (⟨S6x2000000x4, .f32⟩ : BufTy).Contents (Elt F) → (⟨S6x2000000x4, .f32⟩ : BufTy).Contents (Elt F) → (⟨S6x2000000x4, .f32⟩ : BufTy).Contents (Elt F)),
    StableHlo.binary main_v16 main_arg6 main_v17 ((fun l r => Host.dotGeneral dot_S6x2000000x4_S6x4x4_S6x2000000x4_2_2_1_1_0_0 none l r) : (⟨S6x2000000x4, .f32⟩ : BufTy).Contents (Elt F) → (⟨S6x4x4, .f32⟩ : BufTy).Contents (Elt F) → (⟨S6x2000000x4, .f32⟩ : BufTy).Contents (Elt F)),
    StableHlo.unary main_arg7 main_v18 (broadcastInDim S6x1x4 ![0, 2] bcast_S6x4_S6x1x4_0_2 : (⟨S6x4, .f32⟩ : BufTy).Contents (Elt F) → (⟨S6x1x4, .f32⟩ : BufTy).Contents (Elt F)),
    StableHlo.unary main_v18 main_v19 (broadcastInDim S6x2000000x4 ![0, 1, 2] bcast_S6x1x4_S6x2000000x4_0_1_2 : (⟨S6x1x4, .f32⟩ : BufTy).Contents (Elt F) → (⟨S6x2000000x4, .f32⟩ : BufTy).Contents (Elt F)),
    StableHlo.binary main_v17 main_v19 main_v20 (addf : (⟨S6x2000000x4, .f32⟩ : BufTy).Contents (Elt F) → (⟨S6x2000000x4, .f32⟩ : BufTy).Contents (Elt F) → (⟨S6x2000000x4, .f32⟩ : BufTy).Contents (Elt F)),
    StableHlo.unary main_v20 main_v21 (Host.negf : (⟨S6x2000000x4, .f32⟩ : BufTy).Contents (Elt F) → (⟨S6x2000000x4, .f32⟩ : BufTy).Contents (Elt F)),
    StableHlo.unary main_v21 main_v22 (Host.exp : (⟨S6x2000000x4, .f32⟩ : BufTy).Contents (Elt F) → (⟨S6x2000000x4, .f32⟩ : BufTy).Contents (Elt F)),
    StableHlo.nullary main_cst_2 (constant S_ .f32 0x3F800000#32),
    StableHlo.unary main_cst_2 main_v23 (broadcastInDim S6x2000000x4 ![] bcast_S_S6x2000000x4 : (⟨S_, .f32⟩ : BufTy).Contents (Elt F) → (⟨S6x2000000x4, .f32⟩ : BufTy).Contents (Elt F)),
    StableHlo.binary main_v23 main_v22 main_v24 (addf : (⟨S6x2000000x4, .f32⟩ : BufTy).Contents (Elt F) → (⟨S6x2000000x4, .f32⟩ : BufTy).Contents (Elt F) → (⟨S6x2000000x4, .f32⟩ : BufTy).Contents (Elt F)),
    StableHlo.nullary main_cst_3 (constant S_ .f32 0x3F800000#32),
    StableHlo.unary main_cst_3 main_v25 (broadcastInDim S6x2000000x4 ![] bcast_S_S6x2000000x4 : (⟨S_, .f32⟩ : BufTy).Contents (Elt F) → (⟨S6x2000000x4, .f32⟩ : BufTy).Contents (Elt F)),
    StableHlo.binary main_v25 main_v24 main_v26 (Host.divf : (⟨S6x2000000x4, .f32⟩ : BufTy).Contents (Elt F) → (⟨S6x2000000x4, .f32⟩ : BufTy).Contents (Elt F) → (⟨S6x2000000x4, .f32⟩ : BufTy).Contents (Elt F)),
    StableHlo.nullary main_c_4 (constantI S_ 32 0#32),
    StableHlo.unary main_c_4 main_v27 (broadcastInDim S4 ![] bcast_S_S4 : (⟨S_, .i32⟩ : BufTy).Contents (Elt F) → (⟨S4, .i32⟩ : BufTy).Contents (Elt F)),
    StableHlo.binary main_c main_v27 main_v28 (cmpi .slt : (⟨S4, .i32⟩ : BufTy).Contents (Elt F) → (⟨S4, .i32⟩ : BufTy).Contents (Elt F) → (⟨S4, .i1⟩ : BufTy).Contents (Elt F)),
    StableHlo.nullary main_c_5 (constantI S_ 32 6#32),
    StableHlo.unary main_c_5 main_v29 (broadcastInDim S4 ![] bcast_S_S4 : (⟨S_, .i32⟩ : BufTy).Contents (Elt F) → (⟨S4, .i32⟩ : BufTy).Contents (Elt F)),
    StableHlo.binary main_c main_v29 main_v30 (addi : (⟨S4, .i32⟩ : BufTy).Contents (Elt F) → (⟨S4, .i32⟩ : BufTy).Contents (Elt F) → (⟨S4, .i32⟩ : BufTy).Contents (Elt F)),
    StableHlo.ternary main_v28 main_v30 main_c main_v31 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v31 main_v32 (broadcastInDim S4x1 ![0] bcast_S4_S4x1_0 : (⟨S4, .i32⟩ : BufTy).Contents (Elt F) → (⟨S4x1, .i32⟩ : BufTy).Contents (Elt F)),
    StableHlo.binary main_v26 main_v32 main_v33 ((fun x i => Host.gather gather_S6x2000000x4_S4x1_S4x2000000x4_12_0_n_n_0_1_120000004 x i) : (⟨S6x2000000x4, .f32⟩ : BufTy).Contents (Elt F) → (⟨S4x1, .i32⟩ : BufTy).Contents (Elt F) → (⟨S4x2000000x4, .f32⟩ : BufTy).Contents (Elt F)),
    StableHlo.binary main_v33 main_arg8 main_v34 ((fun l r => Host.dotGeneral dot_S4x2000000x4_S4x2x4_S4x2000000x2_2_2_1_1_0_0 none l r) : (⟨S4x2000000x4, .f32⟩ : BufTy).Contents (Elt F) → (⟨S4x2x4, .f32⟩ : BufTy).Contents (Elt F) → (⟨S4x2000000x2, .f32⟩ : BufTy).Contents (Elt F)),
    StableHlo.unary main_arg9 main_v35 (broadcastInDim S4x1x2 ![0, 2] bcast_S4x2_S4x1x2_0_2 : (⟨S4x2, .f32⟩ : BufTy).Contents (Elt F) → (⟨S4x1x2, .f32⟩ : BufTy).Contents (Elt F)),
    StableHlo.unary main_v35 main_v36 (broadcastInDim S4x2000000x2 ![0, 1, 2] bcast_S4x1x2_S4x2000000x2_0_1_2 : (⟨S4x1x2, .f32⟩ : BufTy).Contents (Elt F) → (⟨S4x2000000x2, .f32⟩ : BufTy).Contents (Elt F)),
    StableHlo.binary main_v34 main_v36 main_v37 (addf : (⟨S4x2000000x2, .f32⟩ : BufTy).Contents (Elt F) → (⟨S4x2000000x2, .f32⟩ : BufTy).Contents (Elt F) → (⟨S4x2000000x2, .f32⟩ : BufTy).Contents (Elt F)),
    StableHlo.nullary main_c_6 (constantI S_ 32 0#32),
    StableHlo.unary main_c_6 main_v38 (broadcastInDim S2 ![] bcast_S_S2 : (⟨S_, .i32⟩ : BufTy).Contents (Elt F) → (⟨S2, .i32⟩ : BufTy).Contents (Elt F)),
    StableHlo.binary main_c_0 main_v38 main_v39 (cmpi .slt : (⟨S2, .i32⟩ : BufTy).Contents (Elt F) → (⟨S2, .i32⟩ : BufTy).Contents (Elt F) → (⟨S2, .i1⟩ : BufTy).Contents (Elt F)),
    StableHlo.nullary main_c_7 (constantI S_ 32 6#32),
    StableHlo.unary main_c_7 main_v40 (broadcastInDim S2 ![] bcast_S_S2 : (⟨S_, .i32⟩ : BufTy).Contents (Elt F) → (⟨S2, .i32⟩ : BufTy).Contents (Elt F)),
    StableHlo.binary main_c_0 main_v40 main_v41 (addi : (⟨S2, .i32⟩ : BufTy).Contents (Elt F) → (⟨S2, .i32⟩ : BufTy).Contents (Elt F) → (⟨S2, .i32⟩ : BufTy).Contents (Elt F)),
    StableHlo.ternary main_v39 main_v41 main_c_0 main_v42 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v42 main_v43 (broadcastInDim S2x1 ![0] bcast_S2_S2x1_0 : (⟨S2, .i32⟩ : BufTy).Contents (Elt F) → (⟨S2x1, .i32⟩ : BufTy).Contents (Elt F)),
    StableHlo.binary main_v26 main_v43 main_v44 ((fun x i => Host.gather gather_S6x2000000x4_S2x1_S2x2000000x4_12_0_n_n_0_1_120000004 x i) : (⟨S6x2000000x4, .f32⟩ : BufTy).Contents (Elt F) → (⟨S2x1, .i32⟩ : BufTy).Contents (Elt F) → (⟨S2x2000000x4, .f32⟩ : BufTy).Contents (Elt F)),
    StableHlo.binary main_v44 main_arg10 main_v45 ((fun l r => Host.dotGeneral dot_S2x2000000x4_S2x1x4_S2x2000000x1_2_2_1_1_0_0 none l r) : (⟨S2x2000000x4, .f32⟩ : BufTy).Contents (Elt F) → (⟨S2x1x4, .f32⟩ : BufTy).Contents (Elt F) → (⟨S2x2000000x1, .f32⟩ : BufTy).Contents (Elt F)),
    StableHlo.unary main_arg11 main_v46 (broadcastInDim S2x1x1 ![0, 2] bcast_S2x1_S2x1x1_0_2 : (⟨S2x1, .f32⟩ : BufTy).Contents (Elt F) → (⟨S2x1x1, .f32⟩ : BufTy).Contents (Elt F)),
    StableHlo.unary main_v46 main_v47 (broadcastInDim S2x2000000x1 ![0, 1, 2] bcast_S2x1x1_S2x2000000x1_0_1_2 : (⟨S2x1x1, .f32⟩ : BufTy).Contents (Elt F) → (⟨S2x2000000x1, .f32⟩ : BufTy).Contents (Elt F)),
    StableHlo.binary main_v45 main_v47 main_v48 (addf : (⟨S2x2000000x1, .f32⟩ : BufTy).Contents (Elt F) → (⟨S2x2000000x1, .f32⟩ : BufTy).Contents (Elt F) → (⟨S2x2000000x1, .f32⟩ : BufTy).Contents (Elt F)),
    StableHlo.unary main_v37 main_v49 ((extractStridedSlice S1x2000000x2 ![0, 0, 0] · slices_S4x2000000x2_S1x2000000x2_0_0_0) : (⟨S4x2000000x2, .f32⟩ : BufTy).Contents (Elt F) → (⟨S1x2000000x2, .f32⟩ : BufTy).Contents (Elt F)),
    StableHlo.reshape main_v49 main_v50 rfl shapeCasts_S1x2000000x2_S2000000x2,
    StableHlo.unary main_v37 main_v51 ((extractStridedSlice S1x2000000x2 ![2, 0, 0] · slices_S4x2000000x2_S1x2000000x2_2_0_0) : (⟨S4x2000000x2, .f32⟩ : BufTy).Contents (Elt F) → (⟨S1x2000000x2, .f32⟩ : BufTy).Contents (Elt F)),
    StableHlo.reshape main_v51 main_v52 rfl shapeCasts_S1x2000000x2_S2000000x2,
    StableHlo.binary main_v50 main_v52 main_v53 ((fun a b => concatenate S2000000x4 1 [⟨S2000000x2, a⟩, ⟨S2000000x2, b⟩] concatenates_S2000000x2_S2000000x2_S2000000x4_d1) : (⟨S2000000x2, .f32⟩ : BufTy).Contents (Elt F) → (⟨S2000000x2, .f32⟩ : BufTy).Contents (Elt F) → (⟨S2000000x4, .f32⟩ : BufTy).Contents (Elt F)),
    StableHlo.unary main_v37 main_v54 ((extractStridedSlice S1x2000000x2 ![1, 0, 0] · slices_S4x2000000x2_S1x2000000x2_1_0_0) : (⟨S4x2000000x2, .f32⟩ : BufTy).Contents (Elt F) → (⟨S1x2000000x2, .f32⟩ : BufTy).Contents (Elt F)),
    StableHlo.reshape main_v54 main_v55 rfl shapeCasts_S1x2000000x2_S2000000x2,
    StableHlo.unary main_v37 main_v56 ((extractStridedSlice S1x2000000x2 ![3, 0, 0] · slices_S4x2000000x2_S1x2000000x2_3_0_0) : (⟨S4x2000000x2, .f32⟩ : BufTy).Contents (Elt F) → (⟨S1x2000000x2, .f32⟩ : BufTy).Contents (Elt F)),
    StableHlo.reshape main_v56 main_v57 rfl shapeCasts_S1x2000000x2_S2000000x2,
    StableHlo.binary main_v55 main_v57 main_v58 ((fun a b => concatenate S2000000x4 1 [⟨S2000000x2, a⟩, ⟨S2000000x2, b⟩] concatenates_S2000000x2_S2000000x2_S2000000x4_d1) : (⟨S2000000x2, .f32⟩ : BufTy).Contents (Elt F) → (⟨S2000000x2, .f32⟩ : BufTy).Contents (Elt F) → (⟨S2000000x4, .f32⟩ : BufTy).Contents (Elt F)),
    StableHlo.unary main_arg12 main_v59 ((extractStridedSlice S1x1x4 ![0, 0, 0] · slices_S2x1x4_S1x1x4_0_0_0) : (⟨S2x1x4, .f32⟩ : BufTy).Contents (Elt F) → (⟨S1x1x4, .f32⟩ : BufTy).Contents (Elt F)),
    StableHlo.reshape main_v59 main_v60 rfl shapeCasts_S1x1x4_S1x4,
    StableHlo.unary main_v60 main_v61 ((transpose S4x1 [1, 0] · transposes_S1x4_S4x1_1_0) : (⟨S1x4, .f32⟩ : BufTy).Contents (Elt F) → (⟨S4x1, .f32⟩ : BufTy).Contents (Elt F)),
    StableHlo.binary main_v53 main_v61 main_v62 ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)),
    StableHlo.unary main_arg13 main_v63 ((extractStridedSlice S1x1 ![0, 0] · slices_S2x1_S1x1_0_0) : (⟨S2x1, .f32⟩ : BufTy).Contents (Elt F) → (⟨S1x1, .f32⟩ : BufTy).Contents (Elt F)),
    StableHlo.reshape main_v63 main_v64 rfl shapeCasts_S1x1_S1,
    StableHlo.unary main_v64 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S2000000x1 ![0, 1] bcast_S1x1_S2000000x1_0_1 : (⟨S1x1, .f32⟩ : BufTy).Contents (Elt F) → (⟨S2000000x1, .f32⟩ : BufTy).Contents (Elt F)),
    StableHlo.binary main_v62 main_v66 main_v67 (addf : (⟨S2000000x1, .f32⟩ : BufTy).Contents (Elt F) → (⟨S2000000x1, .f32⟩ : BufTy).Contents (Elt F) → (⟨S2000000x1, .f32⟩ : BufTy).Contents (Elt F)),
    StableHlo.unary main_arg12 main_v68 ((extractStridedSlice S1x1x4 ![1, 0, 0] · slices_S2x1x4_S1x1x4_1_0_0) : (⟨S2x1x4, .f32⟩ : BufTy).Contents (Elt F) → (⟨S1x1x4, .f32⟩ : BufTy).Contents (Elt F)),
    StableHlo.reshape main_v68 main_v69 rfl shapeCasts_S1x1x4_S1x4,
    StableHlo.unary main_v69 main_v70 ((transpose S4x1 [1, 0] · transposes_S1x4_S4x1_1_0) : (⟨S1x4, .f32⟩ : BufTy).Contents (Elt F) → (⟨S4x1, .f32⟩ : BufTy).Contents (Elt F)),
    StableHlo.binary main_v58 main_v70 main_v71 ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)),
    StableHlo.unary main_arg13 main_v72 ((extractStridedSlice S1x1 ![1, 0] · slices_S2x1_S1x1_1_0) : (⟨S2x1, .f32⟩ : BufTy).Contents (Elt F) → (⟨S1x1, .f32⟩ : BufTy).Contents (Elt F)),
    StableHlo.reshape main_v72 main_v73 rfl shapeCasts_S1x1_S1,
    StableHlo.unary main_v73 main_v74 (broadcastInDim S1x1 ![1] bcast_S1_S1x1_1 : (⟨S1, .f32⟩ : BufTy).Contents (Elt F) → (⟨S1x1, .f32⟩ : BufTy).Contents (Elt F)),
    StableHlo.unary main_v74 main_v75 (broadcastInDim S2000000x1 ![0, 1] bcast_S1x1_S2000000x1_0_1 : (⟨S1x1, .f32⟩ : BufTy).Contents (Elt F) → (⟨S2000000x1, .f32⟩ : BufTy).Contents (Elt F)),
    StableHlo.binary main_v71 main_v75 main_v76 (addf : (⟨S2000000x1, .f32⟩ : BufTy).Contents (Elt F) → (⟨S2000000x1, .f32⟩ : BufTy).Contents (Elt F) → (⟨S2000000x1, .f32⟩ : BufTy).Contents (Elt F)),
    StableHlo.unary main_v48 main_v77 ((extractStridedSlice S1x2000000x1 ![0, 0, 0] · slices_S2x2000000x1_S1x2000000x1_0_0_0) : (⟨S2x2000000x1, .f32⟩ : BufTy).Contents (Elt F) → (⟨S1x2000000x1, .f32⟩ : BufTy).Contents (Elt F)),
    StableHlo.reshape main_v77 main_v78 rfl shapeCasts_S1x2000000x1_S2000000x1,
    StableHlo.unary main_v48 main_v79 ((extractStridedSlice S1x2000000x1 ![1, 0, 0] · slices_S2x2000000x1_S1x2000000x1_1_0_0) : (⟨S2x2000000x1, .f32⟩ : BufTy).Contents (Elt F) → (⟨S1x2000000x1, .f32⟩ : BufTy).Contents (Elt F)),
    StableHlo.reshape main_v79 main_v80 rfl shapeCasts_S1x2000000x1_S2000000x1,
    StableHlo.nary ![main_v78, main_v80, main_v67, main_v76] main_v81 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1) ]

set_option maxHeartbeats 4000000 in
/-- The program is the line of its operations. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches tensor values of the device only. -/
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub .., unary_bufs_sub .., unary_bufs_sub .., nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nary_bufs_sub ..⟩

/-- The first 59 operations: the stacked inputs, the two hidden layers, the selections, the two- and one-wide heads. -/
abbrev opsA : List (HloOp τ sig (Elt F)) :=
  [ StableHlo.nullary main_c (fun i => lit0 (S4.rowMajor i)),
    StableHlo.nullary main_c_0 (fun i => lit1 (S2.rowMajor i)),
    StableHlo.unary main_arg0 main_v0 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg1 main_v1 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg2 main_v2 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg1 main_v3 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg0 main_v4 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.unary main_arg1 main_v5 (broadcastInDim S1x2000000x5 ![1, 2] bcast_S2000000x5_S1x2000000x5_1_2 : (⟨S2000000x5, .f32⟩ : BufTy).Contents (Elt F) → (⟨S1x2000000x5, .f32⟩ : BufTy).Contents (Elt F)),
    StableHlo.nary ![main_v0, main_v1, main_v2, main_v3, main_v4, main_v5] main_v6 (fun u => concatenate S6x2000000x5 0 [⟨S1x2000000x5, u 0⟩, ⟨S1x2000000x5, u 1⟩, ⟨S1x2000000x5, u 2⟩, ⟨S1x2000000x5, u 3⟩, ⟨S1x2000000x5, u 4⟩, ⟨S1x2000000x5, u 5⟩] concatenates_S1x2000000x5_S1x2000000x5_S1x2000000x5_S1x2000000x5_S1x2000000x5_S1x2000000x5_S6x2000000x5_d0),
    StableHlo.binary main_v6 main_arg4 main_v7 ((fun l r => Host.dotGeneral dot_S6x2000000x5_S6x4x5_S6x2000000x4_2_2_1_1_0_0 none l r) : (⟨S6x2000000x5, .f32⟩ : BufTy).Contents (Elt F) → (⟨S6x4x5, .f32⟩ : BufTy).Contents (Elt F) → (⟨S6x2000000x4, .f32⟩ : BufTy).Contents (Elt F)),
    StableHlo.unary main_arg5 main_v8 (broadcastInDim S6x1x4 ![0, 2] bcast_S6x4_S6x1x4_0_2 : (⟨S6x4, .f32⟩ : BufTy).Contents (Elt F) → (⟨S6x1x4, .f32⟩ : BufTy).Contents (Elt F)),
    StableHlo.unary main_v8 main_v9 (broadcastInDim S6x2000000x4 ![0, 1, 2] bcast_S6x1x4_S6x2000000x4_0_1_2 : (⟨S6x1x4, .f32⟩ : BufTy).Contents (Elt F) → (⟨S6x2000000x4, .f32⟩ : BufTy).Contents (Elt F)),
    StableHlo.binary main_v7 main_v9 main_v10 (addf : (⟨S6x2000000x4, .f32⟩ : BufTy).Contents (Elt F) → (⟨S6x2000000x4, .f32⟩ : BufTy).Contents (Elt F) → (⟨S6x2000000x4, .f32⟩ : BufTy).Contents (Elt F)),
    StableHlo.unary main_v10 main_v11 (Host.negf : (⟨S6x2000000x4, .f32⟩ : BufTy).Contents (Elt F) → (⟨S6x2000000x4, .f32⟩ : BufTy).Contents (Elt F)),
    StableHlo.unary main_v11 main_v12 (Host.exp : (⟨S6x2000000x4, .f32⟩ : BufTy).Contents (Elt F) → (⟨S6x2000000x4, .f32⟩ : BufTy).Contents (Elt F)),
    StableHlo.nullary main_cst (constant S_ .f32 0x3F800000#32),
    StableHlo.unary main_cst main_v13 (broadcastInDim S6x2000000x4 ![] bcast_S_S6x2000000x4 : (⟨S_, .f32⟩ : BufTy).Contents (Elt F) → (⟨S6x2000000x4, .f32⟩ : BufTy).Contents (Elt F)),
    StableHlo.binary main_v13 main_v12 main_v14 (addf : (⟨S6x2000000x4, .f32⟩ : BufTy).Contents (Elt F) → (⟨S6x2000000x4, .f32⟩ : BufTy).Contents (Elt F) → (⟨S6x2000000x4, .f32⟩ : BufTy).Contents (Elt F)),
    StableHlo.nullary main_cst_1 (constant S_ .f32 0x3F800000#32),
    StableHlo.unary main_cst_1 main_v15 (broadcastInDim S6x2000000x4 ![] bcast_S_S6x2000000x4 : (⟨S_, .f32⟩ : BufTy).Contents (Elt F) → (⟨S6x2000000x4, .f32⟩ : BufTy).Contents (Elt F)),
    StableHlo.binary main_v15 main_v14 main_v16 (Host.divf : (⟨S6x2000000x4, .f32⟩ : BufTy).Contents (Elt F) → (⟨S6x2000000x4, .f32⟩ : BufTy).Contents (Elt F) → (⟨S6x2000000x4, .f32⟩ : BufTy).Contents (Elt F)),
    StableHlo.binary main_v16 main_arg6 main_v17 ((fun l r => Host.dotGeneral dot_S6x2000000x4_S6x4x4_S6x2000000x4_2_2_1_1_0_0 none l r) : (⟨S6x2000000x4, .f32⟩ : BufTy).Contents (Elt F) → (⟨S6x4x4, .f32⟩ : BufTy).Contents (Elt F) → (⟨S6x2000000x4, .f32⟩ : BufTy).Contents (Elt F)),
    StableHlo.unary main_arg7 main_v18 (broadcastInDim S6x1x4 ![0, 2] bcast_S6x4_S6x1x4_0_2 : (⟨S6x4, .f32⟩ : BufTy).Contents (Elt F) → (⟨S6x1x4, .f32⟩ : BufTy).Contents (Elt F)),
    StableHlo.unary main_v18 main_v19 (broadcastInDim S6x2000000x4 ![0, 1, 2] bcast_S6x1x4_S6x2000000x4_0_1_2 : (⟨S6x1x4, .f32⟩ : BufTy).Contents (Elt F) → (⟨S6x2000000x4, .f32⟩ : BufTy).Contents (Elt F)),
    StableHlo.binary main_v17 main_v19 main_v20 (addf : (⟨S6x2000000x4, .f32⟩ : BufTy).Contents (Elt F) → (⟨S6x2000000x4, .f32⟩ : BufTy).Contents (Elt F) → (⟨S6x2000000x4, .f32⟩ : BufTy).Contents (Elt F)),
    StableHlo.unary main_v20 main_v21 (Host.negf : (⟨S6x2000000x4, .f32⟩ : BufTy).Contents (Elt F) → (⟨S6x2000000x4, .f32⟩ : BufTy).Contents (Elt F)),
    StableHlo.unary main_v21 main_v22 (Host.exp : (⟨S6x2000000x4, .f32⟩ : BufTy).Contents (Elt F) → (⟨S6x2000000x4, .f32⟩ : BufTy).Contents (Elt F)),
    StableHlo.nullary main_cst_2 (constant S_ .f32 0x3F800000#32),
    StableHlo.unary main_cst_2 main_v23 (broadcastInDim S6x2000000x4 ![] bcast_S_S6x2000000x4 : (⟨S_, .f32⟩ : BufTy).Contents (Elt F) → (⟨S6x2000000x4, .f32⟩ : BufTy).Contents (Elt F)),
    StableHlo.binary main_v23 main_v22 main_v24 (addf : (⟨S6x2000000x4, .f32⟩ : BufTy).Contents (Elt F) → (⟨S6x2000000x4, .f32⟩ : BufTy).Contents (Elt F) → (⟨S6x2000000x4, .f32⟩ : BufTy).Contents (Elt F)),
    StableHlo.nullary main_cst_3 (constant S_ .f32 0x3F800000#32),
    StableHlo.unary main_cst_3 main_v25 (broadcastInDim S6x2000000x4 ![] bcast_S_S6x2000000x4 : (⟨S_, .f32⟩ : BufTy).Contents (Elt F) → (⟨S6x2000000x4, .f32⟩ : BufTy).Contents (Elt F)),
    StableHlo.binary main_v25 main_v24 main_v26 (Host.divf : (⟨S6x2000000x4, .f32⟩ : BufTy).Contents (Elt F) → (⟨S6x2000000x4, .f32⟩ : BufTy).Contents (Elt F) → (⟨S6x2000000x4, .f32⟩ : BufTy).Contents (Elt F)),
    StableHlo.nullary main_c_4 (constantI S_ 32 0#32),
    StableHlo.unary main_c_4 main_v27 (broadcastInDim S4 ![] bcast_S_S4 : (⟨S_, .i32⟩ : BufTy).Contents (Elt F) → (⟨S4, .i32⟩ : BufTy).Contents (Elt F)),
    StableHlo.binary main_c main_v27 main_v28 (cmpi .slt : (⟨S4, .i32⟩ : BufTy).Contents (Elt F) → (⟨S4, .i32⟩ : BufTy).Contents (Elt F) → (⟨S4, .i1⟩ : BufTy).Contents (Elt F)),
    StableHlo.nullary main_c_5 (constantI S_ 32 6#32),
    StableHlo.unary main_c_5 main_v29 (broadcastInDim S4 ![] bcast_S_S4 : (⟨S_, .i32⟩ : BufTy).Contents (Elt F) → (⟨S4, .i32⟩ : BufTy).Contents (Elt F)),
    StableHlo.binary main_c main_v29 main_v30 (addi : (⟨S4, .i32⟩ : BufTy).Contents (Elt F) → (⟨S4, .i32⟩ : BufTy).Contents (Elt F) → (⟨S4, .i32⟩ : BufTy).Contents (Elt F)),
    StableHlo.ternary main_v28 main_v30 main_c main_v31 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v31 main_v32 (broadcastInDim S4x1 ![0] bcast_S4_S4x1_0 : (⟨S4, .i32⟩ : BufTy).Contents (Elt F) → (⟨S4x1, .i32⟩ : BufTy).Contents (Elt F)),
    StableHlo.binary main_v26 main_v32 main_v33 ((fun x i => Host.gather gather_S6x2000000x4_S4x1_S4x2000000x4_12_0_n_n_0_1_120000004 x i) : (⟨S6x2000000x4, .f32⟩ : BufTy).Contents (Elt F) → (⟨S4x1, .i32⟩ : BufTy).Contents (Elt F) → (⟨S4x2000000x4, .f32⟩ : BufTy).Contents (Elt F)),
    StableHlo.binary main_v33 main_arg8 main_v34 ((fun l r => Host.dotGeneral dot_S4x2000000x4_S4x2x4_S4x2000000x2_2_2_1_1_0_0 none l r) : (⟨S4x2000000x4, .f32⟩ : BufTy).Contents (Elt F) → (⟨S4x2x4, .f32⟩ : BufTy).Contents (Elt F) → (⟨S4x2000000x2, .f32⟩ : BufTy).Contents (Elt F)),
    StableHlo.unary main_arg9 main_v35 (broadcastInDim S4x1x2 ![0, 2] bcast_S4x2_S4x1x2_0_2 : (⟨S4x2, .f32⟩ : BufTy).Contents (Elt F) → (⟨S4x1x2, .f32⟩ : BufTy).Contents (Elt F)),
    StableHlo.unary main_v35 main_v36 (broadcastInDim S4x2000000x2 ![0, 1, 2] bcast_S4x1x2_S4x2000000x2_0_1_2 : (⟨S4x1x2, .f32⟩ : BufTy).Contents (Elt F) → (⟨S4x2000000x2, .f32⟩ : BufTy).Contents (Elt F)),
    StableHlo.binary main_v34 main_v36 main_v37 (addf : (⟨S4x2000000x2, .f32⟩ : BufTy).Contents (Elt F) → (⟨S4x2000000x2, .f32⟩ : BufTy).Contents (Elt F) → (⟨S4x2000000x2, .f32⟩ : BufTy).Contents (Elt F)),
    StableHlo.nullary main_c_6 (constantI S_ 32 0#32),
    StableHlo.unary main_c_6 main_v38 (broadcastInDim S2 ![] bcast_S_S2 : (⟨S_, .i32⟩ : BufTy).Contents (Elt F) → (⟨S2, .i32⟩ : BufTy).Contents (Elt F)),
    StableHlo.binary main_c_0 main_v38 main_v39 (cmpi .slt : (⟨S2, .i32⟩ : BufTy).Contents (Elt F) → (⟨S2, .i32⟩ : BufTy).Contents (Elt F) → (⟨S2, .i1⟩ : BufTy).Contents (Elt F)),
    StableHlo.nullary main_c_7 (constantI S_ 32 6#32),
    StableHlo.unary main_c_7 main_v40 (broadcastInDim S2 ![] bcast_S_S2 : (⟨S_, .i32⟩ : BufTy).Contents (Elt F) → (⟨S2, .i32⟩ : BufTy).Contents (Elt F)),
    StableHlo.binary main_c_0 main_v40 main_v41 (addi : (⟨S2, .i32⟩ : BufTy).Contents (Elt F) → (⟨S2, .i32⟩ : BufTy).Contents (Elt F) → (⟨S2, .i32⟩ : BufTy).Contents (Elt F)),
    StableHlo.ternary main_v39 main_v41 main_c_0 main_v42 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v42 main_v43 (broadcastInDim S2x1 ![0] bcast_S2_S2x1_0 : (⟨S2, .i32⟩ : BufTy).Contents (Elt F) → (⟨S2x1, .i32⟩ : BufTy).Contents (Elt F)),
    StableHlo.binary main_v26 main_v43 main_v44 ((fun x i => Host.gather gather_S6x2000000x4_S2x1_S2x2000000x4_12_0_n_n_0_1_120000004 x i) : (⟨S6x2000000x4, .f32⟩ : BufTy).Contents (Elt F) → (⟨S2x1, .i32⟩ : BufTy).Contents (Elt F) → (⟨S2x2000000x4, .f32⟩ : BufTy).Contents (Elt F)),
    StableHlo.binary main_v44 main_arg10 main_v45 ((fun l r => Host.dotGeneral dot_S2x2000000x4_S2x1x4_S2x2000000x1_2_2_1_1_0_0 none l r) : (⟨S2x2000000x4, .f32⟩ : BufTy).Contents (Elt F) → (⟨S2x1x4, .f32⟩ : BufTy).Contents (Elt F) → (⟨S2x2000000x1, .f32⟩ : BufTy).Contents (Elt F)),
    StableHlo.unary main_arg11 main_v46 (broadcastInDim S2x1x1 ![0, 2] bcast_S2x1_S2x1x1_0_2 : (⟨S2x1, .f32⟩ : BufTy).Contents (Elt F) → (⟨S2x1x1, .f32⟩ : BufTy).Contents (Elt F)),
    StableHlo.unary main_v46 main_v47 (broadcastInDim S2x2000000x1 ![0, 1, 2] bcast_S2x1x1_S2x2000000x1_0_1_2 : (⟨S2x1x1, .f32⟩ : BufTy).Contents (Elt F) → (⟨S2x2000000x1, .f32⟩ : BufTy).Contents (Elt F)),
    StableHlo.binary main_v45 main_v47 main_v48 (addf : (⟨S2x2000000x1, .f32⟩ : BufTy).Contents (Elt F) → (⟨S2x2000000x1, .f32⟩ : BufTy).Contents (Elt F) → (⟨S2x2000000x1, .f32⟩ : BufTy).Contents (Elt F)) ]

/-- The last 33 operations: the pairs of two-wide heads, the last heads, the four columns. -/
abbrev opsB : List (HloOp τ sig (Elt F)) :=
  [ StableHlo.unary main_v37 main_v49 ((extractStridedSlice S1x2000000x2 ![0, 0, 0] · slices_S4x2000000x2_S1x2000000x2_0_0_0) : (⟨S4x2000000x2, .f32⟩ : BufTy).Contents (Elt F) → (⟨S1x2000000x2, .f32⟩ : BufTy).Contents (Elt F)),
    StableHlo.reshape main_v49 main_v50 rfl shapeCasts_S1x2000000x2_S2000000x2,
    StableHlo.unary main_v37 main_v51 ((extractStridedSlice S1x2000000x2 ![2, 0, 0] · slices_S4x2000000x2_S1x2000000x2_2_0_0) : (⟨S4x2000000x2, .f32⟩ : BufTy).Contents (Elt F) → (⟨S1x2000000x2, .f32⟩ : BufTy).Contents (Elt F)),
    StableHlo.reshape main_v51 main_v52 rfl shapeCasts_S1x2000000x2_S2000000x2,
    StableHlo.binary main_v50 main_v52 main_v53 ((fun a b => concatenate S2000000x4 1 [⟨S2000000x2, a⟩, ⟨S2000000x2, b⟩] concatenates_S2000000x2_S2000000x2_S2000000x4_d1) : (⟨S2000000x2, .f32⟩ : BufTy).Contents (Elt F) → (⟨S2000000x2, .f32⟩ : BufTy).Contents (Elt F) → (⟨S2000000x4, .f32⟩ : BufTy).Contents (Elt F)),
    StableHlo.unary main_v37 main_v54 ((extractStridedSlice S1x2000000x2 ![1, 0, 0] · slices_S4x2000000x2_S1x2000000x2_1_0_0) : (⟨S4x2000000x2, .f32⟩ : BufTy).Contents (Elt F) → (⟨S1x2000000x2, .f32⟩ : BufTy).Contents (Elt F)),
    StableHlo.reshape main_v54 main_v55 rfl shapeCasts_S1x2000000x2_S2000000x2,
    StableHlo.unary main_v37 main_v56 ((extractStridedSlice S1x2000000x2 ![3, 0, 0] · slices_S4x2000000x2_S1x2000000x2_3_0_0) : (⟨S4x2000000x2, .f32⟩ : BufTy).Contents (Elt F) → (⟨S1x2000000x2, .f32⟩ : BufTy).Contents (Elt F)),
    StableHlo.reshape main_v56 main_v57 rfl shapeCasts_S1x2000000x2_S2000000x2,
    StableHlo.binary main_v55 main_v57 main_v58 ((fun a b => concatenate S2000000x4 1 [⟨S2000000x2, a⟩, ⟨S2000000x2, b⟩] concatenates_S2000000x2_S2000000x2_S2000000x4_d1) : (⟨S2000000x2, .f32⟩ : BufTy).Contents (Elt F) → (⟨S2000000x2, .f32⟩ : BufTy).Contents (Elt F) → (⟨S2000000x4, .f32⟩ : BufTy).Contents (Elt F)),
    StableHlo.unary main_arg12 main_v59 ((extractStridedSlice S1x1x4 ![0, 0, 0] · slices_S2x1x4_S1x1x4_0_0_0) : (⟨S2x1x4, .f32⟩ : BufTy).Contents (Elt F) → (⟨S1x1x4, .f32⟩ : BufTy).Contents (Elt F)),
    StableHlo.reshape main_v59 main_v60 rfl shapeCasts_S1x1x4_S1x4,
    StableHlo.unary main_v60 main_v61 ((transpose S4x1 [1, 0] · transposes_S1x4_S4x1_1_0) : (⟨S1x4, .f32⟩ : BufTy).Contents (Elt F) → (⟨S4x1, .f32⟩ : BufTy).Contents (Elt F)),
    StableHlo.binary main_v53 main_v61 main_v62 ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)),
    StableHlo.unary main_arg13 main_v63 ((extractStridedSlice S1x1 ![0, 0] · slices_S2x1_S1x1_0_0) : (⟨S2x1, .f32⟩ : BufTy).Contents (Elt F) → (⟨S1x1, .f32⟩ : BufTy).Contents (Elt F)),
    StableHlo.reshape main_v63 main_v64 rfl shapeCasts_S1x1_S1,
    StableHlo.unary main_v64 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S2000000x1 ![0, 1] bcast_S1x1_S2000000x1_0_1 : (⟨S1x1, .f32⟩ : BufTy).Contents (Elt F) → (⟨S2000000x1, .f32⟩ : BufTy).Contents (Elt F)),
    StableHlo.binary main_v62 main_v66 main_v67 (addf : (⟨S2000000x1, .f32⟩ : BufTy).Contents (Elt F) → (⟨S2000000x1, .f32⟩ : BufTy).Contents (Elt F) → (⟨S2000000x1, .f32⟩ : BufTy).Contents (Elt F)),
    StableHlo.unary main_arg12 main_v68 ((extractStridedSlice S1x1x4 ![1, 0, 0] · slices_S2x1x4_S1x1x4_1_0_0) : (⟨S2x1x4, .f32⟩ : BufTy).Contents (Elt F) → (⟨S1x1x4, .f32⟩ : BufTy).Contents (Elt F)),
    StableHlo.reshape main_v68 main_v69 rfl shapeCasts_S1x1x4_S1x4,
    StableHlo.unary main_v69 main_v70 ((transpose S4x1 [1, 0] · transposes_S1x4_S4x1_1_0) : (⟨S1x4, .f32⟩ : BufTy).Contents (Elt F) → (⟨S4x1, .f32⟩ : BufTy).Contents (Elt F)),
    StableHlo.binary main_v58 main_v70 main_v71 ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)),
    StableHlo.unary main_arg13 main_v72 ((extractStridedSlice S1x1 ![1, 0] · slices_S2x1_S1x1_1_0) : (⟨S2x1, .f32⟩ : BufTy).Contents (Elt F) → (⟨S1x1, .f32⟩ : BufTy).Contents (Elt F)),
    StableHlo.reshape main_v72 main_v73 rfl shapeCasts_S1x1_S1,
    StableHlo.unary main_v73 main_v74 (broadcastInDim S1x1 ![1] bcast_S1_S1x1_1 : (⟨S1, .f32⟩ : BufTy).Contents (Elt F) → (⟨S1x1, .f32⟩ : BufTy).Contents (Elt F)),
    StableHlo.unary main_v74 main_v75 (broadcastInDim S2000000x1 ![0, 1] bcast_S1x1_S2000000x1_0_1 : (⟨S1x1, .f32⟩ : BufTy).Contents (Elt F) → (⟨S2000000x1, .f32⟩ : BufTy).Contents (Elt F)),
    StableHlo.binary main_v71 main_v75 main_v76 (addf : (⟨S2000000x1, .f32⟩ : BufTy).Contents (Elt F) → (⟨S2000000x1, .f32⟩ : BufTy).Contents (Elt F) → (⟨S2000000x1, .f32⟩ : BufTy).Contents (Elt F)),
    StableHlo.unary main_v48 main_v77 ((extractStridedSlice S1x2000000x1 ![0, 0, 0] · slices_S2x2000000x1_S1x2000000x1_0_0_0) : (⟨S2x2000000x1, .f32⟩ : BufTy).Contents (Elt F) → (⟨S1x2000000x1, .f32⟩ : BufTy).Contents (Elt F)),
    StableHlo.reshape main_v77 main_v78 rfl shapeCasts_S1x2000000x1_S2000000x1,
    StableHlo.unary main_v48 main_v79 ((extractStridedSlice S1x2000000x1 ![1, 0, 0] · slices_S2x2000000x1_S1x2000000x1_1_0_0) : (⟨S2x2000000x1, .f32⟩ : BufTy).Contents (Elt F) → (⟨S1x2000000x1, .f32⟩ : BufTy).Contents (Elt F)),
    StableHlo.reshape main_v79 main_v80 rfl shapeCasts_S1x2000000x1_S2000000x1,
    StableHlo.nary ![main_v78, main_v80, main_v67, main_v76] main_v81 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1) ]

/-- The program's line is the first 59 operations followed by the last 33. -/
theorem ops_split : (ops : List (HloOp τ sig (Elt F))) = opsA ++ opsB := rfl

/-- The contents after two lines on end are the contents after the second line, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxHeartbeats 4000000 in
/-- After the first 59 operations the two-wide heads' buffer holds `heads2` of the trunk. -/
theorem pre_v37 (V : Valuation τ sig (Elt F)) :
    after opsA V (Proc.devRef .tc main_v37)
      = RefTerm.heads2 (RefTerm.hidden2 (RefTerm.hidden1 (RefTerm.stack (V (Proc.devRef .tc main_arg0)) (V (Proc.devRef .tc main_arg1)) (V (Proc.devRef .tc main_arg2))) (V (Proc.devRef .tc main_arg4)) (V (Proc.devRef .tc main_arg5))) (V (Proc.devRef .tc main_arg6)) (V (Proc.devRef .tc main_arg7))) (V (Proc.devRef .tc main_arg8)) (V (Proc.devRef .tc main_arg9)) := by
  unfold opsA
  simp (disch := decide) only [after_cons, after_nil, nullary_result', unary_result', binary_result', ternary_result', reshape_result', nary6_result', nary4_result', nullary_result_ne', unary_result_ne', binary_result_ne', ternary_result_ne', reshape_result_ne', nary_result_ne']
  rfl

set_option maxHeartbeats 4000000 in
/-- After the first 59 operations the one-wide heads' buffer holds `heads1` of the trunk. -/
theorem pre_v48 (V : Valuation τ sig (Elt F)) :
    after opsA V (Proc.devRef .tc main_v48)
      = RefTerm.heads1 (RefTerm.hidden2 (RefTerm.hidden1 (RefTerm.stack (V (Proc.devRef .tc main_arg0)) (V (Proc.devRef .tc main_arg1)) (V (Proc.devRef .tc main_arg2))) (V (Proc.devRef .tc main_arg4)) (V (Proc.devRef .tc main_arg5))) (V (Proc.devRef .tc main_arg6)) (V (Proc.devRef .tc main_arg7))) (V (Proc.devRef .tc main_arg10)) (V (Proc.devRef .tc main_arg11)) := by
  unfold opsA
  simp (disch := decide) only [after_cons, after_nil, nullary_result', unary_result', binary_result', ternary_result', reshape_result', nary6_result', nary4_result', nullary_result_ne', unary_result_ne', binary_result_ne', ternary_result_ne', reshape_result_ne', nary_result_ne']
  rfl

set_option maxHeartbeats 4000000 in
/-- The last 33 operations, from any contents W: the result buffer holds the columns of W's one-wide heads and of the
    last heads on W's two-wide heads. -/
theorem tail_v81 (W : Valuation τ sig (Elt F)) :
    after opsB W (Proc.devRef .tc main_v81)
      = RefTerm.columns (W (Proc.devRef .tc main_v48)) (RefTerm.lastA (RefTerm.pairA (W (Proc.devRef .tc main_v37))) (W (Proc.devRef .tc main_arg12)) (W (Proc.devRef .tc main_arg13)))
          (RefTerm.lastB (RefTerm.pairB (W (Proc.devRef .tc main_v37))) (W (Proc.devRef .tc main_arg12)) (W (Proc.devRef .tc main_arg13))) := by
  unfold opsB
  simp (disch := decide) only [after_cons, after_nil, nullary_result', unary_result', binary_result', ternary_result', reshape_result', nary6_result', nary4_result', nullary_result_ne', unary_result_ne', binary_result_ne', ternary_result_ne', reshape_result_ne', nary_result_ne']
  rfl

set_option maxHeartbeats 4000000 in
/-- No operation writes argument 0. -/
theorem after_arg0 (V : Valuation τ sig (Elt F)) : after ops V (Proc.devRef .tc main_arg0) = V (Proc.devRef .tc main_arg0) := by
  simp (disch := decide) only [after_cons, after_nil, nullary_result_ne', unary_result_ne', binary_result_ne', ternary_result_ne', reshape_result_ne', nary_result_ne']

set_option maxHeartbeats 4000000 in
/-- No operation writes argument 1. -/
theorem after_arg1 (V : Valuation τ sig (Elt F)) : after ops V (Proc.devRef .tc main_arg1) = V (Proc.devRef .tc main_arg1) := by
  simp (disch := decide) only [after_cons, after_nil, nullary_result_ne', unary_result_ne', binary_result_ne', ternary_result_ne', reshape_result_ne', nary_result_ne']

set_option maxHeartbeats 4000000 in
/-- No operation writes argument 2. -/
theorem after_arg2 (V : Valuation τ sig (Elt F)) : after ops V (Proc.devRef .tc main_arg2) = V (Proc.devRef .tc main_arg2) := by
  simp (disch := decide) only [after_cons, after_nil, nullary_result_ne', unary_result_ne', binary_result_ne', ternary_result_ne', reshape_result_ne', nary_result_ne']

set_option maxHeartbeats 4000000 in
/-- No operation writes argument 3. -/
theorem after_arg3 (V : Valuation τ sig (Elt F)) : after ops V (Proc.devRef .tc main_arg3) = V (Proc.devRef .tc main_arg3) := by
  simp (disch := decide) only [after_cons, after_nil, nullary_result_ne', unary_result_ne', binary_result_ne', ternary_result_ne', reshape_result_ne', nary_result_ne']

set_option maxHeartbeats 4000000 in
/-- No operation writes argument 4. -/
theorem after_arg4 (V : Valuation τ sig (Elt F)) : after ops V (Proc.devRef .tc main_arg4) = V (Proc.devRef .tc main_arg4) := by
  simp (disch := decide) only [after_cons, after_nil, nullary_result_ne', unary_result_ne', binary_result_ne', ternary_result_ne', reshape_result_ne', nary_result_ne']

set_option maxHeartbeats 4000000 in
/-- No operation writes argument 5. -/
theorem after_arg5 (V : Valuation τ sig (Elt F)) : after ops V (Proc.devRef .tc main_arg5) = V (Proc.devRef .tc main_arg5) := by
  simp (disch := decide) only [after_cons, after_nil, nullary_result_ne', unary_result_ne', binary_result_ne', ternary_result_ne', reshape_result_ne', nary_result_ne']

set_option maxHeartbeats 4000000 in
/-- No operation writes argument 6. -/
theorem after_arg6 (V : Valuation τ sig (Elt F)) : after ops V (Proc.devRef .tc main_arg6) = V (Proc.devRef .tc main_arg6) := by
  simp (disch := decide) only [after_cons, after_nil, nullary_result_ne', unary_result_ne', binary_result_ne', ternary_result_ne', reshape_result_ne', nary_result_ne']

set_option maxHeartbeats 4000000 in
/-- No operation writes argument 7. -/
theorem after_arg7 (V : Valuation τ sig (Elt F)) : after ops V (Proc.devRef .tc main_arg7) = V (Proc.devRef .tc main_arg7) := by
  simp (disch := decide) only [after_cons, after_nil, nullary_result_ne', unary_result_ne', binary_result_ne', ternary_result_ne', reshape_result_ne', nary_result_ne']

set_option maxHeartbeats 4000000 in
/-- No operation writes argument 8. -/
theorem after_arg8 (V : Valuation τ sig (Elt F)) : after ops V (Proc.devRef .tc main_arg8) = V (Proc.devRef .tc main_arg8) := by
  simp (disch := decide) only [after_cons, after_nil, nullary_result_ne', unary_result_ne', binary_result_ne', ternary_result_ne', reshape_result_ne', nary_result_ne']

set_option maxHeartbeats 4000000 in
/-- No operation writes argument 9. -/
theorem after_arg9 (V : Valuation τ sig (Elt F)) : after ops V (Proc.devRef .tc main_arg9) = V (Proc.devRef .tc main_arg9) := by
  simp (disch := decide) only [after_cons, after_nil, nullary_result_ne', unary_result_ne', binary_result_ne', ternary_result_ne', reshape_result_ne', nary_result_ne']

set_option maxHeartbeats 4000000 in
/-- No operation writes argument 10. -/
theorem after_arg10 (V : Valuation τ sig (Elt F)) : after ops V (Proc.devRef .tc main_arg10) = V (Proc.devRef .tc main_arg10) := by
  simp (disch := decide) only [after_cons, after_nil, nullary_result_ne', unary_result_ne', binary_result_ne', ternary_result_ne', reshape_result_ne', nary_result_ne']

set_option maxHeartbeats 4000000 in
/-- No operation writes argument 11. -/
theorem after_arg11 (V : Valuation τ sig (Elt F)) : after ops V (Proc.devRef .tc main_arg11) = V (Proc.devRef .tc main_arg11) := by
  simp (disch := decide) only [after_cons, after_nil, nullary_result_ne', unary_result_ne', binary_result_ne', ternary_result_ne', reshape_result_ne', nary_result_ne']

set_option maxHeartbeats 4000000 in
/-- No operation writes argument 12. -/
theorem after_arg12 (V : Valuation τ sig (Elt F)) : after ops V (Proc.devRef .tc main_arg12) = V (Proc.devRef .tc main_arg12) := by
  simp (disch := decide) only [after_cons, after_nil, nullary_result_ne', unary_result_ne', binary_result_ne', ternary_result_ne', reshape_result_ne', nary_result_ne']

set_option maxHeartbeats 4000000 in
/-- No operation writes argument 13. -/
theorem after_arg13 (V : Valuation τ sig (Elt F)) : after ops V (Proc.devRef .tc main_arg13) = V (Proc.devRef .tc main_arg13) := by
  simp (disch := decide) only [after_cons, after_nil, nullary_result_ne', unary_result_ne', binary_result_ne', ternary_result_ne', reshape_result_ne', nary_result_ne']

set_option maxHeartbeats 4000000 in
theorem preA_arg12 (V : Valuation τ sig (Elt F)) : after opsA V (Proc.devRef .tc main_arg12) = V (Proc.devRef .tc main_arg12) := by
  unfold opsA
  simp (disch := decide) only [after_cons, after_nil, nullary_result_ne', unary_result_ne', binary_result_ne', ternary_result_ne', reshape_result_ne', nary_result_ne']

set_option maxHeartbeats 4000000 in
theorem preA_arg13 (V : Valuation τ sig (Elt F)) : after opsA V (Proc.devRef .tc main_arg13) = V (Proc.devRef .tc main_arg13) := by
  unfold opsA
  simp (disch := decide) only [after_cons, after_nil, nullary_result_ne', unary_result_ne', binary_result_ne', ternary_result_ne', reshape_result_ne', nary_result_ne']

/-- After the whole line the result buffer holds the reference's composed term of the arguments. -/
theorem after_v81 (V : Valuation τ sig (Elt F)) :
    after ops V (Proc.devRef .tc main_v81)
      = RefTerm.result (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split, after_append, tail_v81, pre_v37, pre_v48, preA_arg12, preA_arg13]
  rfl

/-- On every device, for any float values, from any memory with zero counters: every weakly fair execution of the
    reference terminates with its result at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
        = RefTerm.result (m ((c.tc : Thread nD τ).loc main_arg0)) (m ((c.tc : Thread nD τ).loc main_arg1)) (m ((c.tc : Thread nD τ).loc main_arg2))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v81).trans (after_v81 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _)⟩)
    (run_seq scopedRefs_eq scopedSems_eq defs main (fun _ => ops) main_eq (fun _ => ops_sub) m ρ)

end Cert.ReferenceIdeal.RefRun

end
-- ==== Proof.RefValueA.lean ====
/-
  The reference's first stages read at an index, at the exact extended-real values.

  * The stack of the six branch inputs at (k, r, i) is the input array branch k reads (xl, yl, xr, yl, xl, yl) at (r, i).
  * A batched contraction over one axis, read at (k, r, h), is the finite sum over the contracted coordinate of the
    products of the two operands' entries; the two hidden layers are the logistic 1 / (1 + exp (−z)) of such a sum
    plus the bias of that branch and unit.
-/
import proofs.«116432_j48292612276330_1_alg».proof.Proof.RefTerm
import proofs.«116432_j48292612276330_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefTerm Idealize.ShloMosaic Idealize.ShloMosaic.ValueIdx
open Cert.BranchNet (sigm one)

/-- The broadcast to a new leading unit axis reads the operand at the trailing coordinates. -/
theorem lead_apply (x : FVec Ideal S2000000x5 .f32) (u : Fin 1) (r : Fin 2000000) (i : Fin 5) :
    broadcastInDim S1x2000000x5 ![1, 2] bcast_S2000000x5_S1x2000000x5_1_2 x (ix3 u r i) = x (ix2 r i) :=
  broadcastInDim_apply _ _ x _ _ fun a => match a with | ⟨0, _⟩ => rfl | ⟨1, _⟩ => rfl

/-- The input array that branch k reads: xl, yl, xr, yl, xl, yl. -/
def src (a0 a1 a2 : FVec Ideal S2000000x5 .f32) : Fin 6 → FVec Ideal S2000000x5 .f32 := ![a0, a1, a2, a1, a0, a1]

/-- Six unit slabs stacked along a new leading axis: slab k at the trailing coordinates. -/
theorem stack6_apply (x0 x1 x2 x3 x4 x5 : FVec Ideal S1x2000000x5 .f32)
    (h : Shape.Concatenates [S1x2000000x5, S1x2000000x5, S1x2000000x5, S1x2000000x5, S1x2000000x5, S1x2000000x5] S6x2000000x5 0)
    (k : Fin 6) (r : Fin 2000000) (i : Fin 5) :
    concatenate S6x2000000x5 0 [⟨S1x2000000x5, x0⟩, ⟨S1x2000000x5, x1⟩, ⟨S1x2000000x5, x2⟩, ⟨S1x2000000x5, x3⟩, ⟨S1x2000000x5, x4⟩, ⟨S1x2000000x5, x5⟩] h (ix3 k r i)
      = (![x0, x1, x2, x3, x4, x5] : Fin 6 → FVec Ideal S1x2000000x5 .f32) k (ix3 (0 : Fin 1) r i) := by
  have hi : ∀ b : Fin S1x2000000x5.rank, b.cast (rfl : S1x2000000x5.rank = S6x2000000x5.rank) ≠ (0 : Fin S6x2000000x5.rank) →
      ((ix3 (0 : Fin 1) r i : S1x2000000x5.Idx) b).val = ((ix3 k r i : S6x2000000x5.Idx) (b.cast rfl)).val := fun b =>
    match b with
    | ⟨0, _⟩ => fun hb => absurd rfl hb
    | ⟨1, _⟩ => fun _ => rfl
    | ⟨2, _⟩ => fun _ => rfl
  match k with
  | ⟨0, _⟩ => exact concatenate_apply_piece (t := S6x2000000x5) (0 : Fin 3) [⟨S1x2000000x5, x0⟩, ⟨S1x2000000x5, x1⟩, ⟨S1x2000000x5, x2⟩, ⟨S1x2000000x5, x3⟩, ⟨S1x2000000x5, x4⟩, ⟨S1x2000000x5, x5⟩] h _ 0 (show (0 : Nat) < 6 by omega) S1x2000000x5 x0 rfl rfl 0 rfl (ix3 (0 : Fin 1) r i) hi rfl
  | ⟨1, _⟩ => exact concatenate_apply_piece (t := S6x2000000x5) (0 : Fin 3) [⟨S1x2000000x5, x0⟩, ⟨S1x2000000x5, x1⟩, ⟨S1x2000000x5, x2⟩, ⟨S1x2000000x5, x3⟩, ⟨S1x2000000x5, x4⟩, ⟨S1x2000000x5, x5⟩] h _ 1 (show (1 : Nat) < 6 by omega) S1x2000000x5 x1 rfl rfl 1 rfl (ix3 (0 : Fin 1) r i) hi rfl
  | ⟨2, _⟩ => exact concatenate_apply_piece (t := S6x2000000x5) (0 : Fin 3) [⟨S1x2000000x5, x0⟩, ⟨S1x2000000x5, x1⟩, ⟨S1x2000000x5, x2⟩, ⟨S1x2000000x5, x3⟩, ⟨S1x2000000x5, x4⟩, ⟨S1x2000000x5, x5⟩] h _ 2 (show (2 : Nat) < 6 by omega) S1x2000000x5 x2 rfl rfl 2 rfl (ix3 (0 : Fin 1) r i) hi rfl
  | ⟨3, _⟩ => exact concatenate_apply_piece (t := S6x2000000x5) (0 : Fin 3) [⟨S1x2000000x5, x0⟩, ⟨S1x2000000x5, x1⟩, ⟨S1x2000000x5, x2⟩, ⟨S1x2000000x5, x3⟩, ⟨S1x2000000x5, x4⟩, ⟨S1x2000000x5, x5⟩] h _ 3 (show (3 : Nat) < 6 by omega) S1x2000000x5 x3 rfl rfl 3 rfl (ix3 (0 : Fin 1) r i) hi rfl
  | ⟨4, _⟩ => exact concatenate_apply_piece (t := S6x2000000x5) (0 : Fin 3) [⟨S1x2000000x5, x0⟩, ⟨S1x2000000x5, x1⟩, ⟨S1x2000000x5, x2⟩, ⟨S1x2000000x5, x3⟩, ⟨S1x2000000x5, x4⟩, ⟨S1x2000000x5, x5⟩] h _ 4 (show (4 : Nat) < 6 by omega) S1x2000000x5 x4 rfl rfl 4 rfl (ix3 (0 : Fin 1) r i) hi rfl
  | ⟨5, _⟩ => exact concatenate_apply_piece (t := S6x2000000x5) (0 : Fin 3) [⟨S1x2000000x5, x0⟩, ⟨S1x2000000x5, x1⟩, ⟨S1x2000000x5, x2⟩, ⟨S1x2000000x5, x3⟩, ⟨S1x2000000x5, x4⟩, ⟨S1x2000000x5, x5⟩] h _ 5 (show (5 : Nat) < 6 by omega) S1x2000000x5 x5 rfl rfl 5 rfl (ix3 (0 : Fin 1) r i) hi rfl

/-- The stacked branch inputs at (k, r, i): the array branch k reads, at (r, i). -/
theorem stack_apply (a0 a1 a2 : FVec Ideal S2000000x5 .f32) (k : Fin 6) (r : Fin 2000000) (i : Fin 5) :
    stack (F := Ideal) a0 a1 a2 (ix3 k r i) = src a0 a1 a2 k (ix2 r i) := by
  unfold stack
  dsimp only
  rw [stack6_apply]
  match k with
  | ⟨0, _⟩ => exact lead_apply a0 0 r i
  | ⟨1, _⟩ => exact lead_apply a1 0 r i
  | ⟨2, _⟩ => exact lead_apply a2 0 r i
  | ⟨3, _⟩ => exact lead_apply a1 0 r i
  | ⟨4, _⟩ => exact lead_apply a0 0 r i
  | ⟨5, _⟩ => exact lead_apply a1 0 r i

/-! ## The first hidden layer's contraction at an index -/

theorem lhs_d1_0 (i : S6x2000000x4.Idx) (q : dot_S6x2000000x5_S6x4x5_S6x2000000x4_2_2_1_1_0_0.contr.Idx) :
    (dot_S6x2000000x5_S6x4x5_S6x2000000x4_2_2_1_1_0_0.lhsIdx i q 0).val = (i 0).val := by
  unfold DotDims.lhsIdx
  rw [dif_pos (show (0 : Fin S6x2000000x5.rank) ∈ dot_S6x2000000x5_S6x4x5_S6x2000000x4_2_2_1_1_0_0.lhsBatch by decide)]
  rfl

theorem lhs_d1_1 (i : S6x2000000x4.Idx) (q : dot_S6x2000000x5_S6x4x5_S6x2000000x4_2_2_1_1_0_0.contr.Idx) :
    (dot_S6x2000000x5_S6x4x5_S6x2000000x4_2_2_1_1_0_0.lhsIdx i q 1).val = (i 1).val := by
  unfold DotDims.lhsIdx
  rw [dif_neg (show ¬(1 : Fin S6x2000000x5.rank) ∈ dot_S6x2000000x5_S6x4x5_S6x2000000x4_2_2_1_1_0_0.lhsBatch by decide), dif_pos (show (1 : Fin S6x2000000x5.rank) ∈ dot_S6x2000000x5_S6x4x5_S6x2000000x4_2_2_1_1_0_0.lhsNonContracting by decide)]
  rfl

theorem lhs_d1_2 (i : S6x2000000x4.Idx) (q : dot_S6x2000000x5_S6x4x5_S6x2000000x4_2_2_1_1_0_0.contr.Idx) :
    (dot_S6x2000000x5_S6x4x5_S6x2000000x4_2_2_1_1_0_0.lhsIdx i q 2).val = (q ⟨0, by decide⟩).val :=
  dot_S6x2000000x5_S6x4x5_S6x2000000x4_2_2_1_1_0_0.lhsIdx_val_of_single rfl i q

theorem rhs_d1_0 (i : S6x2000000x4.Idx) (q : dot_S6x2000000x5_S6x4x5_S6x2000000x4_2_2_1_1_0_0.contr.Idx) :
    (dot_S6x2000000x5_S6x4x5_S6x2000000x4_2_2_1_1_0_0.rhsIdx i q 0).val = (i 0).val := by
  unfold DotDims.rhsIdx
  rw [dif_pos (show (0 : Fin S6x4x5.rank) ∈ dot_S6x2000000x5_S6x4x5_S6x2000000x4_2_2_1_1_0_0.rhsBatch by decide)]
  rfl

theorem rhs_d1_1 (i : S6x2000000x4.Idx) (q : dot_S6x2000000x5_S6x4x5_S6x2000000x4_2_2_1_1_0_0.contr.Idx) :
    (dot_S6x2000000x5_S6x4x5_S6x2000000x4_2_2_1_1_0_0.rhsIdx i q 1).val = (i 2).val := by
  unfold DotDims.rhsIdx
  rw [dif_neg (show ¬(1 : Fin S6x4x5.rank) ∈ dot_S6x2000000x5_S6x4x5_S6x2000000x4_2_2_1_1_0_0.rhsBatch by decide), dif_pos (show (1 : Fin S6x4x5.rank) ∈ dot_S6x2000000x5_S6x4x5_S6x2000000x4_2_2_1_1_0_0.rhsNonContracting by decide)]
  rfl

theorem rhs_d1_2 (i : S6x2000000x4.Idx) (q : dot_S6x2000000x5_S6x4x5_S6x2000000x4_2_2_1_1_0_0.contr.Idx) :
    (dot_S6x2000000x5_S6x4x5_S6x2000000x4_2_2_1_1_0_0.rhsIdx i q 2).val = (q ⟨0, by decide⟩).val :=
  dot_S6x2000000x5_S6x4x5_S6x2000000x4_2_2_1_1_0_0.rhsIdx_val_of_single rfl i q

/-- The batched contraction over the input axis at (k, r, h): the sum over i of x (k, r, i) · w (k, h, i). -/
theorem dot1_apply (x : FVec Ideal S6x2000000x5 .f32) (w : FVec Ideal S6x4x5 .f32) (k : Fin 6) (r : Fin 2000000) (h : Fin 4) :
    Host.dotGeneral (F := Ideal) dot_S6x2000000x5_S6x4x5_S6x2000000x4_2_2_1_1_0_0 none x w (ix3 k r h) = ∑ i : Fin 5, x (ix3 k r i) * w (ix3 k h i) := by
  simp only [Host.dotGeneral]
  rw [Ideal.dotGeneral_apply, ← Equiv.sum_comp (contrEquiv1 dot_S6x2000000x5_S6x4x5_S6x2000000x4_2_2_1_1_0_0 5 rfl rfl).symm]
  refine Finset.sum_congr rfl fun i _ => ?_
  have hk := contrEquiv1_symm_val dot_S6x2000000x5_S6x4x5_S6x2000000x4_2_2_1_1_0_0 5 rfl rfl i
  have el : dot_S6x2000000x5_S6x4x5_S6x2000000x4_2_2_1_1_0_0.lhsIdx (ix3 k r h) ((contrEquiv1 dot_S6x2000000x5_S6x4x5_S6x2000000x4_2_2_1_1_0_0 5 rfl rfl).symm i) = ix3 k r i := funext fun a => Fin.ext (by
    match a with
    | ⟨0, _⟩ => exact lhs_d1_0 _ _
    | ⟨1, _⟩ => exact lhs_d1_1 _ _
    | ⟨2, _⟩ => exact (lhs_d1_2 _ _).trans hk)
  have er : dot_S6x2000000x5_S6x4x5_S6x2000000x4_2_2_1_1_0_0.rhsIdx (ix3 k r h) ((contrEquiv1 dot_S6x2000000x5_S6x4x5_S6x2000000x4_2_2_1_1_0_0 5 rfl rfl).symm i) = ix3 k h i := funext fun a => Fin.ext (by
    match a with
    | ⟨0, _⟩ => exact rhs_d1_0 _ _
    | ⟨1, _⟩ => exact rhs_d1_1 _ _
    | ⟨2, _⟩ => exact (rhs_d1_2 _ _).trans hk)
  rw [el, er]

/-! ## The second hidden layer's contraction at an index -/

theorem lhs_d2_0 (i : S6x2000000x4.Idx) (q : dot_S6x2000000x4_S6x4x4_S6x2000000x4_2_2_1_1_0_0.contr.Idx) :
    (dot_S6x2000000x4_S6x4x4_S6x2000000x4_2_2_1_1_0_0.lhsIdx i q 0).val = (i 0).val := by
  unfold DotDims.lhsIdx
  rw [dif_pos (show (0 : Fin S6x2000000x4.rank) ∈ dot_S6x2000000x4_S6x4x4_S6x2000000x4_2_2_1_1_0_0.lhsBatch by decide)]
  rfl

theorem lhs_d2_1 (i : S6x2000000x4.Idx) (q : dot_S6x2000000x4_S6x4x4_S6x2000000x4_2_2_1_1_0_0.contr.Idx) :
    (dot_S6x2000000x4_S6x4x4_S6x2000000x4_2_2_1_1_0_0.lhsIdx i q 1).val = (i 1).val := by
  unfold DotDims.lhsIdx
  rw [dif_neg (show ¬(1 : Fin S6x2000000x4.rank) ∈ dot_S6x2000000x4_S6x4x4_S6x2000000x4_2_2_1_1_0_0.lhsBatch by decide), dif_pos (show (1 : Fin S6x2000000x4.rank) ∈ dot_S6x2000000x4_S6x4x4_S6x2000000x4_2_2_1_1_0_0.lhsNonContracting by decide)]
  rfl

theorem lhs_d2_2 (i : S6x2000000x4.Idx) (q : dot_S6x2000000x4_S6x4x4_S6x2000000x4_2_2_1_1_0_0.contr.Idx) :
    (dot_S6x2000000x4_S6x4x4_S6x2000000x4_2_2_1_1_0_0.lhsIdx i q 2).val = (q ⟨0, by decide⟩).val :=
  dot_S6x2000000x4_S6x4x4_S6x2000000x4_2_2_1_1_0_0.lhsIdx_val_of_single rfl i q

theorem rhs_d2_0 (i : S6x2000000x4.Idx) (q : dot_S6x2000000x4_S6x4x4_S6x2000000x4_2_2_1_1_0_0.contr.Idx) :
    (dot_S6x2000000x4_S6x4x4_S6x2000000x4_2_2_1_1_0_0.rhsIdx i q 0).val = (i 0).val := by
  unfold DotDims.rhsIdx
  rw [dif_pos (show (0 : Fin S6x4x4.rank) ∈ dot_S6x2000000x4_S6x4x4_S6x2000000x4_2_2_1_1_0_0.rhsBatch by decide)]
  rfl

theorem rhs_d2_1 (i : S6x2000000x4.Idx) (q : dot_S6x2000000x4_S6x4x4_S6x2000000x4_2_2_1_1_0_0.contr.Idx) :
    (dot_S6x2000000x4_S6x4x4_S6x2000000x4_2_2_1_1_0_0.rhsIdx i q 1).val = (i 2).val := by
  unfold DotDims.rhsIdx
  rw [dif_neg (show ¬(1 : Fin S6x4x4.rank) ∈ dot_S6x2000000x4_S6x4x4_S6x2000000x4_2_2_1_1_0_0.rhsBatch by decide), dif_pos (show (1 : Fin S6x4x4.rank) ∈ dot_S6x2000000x4_S6x4x4_S6x2000000x4_2_2_1_1_0_0.rhsNonContracting by decide)]
  rfl

theorem rhs_d2_2 (i : S6x2000000x4.Idx) (q : dot_S6x2000000x4_S6x4x4_S6x2000000x4_2_2_1_1_0_0.contr.Idx) :
    (dot_S6x2000000x4_S6x4x4_S6x2000000x4_2_2_1_1_0_0.rhsIdx i q 2).val = (q ⟨0, by decide⟩).val :=
  dot_S6x2000000x4_S6x4x4_S6x2000000x4_2_2_1_1_0_0.rhsIdx_val_of_single rfl i q

/-- The batched contraction over the hidden axis at (k, r, g): the sum over h of x (k, r, h) · w (k, g, h). -/
theorem dot2_apply (x : FVec Ideal S6x2000000x4 .f32) (w : FVec Ideal S6x4x4 .f32) (k : Fin 6) (r : Fin 2000000) (g : Fin 4) :
    Host.dotGeneral (F := Ideal) dot_S6x2000000x4_S6x4x4_S6x2000000x4_2_2_1_1_0_0 none x w (ix3 k r g) = ∑ h : Fin 4, x (ix3 k r h) * w (ix3 k g h) := by
  simp only [Host.dotGeneral]
  rw [Ideal.dotGeneral_apply, ← Equiv.sum_comp (contrEquiv1 dot_S6x2000000x4_S6x4x4_S6x2000000x4_2_2_1_1_0_0 4 rfl rfl).symm]
  refine Finset.sum_congr rfl fun i _ => ?_
  have hk := contrEquiv1_symm_val dot_S6x2000000x4_S6x4x4_S6x2000000x4_2_2_1_1_0_0 4 rfl rfl i
  have el : dot_S6x2000000x4_S6x4x4_S6x2000000x4_2_2_1_1_0_0.lhsIdx (ix3 k r g) ((contrEquiv1 dot_S6x2000000x4_S6x4x4_S6x2000000x4_2_2_1_1_0_0 4 rfl rfl).symm i) = ix3 k r i := funext fun a => Fin.ext (by
    match a with
    | ⟨0, _⟩ => exact lhs_d2_0 _ _
    | ⟨1, _⟩ => exact lhs_d2_1 _ _
    | ⟨2, _⟩ => exact (lhs_d2_2 _ _).trans hk)
  have er : dot_S6x2000000x4_S6x4x4_S6x2000000x4_2_2_1_1_0_0.rhsIdx (ix3 k r g) ((contrEquiv1 dot_S6x2000000x4_S6x4x4_S6x2000000x4_2_2_1_1_0_0 4 rfl rfl).symm i) = ix3 k g i := funext fun a => Fin.ext (by
    match a with
    | ⟨0, _⟩ => exact rhs_d2_0 _ _
    | ⟨1, _⟩ => exact rhs_d2_1 _ _
    | ⟨2, _⟩ => exact (rhs_d2_2 _ _).trans hk)
  rw [el, er]

/-! ## The two hidden layers at an index -/

/-- The literal 1.0 broadcast over the hidden array reads 1.0 everywhere. -/
theorem ones_apply (j : S6x2000000x4.Idx) :
    broadcastInDim S6x2000000x4 ![] bcast_S_S6x2000000x4 (constant (F := Ideal) S_ .f32 0x3F800000#32) j = one :=
  broadcastInDim_apply _ _ _ j ix0 (fun a => a.elim0)

/-- The logistic as the program writes it, 1 / (1 + exp (−z)), at an index. -/
theorem logistic_apply (z : FVec Ideal S6x2000000x4 .f32) (j : S6x2000000x4.Idx) :
    Host.divf (F := Ideal) (broadcastInDim S6x2000000x4 ![] bcast_S_S6x2000000x4 (constant (F := Ideal) S_ .f32 0x3F800000#32))
      (addf (broadcastInDim S6x2000000x4 ![] bcast_S_S6x2000000x4 (constant (F := Ideal) S_ .f32 0x3F800000#32))
        (Host.exp (F := Ideal) (Host.negf (F := Ideal) z))) j = sigm (z j) := by
  show Ideal.div (broadcastInDim S6x2000000x4 ![] bcast_S_S6x2000000x4 (constant (F := Ideal) S_ .f32 0x3F800000#32) j)
      (broadcastInDim S6x2000000x4 ![] bcast_S_S6x2000000x4 (constant (F := Ideal) S_ .f32 0x3F800000#32) j + Ideal.exp (-(z j))) = _
  rw [ones_apply]
  rfl

/-- A per-branch bias row spread over the batch axis reads the bias of that branch and unit. -/
theorem bias6_apply (b : FVec Ideal S6x4 .f32) (k : Fin 6) (r : Fin 2000000) (h : Fin 4) :
    broadcastInDim S6x2000000x4 ![0, 1, 2] bcast_S6x1x4_S6x2000000x4_0_1_2
      (broadcastInDim S6x1x4 ![0, 2] bcast_S6x4_S6x1x4_0_2 b) (ix3 k r h) = b (ix2 k h) :=
  (broadcastInDim_apply _ _ _ (ix3 k r h) (ix3 k (0 : Fin 1) h)
      fun a => match a with | ⟨0, _⟩ => rfl | ⟨1, _⟩ => rfl | ⟨2, _⟩ => rfl).trans
    (broadcastInDim_apply _ _ b (ix3 k (0 : Fin 1) h) (ix2 k h) fun a => match a with | ⟨0, _⟩ => rfl | ⟨1, _⟩ => rfl)

/-- The first hidden layer at (k, r, h): the logistic of the contraction with W1 plus the bias. -/
theorem hidden1_apply (v6 : FVec Ideal S6x2000000x5 .f32) (a4 : FVec Ideal S6x4x5 .f32) (a5 : FVec Ideal S6x4 .f32)
    (k : Fin 6) (r : Fin 2000000) (h : Fin 4) :
    hidden1 (F := Ideal) v6 a4 a5 (ix3 k r h) = sigm ((∑ i : Fin 5, v6 (ix3 k r i) * a4 (ix3 k h i)) + a5 (ix2 k h)) := by
  unfold hidden1
  dsimp only
  refine (logistic_apply _ _).trans ?_
  rw [addf_apply, dot1_apply, bias6_apply]

/-- The second hidden layer at (k, r, g): the logistic of the contraction with W2 plus the bias. -/
theorem hidden2_apply (v16 : FVec Ideal S6x2000000x4 .f32) (a6 : FVec Ideal S6x4x4 .f32) (a7 : FVec Ideal S6x4 .f32)
    (k : Fin 6) (r : Fin 2000000) (g : Fin 4) :
    hidden2 (F := Ideal) v16 a6 a7 (ix3 k r g) = sigm ((∑ h : Fin 4, v16 (ix3 k r h) * a6 (ix3 k g h)) + a7 (ix2 k g)) := by
  unfold hidden2
  dsimp only
  refine (logistic_apply _ _).trans ?_
  rw [addf_apply, dot2_apply, bias6_apply]

end Cert.ReferenceIdeal.RefValue

end
-- ==== Proof.RefValueB.lean ====
/-
  The reference's selection of branches and its heads, read at an index, at the exact extended-real values.

  * The two constant index tables, after the program's normalisation of a possibly negative index and read signed and
    clamped as a gather reads a start index, are 0, 1, 4, 5 and 2, 3 (four and two closed integer facts).
  * The gather along the branch axis reads, at (e, r, h), the operand at (table e, r, h).
  * The heads at an index are the finite sum over the hidden axis of the selected branch's hidden row times the head's
    weights, plus the head's bias.
-/
import proofs.«116432_j48292612276330_1_alg».proof.Proof.RefTerm
import proofs.«116432_j48292612276330_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefTerm Idealize.ShloMosaic Idealize.ShloMosaic.ValueIdx
open Cert.BranchNet (sigm one)

/-! ## The two index tables and the gathers they drive -/

/-- The table 0, 1, 4, 5 after the program's normalisation, read signed and clamped into 0 … 5: itself. -/
theorem pick4_val (e : Fin 4) :
    min (pick4 (F := Ideal) (ix2 e (0 : Fin 1))).toInt.toNat 5 = (![0, 1, 4, 5] : Fin 4 → Nat) e := by
  match e with
  | ⟨0, _⟩ => rfl
  | ⟨1, _⟩ => rfl
  | ⟨2, _⟩ => rfl
  | ⟨3, _⟩ => rfl

/-- The table 2, 3 after the program's normalisation, read signed and clamped into 0 … 5: itself. -/
theorem pick2_val (e : Fin 2) :
    min (pick2 (F := Ideal) (ix2 e (0 : Fin 1))).toInt.toNat 5 = (![2, 3] : Fin 2 → Nat) e := by
  match e with
  | ⟨0, _⟩ => rfl
  | ⟨1, _⟩ => rfl

/-- Where the gather of 4 of the six branches reads: on the branch axis the table's entry for the selected position,
    read signed and clamped into 0 … 5; on the other two axes the result's own coordinates. -/
theorem gather4_coord0 (idx : IVec S4x1 32) (e : Fin 4) (r : Fin 2000000) (h : Fin 4) :
    (gather_S6x2000000x4_S4x1_S4x2000000x4_12_0_n_n_0_1_120000004.operandIdx (ix3 e r h) idx 0).val = min (idx (ix2 e (0 : Fin 1))).toInt.toNat 5 := by
  show gather_S6x2000000x4_S4x1_S4x2000000x4_12_0_n_n_0_1_120000004.start _ idx 0 + gather_S6x2000000x4_S4x1_S4x2000000x4_12_0_n_n_0_1_120000004.batchCoord _ 0 + gather_S6x2000000x4_S4x1_S4x2000000x4_12_0_n_n_0_1_120000004.offCoord _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ gather_S6x2000000x4_S4x1_S4x2000000x4_12_0_n_n_0_1_120000004.startIndexMap from List.mem_singleton.mpr rfl)]
  have hsi : gather_S6x2000000x4_S4x1_S4x2000000x4_12_0_n_n_0_1_120000004.siIdx (ix3 e r h) ⟨List.idxOf (0 : Fin 3) gather_S6x2000000x4_S4x1_S4x2000000x4_12_0_n_n_0_1_120000004.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gather4_coord1 (idx : IVec S4x1 32) (e : Fin 4) (r : Fin 2000000) (h : Fin 4) :
    (gather_S6x2000000x4_S4x1_S4x2000000x4_12_0_n_n_0_1_120000004.operandIdx (ix3 e r h) idx 1).val = r.val := by
  show gather_S6x2000000x4_S4x1_S4x2000000x4_12_0_n_n_0_1_120000004.start _ idx 1 + gather_S6x2000000x4_S4x1_S4x2000000x4_12_0_n_n_0_1_120000004.batchCoord _ 1 + gather_S6x2000000x4_S4x1_S4x2000000x4_12_0_n_n_0_1_120000004.offCoord _ 1 = _
  rw [GatherDims.batchCoord_eq_zero _ _ _ List.not_mem_nil]
  unfold GatherDims.start GatherDims.offCoord
  rw [dif_neg (show ¬(1 : Fin 3) ∈ gather_S6x2000000x4_S4x1_S4x2000000x4_12_0_n_n_0_1_120000004.startIndexMap by decide), dif_pos (show (1 : Fin 3) ∈ gather_S6x2000000x4_S4x1_S4x2000000x4_12_0_n_n_0_1_120000004.sKept by decide)]
  simp only [Nat.add_zero, Nat.zero_add]
  rfl

theorem gather4_coord2 (idx : IVec S4x1 32) (e : Fin 4) (r : Fin 2000000) (h : Fin 4) :
    (gather_S6x2000000x4_S4x1_S4x2000000x4_12_0_n_n_0_1_120000004.operandIdx (ix3 e r h) idx 2).val = h.val := by
  show gather_S6x2000000x4_S4x1_S4x2000000x4_12_0_n_n_0_1_120000004.start _ idx 2 + gather_S6x2000000x4_S4x1_S4x2000000x4_12_0_n_n_0_1_120000004.batchCoord _ 2 + gather_S6x2000000x4_S4x1_S4x2000000x4_12_0_n_n_0_1_120000004.offCoord _ 2 = _
  rw [GatherDims.batchCoord_eq_zero _ _ _ List.not_mem_nil]
  unfold GatherDims.start GatherDims.offCoord
  rw [dif_neg (show ¬(2 : Fin 3) ∈ gather_S6x2000000x4_S4x1_S4x2000000x4_12_0_n_n_0_1_120000004.startIndexMap by decide), dif_pos (show (2 : Fin 3) ∈ gather_S6x2000000x4_S4x1_S4x2000000x4_12_0_n_n_0_1_120000004.sKept by decide)]
  simp only [Nat.add_zero, Nat.zero_add]
  rfl

/-- The gather at (e, r, h): the operand at (k, r, h), k the clamped table entry for position e. -/
theorem gather4_apply {α : Type} (x : S6x2000000x4.Idx → α) (idx : IVec S4x1 32) (e : Fin 4) (r : Fin 2000000) (h : Fin 4)
    (k : Fin 6) (hk : min (idx (ix2 e (0 : Fin 1))).toInt.toNat 5 = k.val) :
    Host.gather gather_S6x2000000x4_S4x1_S4x2000000x4_12_0_n_n_0_1_120000004 x idx (ix3 e r h) = x (ix3 k r h) := by
  unfold Host.gather
  refine congrArg x (funext fun a => Fin.ext ?_)
  match a with
  | ⟨0, _⟩ => exact (gather4_coord0 idx e r h).trans hk
  | ⟨1, _⟩ => exact gather4_coord1 idx e r h
  | ⟨2, _⟩ => exact gather4_coord2 idx e r h

/-- Where the gather of 2 of the six branches reads: on the branch axis the table's entry for the selected position,
    read signed and clamped into 0 … 5; on the other two axes the result's own coordinates. -/
theorem gather2_coord0 (idx : IVec S2x1 32) (e : Fin 2) (r : Fin 2000000) (h : Fin 4) :
    (gather_S6x2000000x4_S2x1_S2x2000000x4_12_0_n_n_0_1_120000004.operandIdx (ix3 e r h) idx 0).val = min (idx (ix2 e (0 : Fin 1))).toInt.toNat 5 := by
  show gather_S6x2000000x4_S2x1_S2x2000000x4_12_0_n_n_0_1_120000004.start _ idx 0 + gather_S6x2000000x4_S2x1_S2x2000000x4_12_0_n_n_0_1_120000004.batchCoord _ 0 + gather_S6x2000000x4_S2x1_S2x2000000x4_12_0_n_n_0_1_120000004.offCoord _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ gather_S6x2000000x4_S2x1_S2x2000000x4_12_0_n_n_0_1_120000004.startIndexMap from List.mem_singleton.mpr rfl)]
  have hsi : gather_S6x2000000x4_S2x1_S2x2000000x4_12_0_n_n_0_1_120000004.siIdx (ix3 e r h) ⟨List.idxOf (0 : Fin 3) gather_S6x2000000x4_S2x1_S2x2000000x4_12_0_n_n_0_1_120000004.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gather2_coord1 (idx : IVec S2x1 32) (e : Fin 2) (r : Fin 2000000) (h : Fin 4) :
    (gather_S6x2000000x4_S2x1_S2x2000000x4_12_0_n_n_0_1_120000004.operandIdx (ix3 e r h) idx 1).val = r.val := by
  show gather_S6x2000000x4_S2x1_S2x2000000x4_12_0_n_n_0_1_120000004.start _ idx 1 + gather_S6x2000000x4_S2x1_S2x2000000x4_12_0_n_n_0_1_120000004.batchCoord _ 1 + gather_S6x2000000x4_S2x1_S2x2000000x4_12_0_n_n_0_1_120000004.offCoord _ 1 = _
  rw [GatherDims.batchCoord_eq_zero _ _ _ List.not_mem_nil]
  unfold GatherDims.start GatherDims.offCoord
  rw [dif_neg (show ¬(1 : Fin 3) ∈ gather_S6x2000000x4_S2x1_S2x2000000x4_12_0_n_n_0_1_120000004.startIndexMap by decide), dif_pos (show (1 : Fin 3) ∈ gather_S6x2000000x4_S2x1_S2x2000000x4_12_0_n_n_0_1_120000004.sKept by decide)]
  simp only [Nat.add_zero, Nat.zero_add]
  rfl

theorem gather2_coord2 (idx : IVec S2x1 32) (e : Fin 2) (r : Fin 2000000) (h : Fin 4) :
    (gather_S6x2000000x4_S2x1_S2x2000000x4_12_0_n_n_0_1_120000004.operandIdx (ix3 e r h) idx 2).val = h.val := by
  show gather_S6x2000000x4_S2x1_S2x2000000x4_12_0_n_n_0_1_120000004.start _ idx 2 + gather_S6x2000000x4_S2x1_S2x2000000x4_12_0_n_n_0_1_120000004.batchCoord _ 2 + gather_S6x2000000x4_S2x1_S2x2000000x4_12_0_n_n_0_1_120000004.offCoord _ 2 = _
  rw [GatherDims.batchCoord_eq_zero _ _ _ List.not_mem_nil]
  unfold GatherDims.start GatherDims.offCoord
  rw [dif_neg (show ¬(2 : Fin 3) ∈ gather_S6x2000000x4_S2x1_S2x2000000x4_12_0_n_n_0_1_120000004.startIndexMap by decide), dif_pos (show (2 : Fin 3) ∈ gather_S6x2000000x4_S2x1_S2x2000000x4_12_0_n_n_0_1_120000004.sKept by decide)]
  simp only [Nat.add_zero, Nat.zero_add]
  rfl

/-- The gather at (e, r, h): the operand at (k, r, h), k the clamped table entry for position e. -/
theorem gather2_apply {α : Type} (x : S6x2000000x4.Idx → α) (idx : IVec S2x1 32) (e : Fin 2) (r : Fin 2000000) (h : Fin 4)
    (k : Fin 6) (hk : min (idx (ix2 e (0 : Fin 1))).toInt.toNat 5 = k.val) :
    Host.gather gather_S6x2000000x4_S2x1_S2x2000000x4_12_0_n_n_0_1_120000004 x idx (ix3 e r h) = x (ix3 k r h) := by
  unfold Host.gather
  refine congrArg x (funext fun a => Fin.ext ?_)
  match a with
  | ⟨0, _⟩ => exact (gather2_coord0 idx e r h).trans hk
  | ⟨1, _⟩ => exact gather2_coord1 idx e r h
  | ⟨2, _⟩ => exact gather2_coord2 idx e r h

/-! ## The heads on the selected branches -/

theorem lhs_dot3_0 (i : S4x2000000x2.Idx) (q : dot_S4x2000000x4_S4x2x4_S4x2000000x2_2_2_1_1_0_0.contr.Idx) :
    (dot_S4x2000000x4_S4x2x4_S4x2000000x2_2_2_1_1_0_0.lhsIdx i q 0).val = (i 0).val := by
  unfold DotDims.lhsIdx
  rw [dif_pos (show (0 : Fin S4x2000000x4.rank) ∈ dot_S4x2000000x4_S4x2x4_S4x2000000x2_2_2_1_1_0_0.lhsBatch by decide)]
  rfl

theorem lhs_dot3_1 (i : S4x2000000x2.Idx) (q : dot_S4x2000000x4_S4x2x4_S4x2000000x2_2_2_1_1_0_0.contr.Idx) :
    (dot_S4x2000000x4_S4x2x4_S4x2000000x2_2_2_1_1_0_0.lhsIdx i q 1).val = (i 1).val := by
  unfold DotDims.lhsIdx
  rw [dif_neg (show ¬(1 : Fin S4x2000000x4.rank) ∈ dot_S4x2000000x4_S4x2x4_S4x2000000x2_2_2_1_1_0_0.lhsBatch by decide), dif_pos (show (1 : Fin S4x2000000x4.rank) ∈ dot_S4x2000000x4_S4x2x4_S4x2000000x2_2_2_1_1_0_0.lhsNonContracting by decide)]
  rfl

theorem lhs_dot3_2 (i : S4x2000000x2.Idx) (q : dot_S4x2000000x4_S4x2x4_S4x2000000x2_2_2_1_1_0_0.contr.Idx) :
    (dot_S4x2000000x4_S4x2x4_S4x2000000x2_2_2_1_1_0_0.lhsIdx i q 2).val = (q ⟨0, by decide⟩).val :=
  dot_S4x2000000x4_S4x2x4_S4x2000000x2_2_2_1_1_0_0.lhsIdx_val_of_single rfl i q

theorem rhs_dot3_0 (i : S4x2000000x2.Idx) (q : dot_S4x2000000x4_S4x2x4_S4x2000000x2_2_2_1_1_0_0.contr.Idx) :
    (dot_S4x2000000x4_S4x2x4_S4x2000000x2_2_2_1_1_0_0.rhsIdx i q 0).val = (i 0).val := by
  unfold DotDims.rhsIdx
  rw [dif_pos (show (0 : Fin S4x2x4.rank) ∈ dot_S4x2000000x4_S4x2x4_S4x2000000x2_2_2_1_1_0_0.rhsBatch by decide)]
  rfl

theorem rhs_dot3_1 (i : S4x2000000x2.Idx) (q : dot_S4x2000000x4_S4x2x4_S4x2000000x2_2_2_1_1_0_0.contr.Idx) :
    (dot_S4x2000000x4_S4x2x4_S4x2000000x2_2_2_1_1_0_0.rhsIdx i q 1).val = (i 2).val := by
  unfold DotDims.rhsIdx
  rw [dif_neg (show ¬(1 : Fin S4x2x4.rank) ∈ dot_S4x2000000x4_S4x2x4_S4x2000000x2_2_2_1_1_0_0.rhsBatch by decide), dif_pos (show (1 : Fin S4x2x4.rank) ∈ dot_S4x2000000x4_S4x2x4_S4x2000000x2_2_2_1_1_0_0.rhsNonContracting by decide)]
  rfl

theorem rhs_dot3_2 (i : S4x2000000x2.Idx) (q : dot_S4x2000000x4_S4x2x4_S4x2000000x2_2_2_1_1_0_0.contr.Idx) :
    (dot_S4x2000000x4_S4x2x4_S4x2000000x2_2_2_1_1_0_0.rhsIdx i q 2).val = (q ⟨0, by decide⟩).val :=
  dot_S4x2000000x4_S4x2x4_S4x2000000x2_2_2_1_1_0_0.rhsIdx_val_of_single rfl i q

/-- The two-wide heads' contraction at (e, r, o): the sum over h of x (e, r, h) · w (e, o, h). -/
theorem dot3_apply (x : FVec Ideal S4x2000000x4 .f32) (w : FVec Ideal S4x2x4 .f32) (e : Fin 4) (r : Fin 2000000) (o : Fin 2) :
    Host.dotGeneral (F := Ideal) dot_S4x2000000x4_S4x2x4_S4x2000000x2_2_2_1_1_0_0 none x w (ix3 e r o) = ∑ h : Fin 4, x (ix3 e r h) * w (ix3 e o h) := by
  simp only [Host.dotGeneral]
  rw [Ideal.dotGeneral_apply, ← Equiv.sum_comp (contrEquiv1 dot_S4x2000000x4_S4x2x4_S4x2000000x2_2_2_1_1_0_0 4 rfl rfl).symm]
  refine Finset.sum_congr rfl fun i _ => ?_
  have hk := contrEquiv1_symm_val dot_S4x2000000x4_S4x2x4_S4x2000000x2_2_2_1_1_0_0 4 rfl rfl i
  have el : dot_S4x2000000x4_S4x2x4_S4x2000000x2_2_2_1_1_0_0.lhsIdx (ix3 e r o) ((contrEquiv1 dot_S4x2000000x4_S4x2x4_S4x2000000x2_2_2_1_1_0_0 4 rfl rfl).symm i) = ix3 e r i := funext fun a => Fin.ext (by
    match a with
    | ⟨0, _⟩ => exact lhs_dot3_0 _ _
    | ⟨1, _⟩ => exact lhs_dot3_1 _ _
    | ⟨2, _⟩ => exact (lhs_dot3_2 _ _).trans hk)
  have er : dot_S4x2000000x4_S4x2x4_S4x2000000x2_2_2_1_1_0_0.rhsIdx (ix3 e r o) ((contrEquiv1 dot_S4x2000000x4_S4x2x4_S4x2000000x2_2_2_1_1_0_0 4 rfl rfl).symm i) = ix3 e o i := funext fun a => Fin.ext (by
    match a with
    | ⟨0, _⟩ => exact rhs_dot3_0 _ _
    | ⟨1, _⟩ => exact rhs_dot3_1 _ _
    | ⟨2, _⟩ => exact (rhs_dot3_2 _ _).trans hk)
  rw [el, er]

theorem lhs_dot4_0 (i : S2x2000000x1.Idx) (q : dot_S2x2000000x4_S2x1x4_S2x2000000x1_2_2_1_1_0_0.contr.Idx) :
    (dot_S2x2000000x4_S2x1x4_S2x2000000x1_2_2_1_1_0_0.lhsIdx i q 0).val = (i 0).val := by
  unfold DotDims.lhsIdx
  rw [dif_pos (show (0 : Fin S2x2000000x4.rank) ∈ dot_S2x2000000x4_S2x1x4_S2x2000000x1_2_2_1_1_0_0.lhsBatch by decide)]
  rfl

theorem lhs_dot4_1 (i : S2x2000000x1.Idx) (q : dot_S2x2000000x4_S2x1x4_S2x2000000x1_2_2_1_1_0_0.contr.Idx) :
    (dot_S2x2000000x4_S2x1x4_S2x2000000x1_2_2_1_1_0_0.lhsIdx i q 1).val = (i 1).val := by
  unfold DotDims.lhsIdx
  rw [dif_neg (show ¬(1 : Fin S2x2000000x4.rank) ∈ dot_S2x2000000x4_S2x1x4_S2x2000000x1_2_2_1_1_0_0.lhsBatch by decide), dif_pos (show (1 : Fin S2x2000000x4.rank) ∈ dot_S2x2000000x4_S2x1x4_S2x2000000x1_2_2_1_1_0_0.lhsNonContracting by decide)]
  rfl

theorem lhs_dot4_2 (i : S2x2000000x1.Idx) (q : dot_S2x2000000x4_S2x1x4_S2x2000000x1_2_2_1_1_0_0.contr.Idx) :
    (dot_S2x2000000x4_S2x1x4_S2x2000000x1_2_2_1_1_0_0.lhsIdx i q 2).val = (q ⟨0, by decide⟩).val :=
  dot_S2x2000000x4_S2x1x4_S2x2000000x1_2_2_1_1_0_0.lhsIdx_val_of_single rfl i q

theorem rhs_dot4_0 (i : S2x2000000x1.Idx) (q : dot_S2x2000000x4_S2x1x4_S2x2000000x1_2_2_1_1_0_0.contr.Idx) :
    (dot_S2x2000000x4_S2x1x4_S2x2000000x1_2_2_1_1_0_0.rhsIdx i q 0).val = (i 0).val := by
  unfold DotDims.rhsIdx
  rw [dif_pos (show (0 : Fin S2x1x4.rank) ∈ dot_S2x2000000x4_S2x1x4_S2x2000000x1_2_2_1_1_0_0.rhsBatch by decide)]
  rfl

theorem rhs_dot4_1 (i : S2x2000000x1.Idx) (q : dot_S2x2000000x4_S2x1x4_S2x2000000x1_2_2_1_1_0_0.contr.Idx) :
    (dot_S2x2000000x4_S2x1x4_S2x2000000x1_2_2_1_1_0_0.rhsIdx i q 1).val = (i 2).val := by
  unfold DotDims.rhsIdx
  rw [dif_neg (show ¬(1 : Fin S2x1x4.rank) ∈ dot_S2x2000000x4_S2x1x4_S2x2000000x1_2_2_1_1_0_0.rhsBatch by decide), dif_pos (show (1 : Fin S2x1x4.rank) ∈ dot_S2x2000000x4_S2x1x4_S2x2000000x1_2_2_1_1_0_0.rhsNonContracting by decide)]
  rfl

theorem rhs_dot4_2 (i : S2x2000000x1.Idx) (q : dot_S2x2000000x4_S2x1x4_S2x2000000x1_2_2_1_1_0_0.contr.Idx) :
    (dot_S2x2000000x4_S2x1x4_S2x2000000x1_2_2_1_1_0_0.rhsIdx i q 2).val = (q ⟨0, by decide⟩).val :=
  dot_S2x2000000x4_S2x1x4_S2x2000000x1_2_2_1_1_0_0.rhsIdx_val_of_single rfl i q

/-- The one-wide heads' contraction at (e, r, o): the sum over h of x (e, r, h) · w (e, o, h). -/
theorem dot4_apply (x : FVec Ideal S2x2000000x4 .f32) (w : FVec Ideal S2x1x4 .f32) (e : Fin 2) (r : Fin 2000000) (o : Fin 1) :
    Host.dotGeneral (F := Ideal) dot_S2x2000000x4_S2x1x4_S2x2000000x1_2_2_1_1_0_0 none x w (ix3 e r o) = ∑ h : Fin 4, x (ix3 e r h) * w (ix3 e o h) := by
  simp only [Host.dotGeneral]
  rw [Ideal.dotGeneral_apply, ← Equiv.sum_comp (contrEquiv1 dot_S2x2000000x4_S2x1x4_S2x2000000x1_2_2_1_1_0_0 4 rfl rfl).symm]
  refine Finset.sum_congr rfl fun i _ => ?_
  have hk := contrEquiv1_symm_val dot_S2x2000000x4_S2x1x4_S2x2000000x1_2_2_1_1_0_0 4 rfl rfl i
  have el : dot_S2x2000000x4_S2x1x4_S2x2000000x1_2_2_1_1_0_0.lhsIdx (ix3 e r o) ((contrEquiv1 dot_S2x2000000x4_S2x1x4_S2x2000000x1_2_2_1_1_0_0 4 rfl rfl).symm i) = ix3 e r i := funext fun a => Fin.ext (by
    match a with
    | ⟨0, _⟩ => exact lhs_dot4_0 _ _
    | ⟨1, _⟩ => exact lhs_dot4_1 _ _
    | ⟨2, _⟩ => exact (lhs_dot4_2 _ _).trans hk)
  have er : dot_S2x2000000x4_S2x1x4_S2x2000000x1_2_2_1_1_0_0.rhsIdx (ix3 e r o) ((contrEquiv1 dot_S2x2000000x4_S2x1x4_S2x2000000x1_2_2_1_1_0_0 4 rfl rfl).symm i) = ix3 e o i := funext fun a => Fin.ext (by
    match a with
    | ⟨0, _⟩ => exact rhs_dot4_0 _ _
    | ⟨1, _⟩ => exact rhs_dot4_1 _ _
    | ⟨2, _⟩ => exact (rhs_dot4_2 _ _).trans hk)
  rw [el, er]

/-- A per-head bias row spread over the batch axis reads the bias of that head and output. -/
theorem bias4_apply (b : FVec Ideal S4x2 .f32) (e : Fin 4) (r : Fin 2000000) (o : Fin 2) :
    broadcastInDim S4x2000000x2 ![0, 1, 2] bcast_S4x1x2_S4x2000000x2_0_1_2
      (broadcastInDim S4x1x2 ![0, 2] bcast_S4x2_S4x1x2_0_2 b) (ix3 e r o) = b (ix2 e o) :=
  (broadcastInDim_apply _ _ _ (ix3 e r o) (ix3 e (0 : Fin 1) o)
      fun a => match a with | ⟨0, _⟩ => rfl | ⟨1, _⟩ => rfl | ⟨2, _⟩ => rfl).trans
    (broadcastInDim_apply _ _ b (ix3 e (0 : Fin 1) o) (ix2 e o) fun a => match a with | ⟨0, _⟩ => rfl | ⟨1, _⟩ => rfl)

/-- The same for the one-wide heads. -/
theorem bias2_apply (b : FVec Ideal S2x1 .f32) (e : Fin 2) (r : Fin 2000000) (o : Fin 1) :
    broadcastInDim S2x2000000x1 ![0, 1, 2] bcast_S2x1x1_S2x2000000x1_0_1_2
      (broadcastInDim S2x1x1 ![0, 2] bcast_S2x1_S2x1x1_0_2 b) (ix3 e r o) = b (ix2 e (0 : Fin 1)) :=
  (broadcastInDim_apply _ _ _ (ix3 e r o) (ix3 e (0 : Fin 1) (0 : Fin 1))
      fun a => match a with | ⟨0, _⟩ => rfl | ⟨1, _⟩ => rfl | ⟨2, _⟩ => rfl).trans
    (broadcastInDim_apply _ _ b (ix3 e (0 : Fin 1) (0 : Fin 1)) (ix2 e (0 : Fin 1)) fun a => match a with | ⟨0, _⟩ => rfl | ⟨1, _⟩ => rfl)

/-- The branches the two-wide heads act on. -/
def tab4 : Fin 4 → Fin 6 := ![0, 1, 4, 5]
/-- The branches the one-wide heads act on. -/
def tab2 : Fin 2 → Fin 6 := ![2, 3]

theorem pick4_tab (e : Fin 4) : min (pick4 (F := Ideal) (ix2 e (0 : Fin 1))).toInt.toNat 5 = (tab4 e).val :=
  (pick4_val e).trans (by match e with | ⟨0, _⟩ => rfl | ⟨1, _⟩ => rfl | ⟨2, _⟩ => rfl | ⟨3, _⟩ => rfl)
theorem pick2_tab (e : Fin 2) : min (pick2 (F := Ideal) (ix2 e (0 : Fin 1))).toInt.toNat 5 = (tab2 e).val :=
  (pick2_val e).trans (by match e with | ⟨0, _⟩ => rfl | ⟨1, _⟩ => rfl)

/-- Two-wide head e at (r, o): the contraction of branch tab4 e's hidden row with the head's weights, plus its bias. -/
theorem heads2_apply (v26 : FVec Ideal S6x2000000x4 .f32) (a8 : FVec Ideal S4x2x4 .f32) (a9 : FVec Ideal S4x2 .f32)
    (e : Fin 4) (r : Fin 2000000) (o : Fin 2) :
    heads2 (F := Ideal) v26 a8 a9 (ix3 e r o) = (∑ h : Fin 4, v26 (ix3 (tab4 e) r h) * a8 (ix3 e o h)) + a9 (ix2 e o) := by
  unfold heads2
  dsimp only
  rw [addf_apply, dot3_apply, bias4_apply]
  congr 1
  refine Finset.sum_congr rfl fun h _ => ?_
  rw [gather4_apply v26 _ e r h (tab4 e) (pick4_tab e)]

/-- One-wide head e at (r, 0): the contraction of branch tab2 e's hidden row with the head's weights, plus its bias. -/
theorem heads1_apply (v26 : FVec Ideal S6x2000000x4 .f32) (a10 : FVec Ideal S2x1x4 .f32) (a11 : FVec Ideal S2x1 .f32)
    (e : Fin 2) (r : Fin 2000000) (o : Fin 1) :
    heads1 (F := Ideal) v26 a10 a11 (ix3 e r o) = (∑ h : Fin 4, v26 (ix3 (tab2 e) r h) * a10 (ix3 e o h)) + a11 (ix2 e (0 : Fin 1)) := by
  unfold heads1
  dsimp only
  rw [addf_apply, dot4_apply, bias2_apply]
  congr 1
  refine Finset.sum_congr rfl fun h _ => ?_
  rw [gather2_apply v26 _ e r h (tab2 e) (pick2_tab e)]

end Cert.ReferenceIdeal.RefValue

end
-- ==== Proof.RefValueC.lean ====
/-
  The reference's last stages read at an index, at the exact extended-real values.

  * Two two-wide heads side by side at (r, c): the first at c when c < 2, else the second at c − 2.
  * A last head at (r, 0): the finite sum over the four side-by-side entries times the head's weights (its weight row
    cut out, its unit axis dropped, transposed), plus its bias (cut out and spread over the rows).
  * The result at (r, q): one-wide heads 0 and 1, then last heads 0 and 1.
-/
import proofs.«116432_j48292612276330_1_alg».proof.Proof.RefTerm
import proofs.«116432_j48292612276330_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«116432_j48292612276330_1_alg».proof.Proof.Lay

noncomputable section

namespace Cert.ReferenceIdeal.RefValue

open Cert.ReferenceIdeal Cert.ReferenceIdeal.Gen Cert.ReferenceIdeal.RefTerm Idealize.ShloMosaic Idealize.ShloMosaic.ValueIdx
open Cert.BranchNet (sigm one)

/-! ## Slabs of the heads' results -/

theorem slab2_0_apply {α : Type} (x : S4x2000000x2.Idx → α) (hs : S4x2000000x2.Slices ![0, 0, 0] S1x2000000x2)
    (u : Fin 1) (r : Fin 2000000) (o : Fin 2) :
    extractStridedSlice S1x2000000x2 ![0, 0, 0] x hs (ix3 u r o) = x (ix3 (0 : Fin 4) r o) :=
  extractStridedSlice_apply _ x hs _ _ fun a => match a with
    | ⟨0, _⟩ => by show 0 = 0 + u.val; omega
    | ⟨1, _⟩ => by show r.val = 0 + r.val; omega
    | ⟨2, _⟩ => by show o.val = 0 + o.val; omega

theorem slab2_1_apply {α : Type} (x : S4x2000000x2.Idx → α) (hs : S4x2000000x2.Slices ![1, 0, 0] S1x2000000x2)
    (u : Fin 1) (r : Fin 2000000) (o : Fin 2) :
    extractStridedSlice S1x2000000x2 ![1, 0, 0] x hs (ix3 u r o) = x (ix3 (1 : Fin 4) r o) :=
  extractStridedSlice_apply _ x hs _ _ fun a => match a with
    | ⟨0, _⟩ => by show 1 = 1 + u.val; omega
    | ⟨1, _⟩ => by show r.val = 0 + r.val; omega
    | ⟨2, _⟩ => by show o.val = 0 + o.val; omega

theorem slab2_2_apply {α : Type} (x : S4x2000000x2.Idx → α) (hs : S4x2000000x2.Slices ![2, 0, 0] S1x2000000x2)
    (u : Fin 1) (r : Fin 2000000) (o : Fin 2) :
    extractStridedSlice S1x2000000x2 ![2, 0, 0] x hs (ix3 u r o) = x (ix3 (2 : Fin 4) r o) :=
  extractStridedSlice_apply _ x hs _ _ fun a => match a with
    | ⟨0, _⟩ => by show 2 = 2 + u.val; omega
    | ⟨1, _⟩ => by show r.val = 0 + r.val; omega
    | ⟨2, _⟩ => by show o.val = 0 + o.val; omega

theorem slab2_3_apply {α : Type} (x : S4x2000000x2.Idx → α) (hs : S4x2000000x2.Slices ![3, 0, 0] S1x2000000x2)
    (u : Fin 1) (r : Fin 2000000) (o : Fin 2) :
    extractStridedSlice S1x2000000x2 ![3, 0, 0] x hs (ix3 u r o) = x (ix3 (3 : Fin 4) r o) :=
  extractStridedSlice_apply _ x hs _ _ fun a => match a with
    | ⟨0, _⟩ => by show 3 = 3 + u.val; omega
    | ⟨1, _⟩ => by show r.val = 0 + r.val; omega
    | ⟨2, _⟩ => by show o.val = 0 + o.val; omega

theorem slab1_0_apply {α : Type} (x : S2x2000000x1.Idx → α) (hs : S2x2000000x1.Slices ![0, 0, 0] S1x2000000x1)
    (u : Fin 1) (r : Fin 2000000) (o : Fin 1) :
    extractStridedSlice S1x2000000x1 ![0, 0, 0] x hs (ix3 u r o) = x (ix3 (0 : Fin 2) r o) :=
  extractStridedSlice_apply _ x hs _ _ fun a => match a with
    | ⟨0, _⟩ => by show 0 = 0 + u.val; omega
    | ⟨1, _⟩ => by show r.val = 0 + r.val; omega
    | ⟨2, _⟩ => by show o.val = 0 + o.val; omega

theorem slab1_1_apply {α : Type} (x : S2x2000000x1.Idx → α) (hs : S2x2000000x1.Slices ![1, 0, 0] S1x2000000x1)
    (u : Fin 1) (r : Fin 2000000) (o : Fin 1) :
    extractStridedSlice S1x2000000x1 ![1, 0, 0] x hs (ix3 u r o) = x (ix3 (1 : Fin 2) r o) :=
  extractStridedSlice_apply _ x hs _ _ fun a => match a with
    | ⟨0, _⟩ => by show 1 = 1 + u.val; omega
    | ⟨1, _⟩ => by show r.val = 0 + r.val; omega
    | ⟨2, _⟩ => by show o.val = 0 + o.val; omega

/-! ## The pairs: two two-wide heads side by side -/

/-- Heads 0 and 2 side by side at (r, c). -/
theorem pairA_apply (v37 : FVec Ideal S4x2000000x2 .f32) (r : Fin 2000000) (c : Fin 4) :
    pairA (F := Ideal) v37 (ix2 r c)
      = Cert.BranchNet.side (fun o => v37 (ix3 (0 : Fin 4) r o)) (fun o => v37 (ix3 (2 : Fin 4) r o)) c := by
  unfold pairA
  dsimp only
  rw [Cert.BranchNet.Lay.pair_apply]
  simp only [shapeCast_1ab_ab_apply, slab2_0_apply, slab2_2_apply]

/-- Heads 1 and 3 side by side at (r, c). -/
theorem pairB_apply (v37 : FVec Ideal S4x2000000x2 .f32) (r : Fin 2000000) (c : Fin 4) :
    pairB (F := Ideal) v37 (ix2 r c)
      = Cert.BranchNet.side (fun o => v37 (ix3 (1 : Fin 4) r o)) (fun o => v37 (ix3 (3 : Fin 4) r o)) c := by
  unfold pairB
  dsimp only
  rw [Cert.BranchNet.Lay.pair_apply]
  simp only [shapeCast_1ab_ab_apply, slab2_1_apply, slab2_3_apply]

/-! ## The last heads -/

theorem lhs_dot5_0 (i : S2000000x1.Idx) (q : dot_S2000000x4_S4x1_S2000000x1_1_0_0_1_n_n.contr.Idx) :
    (dot_S2000000x4_S4x1_S2000000x1_1_0_0_1_n_n.lhsIdx i q 0).val = (i 0).val := by
  unfold DotDims.lhsIdx
  rw [dif_neg (show ¬(0 : Fin S2000000x4.rank) ∈ dot_S2000000x4_S4x1_S2000000x1_1_0_0_1_n_n.lhsBatch by decide), dif_pos (show (0 : Fin S2000000x4.rank) ∈ dot_S2000000x4_S4x1_S2000000x1_1_0_0_1_n_n.lhsNonContracting by decide)]
  rfl

theorem lhs_dot5_1 (i : S2000000x1.Idx) (q : dot_S2000000x4_S4x1_S2000000x1_1_0_0_1_n_n.contr.Idx) :
    (dot_S2000000x4_S4x1_S2000000x1_1_0_0_1_n_n.lhsIdx i q 1).val = (q ⟨0, by decide⟩).val :=
  dot_S2000000x4_S4x1_S2000000x1_1_0_0_1_n_n.lhsIdx_val_of_single rfl i q

theorem rhs_dot5_0 (i : S2000000x1.Idx) (q : dot_S2000000x4_S4x1_S2000000x1_1_0_0_1_n_n.contr.Idx) :
    (dot_S2000000x4_S4x1_S2000000x1_1_0_0_1_n_n.rhsIdx i q 0).val = (q ⟨0, by decide⟩).val :=
  dot_S2000000x4_S4x1_S2000000x1_1_0_0_1_n_n.rhsIdx_val_of_single rfl i q

theorem rhs_dot5_1 (i : S2000000x1.Idx) (q : dot_S2000000x4_S4x1_S2000000x1_1_0_0_1_n_n.contr.Idx) :
    (dot_S2000000x4_S4x1_S2000000x1_1_0_0_1_n_n.rhsIdx i q 1).val = (i 1).val := by
  unfold DotDims.rhsIdx
  rw [dif_neg (show ¬(1 : Fin S4x1.rank) ∈ dot_S2000000x4_S4x1_S2000000x1_1_0_0_1_n_n.rhsBatch by decide), dif_pos (show (1 : Fin S4x1.rank) ∈ dot_S2000000x4_S4x1_S2000000x1_1_0_0_1_n_n.rhsNonContracting by decide)]
  rfl

/-- The plain contraction at (r, o): the sum over c of x (r, c) · w (c, o). -/
theorem dot5_apply (x : FVec Ideal S2000000x4 .f32) (w : FVec Ideal S4x1 .f32) (r : Fin 2000000) (o : Fin 1) :
    Host.dotGeneral (F := Ideal) dot_S2000000x4_S4x1_S2000000x1_1_0_0_1_n_n none x w (ix2 r o) = ∑ c : Fin 4, x (ix2 r c) * w (ix2 c o) := by
  simp only [Host.dotGeneral]
  rw [Ideal.dotGeneral_apply, ← Equiv.sum_comp (contrEquiv1 dot_S2000000x4_S4x1_S2000000x1_1_0_0_1_n_n 4 rfl rfl).symm]
  refine Finset.sum_congr rfl fun i _ => ?_
  have hk := contrEquiv1_symm_val dot_S2000000x4_S4x1_S2000000x1_1_0_0_1_n_n 4 rfl rfl i
  have el : dot_S2000000x4_S4x1_S2000000x1_1_0_0_1_n_n.lhsIdx (ix2 r o) ((contrEquiv1 dot_S2000000x4_S4x1_S2000000x1_1_0_0_1_n_n 4 rfl rfl).symm i) = ix2 r i := funext fun a => Fin.ext (by
    match a with
    | ⟨0, _⟩ => exact lhs_dot5_0 _ _
    | ⟨1, _⟩ => exact (lhs_dot5_1 _ _).trans hk)
  have er : dot_S2000000x4_S4x1_S2000000x1_1_0_0_1_n_n.rhsIdx (ix2 r o) ((contrEquiv1 dot_S2000000x4_S4x1_S2000000x1_1_0_0_1_n_n 4 rfl rfl).symm i) = ix2 i o := funext fun a => Fin.ext (by
    match a with
    | ⟨0, _⟩ => exact (rhs_dot5_0 _ _).trans hk
    | ⟨1, _⟩ => exact rhs_dot5_1 _ _)
  rw [el, er]

/-- The bias of last head 0, cut out of the table and spread over the rows, reads that one entry everywhere. -/
theorem biasLast0_apply (b : FVec Ideal S2x1 .f32) (r : Fin 2000000) (o : Fin 1) :
    broadcastInDim S2000000x1 ![0, 1] bcast_S1x1_S2000000x1_0_1
      (broadcastInDim S1x1 ![1] bcast_S1_S1x1_1
        (shapeCast S1 (extractStridedSlice S1x1 ![0, 0] b slices_S2x1_S1x1_0_0) shapeCasts_S1x1_S1)) (ix2 r o)
      = b (ix2 (0 : Fin 2) (0 : Fin 1)) := by
  refine (broadcastInDim_apply _ _ _ (ix2 r o) (ix2 (0 : Fin 1) (0 : Fin 1))
    fun a => match a with | ⟨0, _⟩ => rfl | ⟨1, _⟩ => rfl).trans ?_
  refine (broadcastInDim_apply _ _ _ (ix2 (0 : Fin 1) (0 : Fin 1)) (ix1 (0 : Fin 1))
    fun a => match a with | ⟨0, _⟩ => rfl).trans ?_
  rw [shapeCast_1a_a_apply]
  exact extractStridedSlice_apply _ b _ _ _ fun a => match a with
    | ⟨0, _⟩ => rfl
    | ⟨1, _⟩ => rfl

/-- The bias of last head 1, cut out of the table and spread over the rows, reads that one entry everywhere. -/
theorem biasLast1_apply (b : FVec Ideal S2x1 .f32) (r : Fin 2000000) (o : Fin 1) :
    broadcastInDim S2000000x1 ![0, 1] bcast_S1x1_S2000000x1_0_1
      (broadcastInDim S1x1 ![1] bcast_S1_S1x1_1
        (shapeCast S1 (extractStridedSlice S1x1 ![1, 0] b slices_S2x1_S1x1_1_0) shapeCasts_S1x1_S1)) (ix2 r o)
      = b (ix2 (1 : Fin 2) (0 : Fin 1)) := by
  refine (broadcastInDim_apply _ _ _ (ix2 r o) (ix2 (0 : Fin 1) (0 : Fin 1))
    fun a => match a with | ⟨0, _⟩ => rfl | ⟨1, _⟩ => rfl).trans ?_
  refine (broadcastInDim_apply _ _ _ (ix2 (0 : Fin 1) (0 : Fin 1)) (ix1 (0 : Fin 1))
    fun a => match a with | ⟨0, _⟩ => rfl).trans ?_
  rw [shapeCast_1a_a_apply]
  exact extractStridedSlice_apply _ b _ _ _ fun a => match a with
    | ⟨0, _⟩ => rfl
    | ⟨1, _⟩ => rfl

/-- Last head 0 at (r, 0): the contraction of the 4-vector with the head's weights, plus its bias. -/
theorem lastA_apply (v53 : FVec Ideal S2000000x4 .f32) (a12 : FVec Ideal S2x1x4 .f32) (a13 : FVec Ideal S2x1 .f32)
    (r : Fin 2000000) (o : Fin 1) :
    lastA (F := Ideal) v53 a12 a13 (ix2 r o)
      = (∑ c : Fin 4, v53 (ix2 r c) * a12 (ix3 (0 : Fin 2) (0 : Fin 1) c)) + a13 (ix2 (0 : Fin 2) (0 : Fin 1)) := by
  unfold lastA
  dsimp only
  rw [addf_apply, dot5_apply, biasLast0_apply]
  congr 1
  refine Finset.sum_congr rfl fun c _ => ?_
  obtain rfl : o = 0 := Subsingleton.elim _ _
  rw [Cert.BranchNet.Lay.weightT_apply a12 0 (by omega)]
  rfl

/-- Last head 1 at (r, 0): the contraction of the 4-vector with the head's weights, plus its bias. -/
theorem lastB_apply (v58 : FVec Ideal S2000000x4 .f32) (a12 : FVec Ideal S2x1x4 .f32) (a13 : FVec Ideal S2x1 .f32)
    (r : Fin 2000000) (o : Fin 1) :
    lastB (F := Ideal) v58 a12 a13 (ix2 r o)
      = (∑ c : Fin 4, v58 (ix2 r c) * a12 (ix3 (1 : Fin 2) (0 : Fin 1) c)) + a13 (ix2 (1 : Fin 2) (0 : Fin 1)) := by
  unfold lastB
  dsimp only
  rw [addf_apply, dot5_apply, biasLast1_apply]
  congr 1
  refine Finset.sum_congr rfl fun c _ => ?_
  obtain rfl : o = 0 := Subsingleton.elim _ _
  rw [Cert.BranchNet.Lay.weightT_apply a12 1 (by omega)]
  rfl

/-! ## The four result columns -/

/-- The result at (r, q): the one-wide heads 0 and 1, then the last heads 0 and 1. -/
theorem columns_apply (v48 : FVec Ideal S2x2000000x1 .f32) (v67 v76 : FVec Ideal S2000000x1 .f32) (r : Fin 2000000) (q : Fin 4) :
    columns (F := Ideal) v48 v67 v76 (ix2 r q)
      = if q.val = 0 then v48 (ix3 (0 : Fin 2) r (0 : Fin 1)) else if q.val = 1 then v48 (ix3 (1 : Fin 2) r (0 : Fin 1))
        else if q.val = 2 then v67 (ix2 r (0 : Fin 1)) else v76 (ix2 r (0 : Fin 1)) := by
  unfold columns
  dsimp only
  rw [Cert.BranchNet.Lay.four_apply]
  simp only [shapeCast_1ab_ab_apply, slab1_0_apply, slab1_1_apply]

end Cert.ReferenceIdeal.RefValue

end
-- ==== Proof.RefValue.lean ====
/-
  The reference's result, index by index, is the specification: the stage-by-stage readings composed.
-/
import proofs.«116432_j48292612276330_1_alg».proof.Proof.RefValueA
import proofs.«116432_j48292612276330_1_alg».proof.Proof.RefValueB
import proofs.«116432_j48292612276330_1_alg».proof.Proof.RefValueC

noncomputable section

namespace Cert.ReferenceIdeal.RefValue

open Cert.ReferenceIdeal Cert.ReferenceIdeal.Gen Cert.ReferenceIdeal.RefTerm Idealize.ShloMosaic Idealize.ShloMosaic.ValueIdx
open Cert.BranchNet (sigm one)

open Cert.BranchNet (Params h1 h2 head1 head2 side last rowOut rowOf out)

/-- The second hidden layer of the stacked inputs at (k, r, g) is the specification's second hidden layer of branch k
    on row r of the array branch k reads. -/
theorem trunk_apply (a0 a1 a2 : FVec Ideal S2000000x5 .f32) (a4 : FVec Ideal S6x4x5 .f32) (a5 : FVec Ideal S6x4 .f32)
    (a6 : FVec Ideal S6x4x4 .f32) (a7 : FVec Ideal S6x4 .f32) (a8 : FVec Ideal S4x2x4 .f32) (a9 : FVec Ideal S4x2 .f32)
    (a10 : FVec Ideal S2x1x4 .f32) (a11 : FVec Ideal S2x1 .f32) (a12 : FVec Ideal S2x1x4 .f32) (a13 : FVec Ideal S2x1 .f32)
    (k : Fin 6) (r : Fin 2000000) (g : Fin 4) :
    hidden2 (F := Ideal) (hidden1 (F := Ideal) (stack (F := Ideal) a0 a1 a2) a4 a5) a6 a7 (ix3 k r g)
      = h2 ⟨a4, a5, a6, a7, a8, a9, a10, a11, a12, a13⟩ k (rowOf (src a0 a1 a2 k) r) g := by
  rw [hidden2_apply]
  simp only [hidden1_apply, stack_apply]
  rfl

/-- The reference's result, index by index, is the specification. -/
theorem result_eq (a0 a1 a2 : FVec Ideal S2000000x5 .f32) (a4 : FVec Ideal S6x4x5 .f32) (a5 : FVec Ideal S6x4 .f32)
    (a6 : FVec Ideal S6x4x4 .f32) (a7 : FVec Ideal S6x4 .f32) (a8 : FVec Ideal S4x2x4 .f32) (a9 : FVec Ideal S4x2 .f32)
    (a10 : FVec Ideal S2x1x4 .f32) (a11 : FVec Ideal S2x1 .f32) (a12 : FVec Ideal S2x1x4 .f32) (a13 : FVec Ideal S2x1 .f32) :
    result (F := Ideal) a0 a1 a2 a4 a5 a6 a7 a8 a9 a10 a11 a12 a13 = out ⟨a4, a5, a6, a7, a8, a9, a10, a11, a12, a13⟩ a0 a1 a2 := by
  funext j
  obtain ⟨r, q, rfl⟩ : ∃ (r : Fin 2000000) (q : Fin 4), j = ix2 r q := ⟨j 0, j 1, eq_ix2 j⟩
  unfold result
  dsimp only
  rw [columns_apply]
  show _ = rowOut ⟨a4, a5, a6, a7, a8, a9, a10, a11, a12, a13⟩ (rowOf a0 r) (rowOf a1 r) (rowOf a2 r) q
  unfold rowOut
  refine if_congr Iff.rfl ?_ (if_congr Iff.rfl ?_ (if_congr Iff.rfl ?_ ?_))
  · rw [heads1_apply]
    simp only [trunk_apply a0 a1 a2 a4 a5 a6 a7 a8 a9 a10 a11 a12 a13]
    rfl
  · rw [heads1_apply]
    simp only [trunk_apply a0 a1 a2 a4 a5 a6 a7 a8 a9 a10 a11 a12 a13]
    rfl
  · rw [lastA_apply]
    simp only [pairA_apply, heads2_apply, trunk_apply a0 a1 a2 a4 a5 a6 a7 a8 a9 a10 a11 a12 a13]
    rfl
  · rw [lastB_apply]
    simp only [pairB_apply, heads2_apply, trunk_apply a0 a1 a2 a4 a5 a6 a7 a8 a9 a10 a11 a12 a13]
    rfl

end Cert.ReferenceIdeal.RefValue

end
-- ==== Proof.lean ====
/-
  The certificate's five claims.

  Both programs compute, row by row of the batch, six two-layer perceptrons with the logistic 1 / (1 + exp (−z))
  written out, small linear heads on their outputs, and a last pair of heads on heads laid side by side
  (Proof/Spec.lean: `Cert.BranchNet.out`). The kernel does it on blocks of 10000 rows, one block per grid point
  (Proof/KDot … KHeads: its body at an index is the specification's result row; Proof/KArray: the 200 blocks tile the
  array). The reference does it on the whole batch with the six branches stacked along a leading axis (Proof/RefRun:
  its run ends at the composed term of its operations; Proof/RefValue: that term, index by index, is the
  specification). The two sides are the same sums of the same products, so no finiteness of the inputs is needed:
  the only identities used on the extended reals are 0 − z = −z and 0 + s = s.

  The frames of the two kernel programs are the generated ones; the reference's frame is its run with the result
  dropped. The idealization rewrote no operation, so `preserves` has nothing to state.
-/
import proofs.«116432_j48292612276330_1_alg».proof.Defs
import proofs.«116432_j48292612276330_1_alg».proof.Proof.Gen.Kernel
import proofs.«116432_j48292612276330_1_alg».proof.Proof.Gen.Kernel.Skeleton
import proofs.«116432_j48292612276330_1_alg».proof.Proof.Gen.Kernel.Launch
import proofs.«116432_j48292612276330_1_alg».proof.Proof.Gen.Kernel.Points
import proofs.«116432_j48292612276330_1_alg».proof.Proof.Gen.Kernel.Frame
import proofs.«116432_j48292612276330_1_alg».proof.Proof.Gen.KernelIdeal
import proofs.«116432_j48292612276330_1_alg».proof.Proof.Gen.KernelIdeal.Skeleton
import proofs.«116432_j48292612276330_1_alg».proof.Proof.Gen.KernelIdeal.Launch
import proofs.«116432_j48292612276330_1_alg».proof.Proof.Gen.KernelIdeal.Points
import proofs.«116432_j48292612276330_1_alg».proof.Proof.Gen.KernelIdeal.Frame
import proofs.«116432_j48292612276330_1_alg».proof.Proof.Gen.KernelIdeal.Value
import proofs.«116432_j48292612276330_1_alg».proof.Proof.Gen.ReferenceIdeal
import proofs.«116432_j48292612276330_1_alg».proof.Proof.Gen.Pre_finite_inputs
import proofs.«116432_j48292612276330_1_alg».proof.Proof.KArray
import proofs.«116432_j48292612276330_1_alg».proof.Proof.RefRun
import proofs.«116432_j48292612276330_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments, the kernel's result array is the specification of its arguments
    (blocks tiled), the reference's result is the specification of its own (its term read index by index), and the
    arguments are the same arrays. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13⟩ := hagree c
  rw [Cert.ReferenceIdeal.RefValue.result_eq, h0, h1, h2, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
